-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x32 : Shape := ⟨3, ![16, 2048, 32]⟩
abbrev S16x2048x2048 : Shape := ⟨3, ![16, 2048, 2048]⟩
abbrev S96x32 : Shape := ⟨2, ![96, 32]⟩
abbrev S96 : Shape := ⟨1, ![96]⟩
abbrev S_ : Shape := ⟨0, ![]⟩

class Facts : Prop where
  bcast_S_S16x2048x32 : S_.BroadcastsInDim S16x2048x32 (![] : Fin 0 → Fin S16x2048x32.rank)
  reducesTo_S16x2048x32_S_d0_1_2 : S16x2048x32.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S96x32 : S_.BroadcastsInDim S96x32 (![] : Fin 0 → Fin S96x32.rank)
  reducesTo_S96x32_S_d0_1 : S96x32.ReducesTo [0, 1] S_
  bcast_S_S96 : S_.BroadcastsInDim S96 (![] : Fin 0 → Fin S96.rank)
  reducesTo_S96_S_d0 : S96.ReducesTo [0] S_

variable [Facts]

def fn_part3 {F : FTy → Type} [FloatOps F] (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  main_v53

def fn_part2 {F : FTy → Type} [FloatOps F] (main_arg7 : FVec F S96x32 .f32) (main_arg8 : FVec F S96x32 .f32) (main_arg9 : FVec F S96 .f32) (main_arg10 : FVec F S96 .f32) (main_v33 : IVec S_ 1) : IVec S_ 1 :=
  let main_v34 : FVec F S96x32 .f32 := Host.absf main_arg7
  let main_cst_12 : FVec F S_ .f32 := constant S_ .f32 0x7F800000#32
  let main_v35 : FVec F S96x32 .f32 := broadcastInDim S96x32 ![] bcast_S_S96x32 main_cst_12
  let main_v36 : IVec S96x32 1 := cmpf .olt main_v34 main_v35
  let main_c_13 : IVec S_ 1 := constantI S_ 1 1#1
  let main_v37 : IVec S_ 1 := (fun x v => Host.reduce IntOp.andi x v reducesTo_S96x32_S_d0_1 h_S_) main_v36 main_c_13
  let main_v38 : IVec S_ 1 := andi main_v33 main_v37
  let main_v39 : FVec F S96x32 .f32 := Host.absf main_arg8
  let main_cst_14 : FVec F S_ .f32 := constant S_ .f32 0x7F800000#32
  let main_v40 : FVec F S96x32 .f32 := broadcastInDim S96x32 ![] bcast_S_S96x32 main_cst_14
  let main_v41 : IVec S96x32 1 := cmpf .olt main_v39 main_v40
  let main_c_15 : IVec S_ 1 := constantI S_ 1 1#1
  let main_v42 : IVec S_ 1 := (fun x v => Host.reduce IntOp.andi x v reducesTo_S96x32_S_d0_1 h_S_) main_v41 main_c_15
  let main_v43 : IVec S_ 1 := andi main_v38 main_v42
  let main_v44 : FVec F S96 .f32 := Host.absf main_arg9
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96 .f32 := Host.absf main_arg10
  let main_cst_18 : FVec F S_ .f32 := constant S_ .f32 0x7F800000#32
  let main_v50 : FVec F S96 .f32 := broadcastInDim S96 ![] bcast_S_S96 main_cst_18
  fn_part3 (F := F) main_v48 main_v49 main_v50

def fn_part1 {F : FTy → Type} [FloatOps F] (main_arg4 : FVec F S96x32 .f32) (main_arg5 : FVec F S96 .f32) (main_arg6 : FVec F S96 .f32) (main_arg7 : FVec F S96x32 .f32) (main_arg8 : FVec F S96x32 .f32) (main_arg9 : FVec F S96 .f32) (main_arg10 : FVec F S96 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S96x32 .f32 := Host.absf main_arg4
  let main_cst_6 : FVec F S_ .f32 := constant S_ .f32 0x7F800000#32
  let main_v20 : FVec F S96x32 .f32 := broadcastInDim S96x32 ![] bcast_S_S96x32 main_cst_6
  let main_v21 : IVec S96x32 1 := cmpf .olt main_v19 main_v20
  let main_c_7 : IVec S_ 1 := constantI S_ 1 1#1
  let main_v22 : IVec S_ 1 := (fun x v => Host.reduce IntOp.andi x v reducesTo_S96x32_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x2048x32 .f32) (main_arg1 : FVec F S16x2048x32 .f32) (main_arg2 : FVec F S16x2048x2048 .f32) (main_arg3 : FVec F S96x32 .f32) (main_arg4 : FVec F S96x32 .f32) (main_arg5 : FVec F S96 .f32) (main_arg6 : FVec F S96 .f32) (main_arg7 : FVec F S96x32 .f32) (main_arg8 : FVec F S96x32 .f32) (main_arg9 : FVec F S96 .f32) (main_arg10 : FVec F S96 .f32) : IVec S_ 1 :=
  let main_v0 : FVec F S16x2048x32 .f32 := Host.absf main_arg0
  let main_cst : FVec F S_ .f32 := constant S_ .f32 0x7F800000#32
  let main_v1 : FVec F S16x2048x32 .f32 := broadcastInDim S16x2048x32 ![] bcast_S_S16x2048x32 main_cst
  let main_v2 : IVec S16x2048x32 1 := cmpf .olt main_v0 main_v1
  let main_c : IVec S_ 1 := constantI S_ 1 1#1
  let main_v3 : IVec S_ 1 := (fun x v => Host.reduce IntOp.andi x v reducesTo_S16x2048x32_S_d0_1_2 h_S_) main_v2 main_c
  let main_v4 : FVec F S16x2048x32 .f32 := Host.absf main_arg1
  let main_cst_0 : FVec F S_ .f32 := constant S_ .f32 0x7F800000#32
  let main_v5 : FVec F S16x2048x32 .f32 := broadcastInDim S16x2048x32 ![] bcast_S_S16x2048x32 main_cst_0
  let main_v6 : IVec S16x2048x32 1 := cmpf .olt main_v4 main_v5
  let main_c_1 : IVec S_ 1 := constantI S_ 1 1#1
  let main_v7 : IVec S_ 1 := (fun x v => Host.reduce IntOp.andi x v reducesTo_S16x2048x32_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  let main_v14 : FVec F S96x32 .f32 := Host.absf main_arg3
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg4 main_arg5 main_arg6 main_arg7 main_arg8 main_arg9 main_arg10 main_v13 main_v16
-- ==== Kernel.lean ====
abbrev S16x2048x32 : Shape := ⟨3, ![16, 2048, 32]⟩
abbrev S16x2048x2048 : Shape := ⟨3, ![16, 2048, 2048]⟩
abbrev S96x32 : Shape := ⟨2, ![96, 32]⟩
abbrev S96 : Shape := ⟨1, ![96]⟩
abbrev S32x96 : Shape := ⟨2, ![32, 96]⟩
abbrev S1x96 : Shape := ⟨2, ![1, 96]⟩
abbrev S1x1024x2048 : Shape := ⟨3, ![1, 1024, 2048]⟩
abbrev S1x1024x32 : Shape := ⟨3, ![1, 1024, 32]⟩
abbrev S1x2048x32 : Shape := ⟨3, ![1, 2048, 32]⟩
abbrev S2048x32 : Shape := ⟨2, ![2048, 32]⟩
abbrev S1024x32 : Shape := ⟨2, ![1024, 32]⟩
abbrev S1024x2048 : Shape := ⟨2, ![1024, 2048]⟩
abbrev S2048x96 : Shape := ⟨2, ![2048, 96]⟩
abbrev S1x512x2048 : Shape := ⟨3, ![1, 512, 2048]⟩
abbrev S1x512x32 : Shape := ⟨3, ![1, 512, 32]⟩
abbrev S512x2048 : Shape := ⟨2, ![512, 2048]⟩
abbrev S512x32 : Shape := ⟨2, ![512, 32]⟩
abbrev S512x96 : Shape := ⟨2, ![512, 96]⟩

abbrev nBuf : Space → Nat
  | .hbm => 21
  | .vmem => 24
  | .smem => 0
  | _ => 0

abbrev bufTy : (tb : Table) → Fin (tcTables nBuf tb) → BufTy
  | .hbm, ⟨0, _⟩ => ⟨S16x2048x32, .f32⟩
  | .hbm, ⟨1, _⟩ => ⟨S16x2048x32, .f32⟩
  | .hbm, ⟨2, _⟩ => ⟨S16x2048x2048, .f32⟩
  | .hbm, ⟨3, _⟩ => ⟨S96x32, .f32⟩
  | .hbm, ⟨4, _⟩ => ⟨S96x32, .f32⟩
  | .hbm, ⟨5, _⟩ => ⟨S96, .f32⟩
  | .hbm, ⟨6, _⟩ => ⟨S96, .f32⟩
  | .hbm, ⟨7, _⟩ => ⟨S96x32, .f32⟩
  | .hbm, ⟨8, _⟩ => ⟨S96x32, .f32⟩
  | .hbm, ⟨9, _⟩ => ⟨S96, .f32⟩
  | .hbm, ⟨10, _⟩ => ⟨S96, .f32⟩
  | .hbm, ⟨11, _⟩ => ⟨S32x96, .f32⟩
  | .hbm, ⟨12, _⟩ => ⟨S32x96, .f32⟩
  | .hbm, ⟨13, _⟩ => ⟨S1x96, .f32⟩
  | .hbm, ⟨14, _⟩ => ⟨S1x96, .f32⟩
  | .hbm, ⟨15, _⟩ => ⟨S32x96, .f32⟩
  | .hbm, ⟨16, _⟩ => ⟨S32x96, .f32⟩
  | .hbm, ⟨17, _⟩ => ⟨S1x96, .f32⟩
  | .hbm, ⟨18, _⟩ => ⟨S1x96, .f32⟩
  | .hbm, ⟨19, _⟩ => ⟨S16x2048x32, .f32⟩
  | .hbm, ⟨20, _⟩ => ⟨S16x2048x32, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x32, .f32⟩
  | .local _ .vmem, ⟨3, _⟩ => ⟨S1x1024x32, .f32⟩
  | .local _ .vmem, ⟨4, _⟩ => ⟨S1x2048x32, .f32⟩
  | .local _ .vmem, ⟨5, _⟩ => ⟨S1x2048x32, .f32⟩
  | .local _ .vmem, ⟨6, _⟩ => ⟨S32x96, .f32⟩
  | .local _ .vmem, ⟨7, _⟩ => ⟨S32x96, .f32⟩
  | .local _ .vmem, ⟨8, _⟩ => ⟨S1x96, .f32⟩
  | .local _ .vmem, ⟨9, _⟩ => ⟨S1x96, .f32⟩
  | .local _ .vmem, ⟨10, _⟩ => ⟨S1x2048x32, .f32⟩
  | .local _ .vmem, ⟨11, _⟩ => ⟨S1x2048x32, .f32⟩
  | .local _ .vmem, ⟨12, _⟩ => ⟨S2048x32, .f32⟩
  | .local _ .vmem, ⟨13, _⟩ => ⟨S1x512x2048, .f32⟩
  | .local _ .vmem, ⟨14, _⟩ => ⟨S1x512x2048, .f32⟩
  | .local _ .vmem, ⟨15, _⟩ => ⟨S1x2048x32, .f32⟩
  | .local _ .vmem, ⟨16, _⟩ => ⟨S1x512x32, .f32⟩
  | .local _ .vmem, ⟨17, _⟩ => ⟨S1x512x32, .f32⟩
  | .local _ .vmem, ⟨18, _⟩ => ⟨S32x96, .f32⟩
  | .local _ .vmem, ⟨19, _⟩ => ⟨S32x96, .f32⟩
  | .local _ .vmem, ⟨20, _⟩ => ⟨S1x96, .f32⟩
  | .local _ .vmem, ⟨21, _⟩ => ⟨S1x96, .f32⟩
  | .local _ .vmem, ⟨22, _⟩ => ⟨S1x512x32, .f32⟩
  | .local _ .vmem, ⟨23, _⟩ => ⟨S1x512x32, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S32x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  transposes_S96x32_S32x96_1_0 : S96x32.Transposes [1, 0] S32x96
  shapeCasts_S96_S1x96 : S96.ShapeCasts S1x96
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2048x96 : S1x96.Broadcasts S2048x96
  slices_S2048x96_o0_0_S2048x32 : S2048x96.Slices ![0, 0] S2048x32
  slices_S2048x96_o0_32_S2048x32 : S2048x96.Slices ![0, 32] S2048x32
  slices_S2048x96_o0_64_S2048x32 : S2048x96.Slices ![0, 64] S2048x32
  shapeCasts_S2048x32_S1x2048x32 : S2048x32.ShapeCasts S1x2048x32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  broadcasts_S1x96_S512x96 : S1x96.Broadcasts S512x96
  slices_S512x96_o0_0_S512x32 : S512x96.Slices ![0, 0] S512x32
  slices_S512x96_o0_32_S512x32 : S512x96.Slices ![0, 32] S512x32
  slices_S512x96_o0_64_S512x32 : S512x96.Slices ![0, 64] S512x32
  shapeCasts_S512x32_S1x512x32 : S512x32.ShapeCasts S1x512x32
  dot_S1024x2048_S1024x32_S2048x32_0_0_1_1_n_n_wf : DotDims.WF S1024x2048 S1024x32 S2048x32 [0] [0] [1] [1] [] []
  dot_S2048x32_S32x96_S2048x96_1_0_0_1_n_n_wf : DotDims.WF S2048x32 S32x96 S2048x96 [1] [0] [0] [1] [] []
  dot_S512x2048_S2048x32_S512x32_1_0_0_1_n_n_wf : DotDims.WF S512x2048 S2048x32 S512x32 [1] [0] [0] [1] [] []
  dot_S512x32_S32x96_S512x96_1_0_0_1_n_n_wf : DotDims.WF S512x32 S32x96 S512x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x2048x2048.size a
  hwx0_0 : ∀ i : grid0.Coords, EltTy.bits .f32 = 32 ∨ (Rect.block (s := S16x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x32.size a ≤ S16x2048x32.size a
  hwx0_1 : ∀ i : grid0.Coords, EltTy.bits .f32 = 32 ∨ (Rect.block (s := S16x2048x32) S1x1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x32.size a ≤ S16x2048x32.size a
  hwx0_2 : ∀ i : grid0.Coords, EltTy.bits .f32 = 32 ∨ (Rect.block (s := S16x2048x32) S1x2048x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x96.size a ≤ S32x96.size a
  hwx0_3 : ∀ i : grid0.Coords, EltTy.bits .f32 = 32 ∨ (Rect.block (s := S32x96) S32x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x96.size a ≤ S32x96.size a
  hwx0_4 : ∀ i : grid0.Coords, EltTy.bits .f32 = 32 ∨ (Rect.block (s := S32x96) S32x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x32.size a ≤ S16x2048x32.size a
  hwx0_7 : ∀ i : grid0.Coords, EltTy.bits .f32 = 32 ∨ (Rect.block (s := S16x2048x32) S1x2048x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S16x2048x2048.size a
  hwx1_0 : ∀ i : grid1.Coords, EltTy.bits .f32 = 32 ∨ (Rect.block (s := S16x2048x2048) S1x512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x32.size a ≤ S16x2048x32.size a
  hwx1_1 : ∀ i : grid1.Coords, EltTy.bits .f32 = 32 ∨ (Rect.block (s := S16x2048x32) S1x2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x32.size a ≤ S16x2048x32.size a
  hwx1_2 : ∀ i : grid1.Coords, EltTy.bits .f32 = 32 ∨ (Rect.block (s := S16x2048x32) S1x512x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x96.size a ≤ S32x96.size a
  hwx1_3 : ∀ i : grid1.Coords, EltTy.bits .f32 = 32 ∨ (Rect.block (s := S32x96) S32x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x96.size a ≤ S32x96.size a
  hwx1_4 : ∀ i : grid1.Coords, EltTy.bits .f32 = 32 ∨ (Rect.block (s := S32x96) S32x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x96.size a ≤ S1x96.size a
  hwx1_6 : ∀ i : grid1.Coords, EltTy.bits .f32 = 32 ∨ (Rect.block (s := S1x96) S1x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x32.size a ≤ S16x2048x32.size a
  hwx1_7 : ∀ i : grid1.Coords, EltTy.bits .f32 = 32 ∨ (Rect.block (s := S16x2048x32) S1x512x32.size (cc1_transform_7 i) (hinb1_7 i)).WholeWords (EltTy.packing .f32)

variable [Facts₀]

def dot_S1024x2048_S1024x32_S2048x32_0_0_1_1_n_n : DotDims S1024x2048 S1024x32 S2048x32 where
  lhsContracting := [0]
  rhsContracting := [0]
  lhsNonContracting := [1]
  rhsNonContracting := [1]
  lhsBatch := []
  rhsBatch := []
  wf := dot_S1024x2048_S1024x32_S2048x32_0_0_1_1_n_n_wf
def dot_S2048x32_S32x96_S2048x96_1_0_0_1_n_n : DotDims S2048x32 S32x96 S2048x96 where
  lhsContracting := [1]
  rhsContracting := [0]
  lhsNonContracting := [0]
  rhsNonContracting := [1]
  lhsBatch := []
  rhsBatch := []
  wf := dot_S2048x32_S32x96_S2048x96_1_0_0_1_n_n_wf
def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S512x32_S32x96_S512x96_1_0_0_1_n_n : DotDims S512x32 S32x96 S512x96 where
  lhsContracting := [1]
  rhsContracting := [0]
  lhsNonContracting := [0]
  rhsNonContracting := [1]
  lhsBatch := []
  rhsBatch := []
  wf := dot_S512x32_S32x96_S512x96_1_0_0_1_n_n_wf

abbrev win0_0 : Pipeline.Window sig grid0 :=
  Pipeline.Window.ofSpec (Memref.whole main_arg2) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2048x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg2) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x512x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S32x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S32x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x512x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16x2048x32 : Shape := ⟨3, ![16, 2048, 32]⟩
abbrev S16x2048x2048 : Shape := ⟨3, ![16, 2048, 2048]⟩
abbrev S96x32 : Shape := ⟨2, ![96, 32]⟩
abbrev S96 : Shape := ⟨1, ![96]⟩
abbrev S32768x32 : Shape := ⟨2, ![32768, 32]⟩
abbrev S32x96 : Shape := ⟨2, ![32, 96]⟩
abbrev S32768x96 : Shape := ⟨2, ![32768, 96]⟩
abbrev S1x96 : Shape := ⟨2, ![1, 96]⟩
abbrev S_ : Shape := ⟨0, ![]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x32, .f32⟩
  | .hbm, ⟨1, _⟩ => ⟨S16x2048x32, .f32⟩
  | .hbm, ⟨2, _⟩ => ⟨S16x2048x2048, .f32⟩
  | .hbm, ⟨3, _⟩ => ⟨S96x32, .f32⟩
  | .hbm, ⟨4, _⟩ => ⟨S96x32, .f32⟩
  | .hbm, ⟨5, _⟩ => ⟨S96, .f32⟩
  | .hbm, ⟨6, _⟩ => ⟨S96, .f32⟩
  | .hbm, ⟨7, _⟩ => ⟨S96x32, .f32⟩
  | .hbm, ⟨8, _⟩ => ⟨S96x32, .f32⟩
  | .hbm, ⟨9, _⟩ => ⟨S96, .f32⟩
  | .hbm, ⟨10, _⟩ => ⟨S96, .f32⟩
  | .hbm, ⟨11, _⟩ => ⟨S16x2048x32, .f32⟩
  | .hbm, ⟨12, _⟩ => ⟨S32768x32, .f32⟩
  | .hbm, ⟨13, _⟩ => ⟨S32768x32, .f32⟩
  | .hbm, ⟨14, _⟩ => ⟨S32x96, .f32⟩
  | .hbm, ⟨15, _⟩ => ⟨S32768x96, .f32⟩
  | .hbm, ⟨16, _⟩ => ⟨S1x96, .f32⟩
  | .hbm, ⟨17, _⟩ => ⟨S32768x96, .f32⟩
  | .hbm, ⟨18, _⟩ => ⟨S32768x96, .f32⟩
  | .hbm, ⟨19, _⟩ => ⟨S32x96, .f32⟩
  | .hbm, ⟨20, _⟩ => ⟨S32768x96, .f32⟩
  | .hbm, ⟨21, _⟩ => ⟨S1x96, .f32⟩
  | .hbm, ⟨22, _⟩ => ⟨S32768x96, .f32⟩
  | .hbm, ⟨23, _⟩ => ⟨S32768x96, .f32⟩
  | .hbm, ⟨24, _⟩ => ⟨S32768x32, .f32⟩
  | .hbm, ⟨25, _⟩ => ⟨S32768x32, .f32⟩
  | .hbm, ⟨26, _⟩ => ⟨S32768x32, .f32⟩
  | .hbm, ⟨27, _⟩ => ⟨S32768x32, .f32⟩
  | .hbm, ⟨28, _⟩ => ⟨S32768x32, .f32⟩
  | .hbm, ⟨29, _⟩ => ⟨S32768x32, .f32⟩
  | .hbm, ⟨30, _⟩ => ⟨S32768x32, .f32⟩
  | .hbm, ⟨31, _⟩ => ⟨S32768x32, .f32⟩
  | .hbm, ⟨32, _⟩ => ⟨S32768x32, .f32⟩
  | .hbm, ⟨33, _⟩ => ⟨S_, .f32⟩
  | .hbm, ⟨34, _⟩ => ⟨S32768x32, .f32⟩
  | .hbm, ⟨35, _⟩ => ⟨S32768x32, .f32⟩
  | .hbm, ⟨36, _⟩ => ⟨S_, .f32⟩
  | .hbm, ⟨37, _⟩ => ⟨S32768x32, .f32⟩
  | .hbm, ⟨38, _⟩ => ⟨S32768x32, .f32⟩
  | .hbm, ⟨39, _⟩ => ⟨S32768x32, .f32⟩
  | .hbm, ⟨40, _⟩ => ⟨S32768x32, .f32⟩
  | .hbm, ⟨41, _⟩ => ⟨S32768x32, .f32⟩
  | .hbm, ⟨42, _⟩ => ⟨S_, .f32⟩
  | .hbm, ⟨43, _⟩ => ⟨S32768x32, .f32⟩
  | .hbm, ⟨44, _⟩ => ⟨S32768x32, .f32⟩
  | .hbm, ⟨45, _⟩ => ⟨S_, .f32⟩
  | .hbm, ⟨46, _⟩ => ⟨S32768x32, .f32⟩
  | .hbm, ⟨47, _⟩ => ⟨S32768x32, .f32⟩
  | .hbm, ⟨48, _⟩ => ⟨S32768x32, .f32⟩
  | .hbm, ⟨49, _⟩ => ⟨S32768x32, .f32⟩
  | .hbm, ⟨50, _⟩ => ⟨S32768x32, .f32⟩
  | .hbm, ⟨51, _⟩ => ⟨S_, .f32⟩
  | .hbm, ⟨52, _⟩ => ⟨S32768x32, .f32⟩
  | .hbm, ⟨53, _⟩ => ⟨S32768x32, .f32⟩
  | .hbm, ⟨54, _⟩ => ⟨S32768x32, .f32⟩
  | .hbm, ⟨55, _⟩ => ⟨S32768x32, .f32⟩
  | .hbm, ⟨56, _⟩ => ⟨S32768x32, .f32⟩
  | .hbm, ⟨57, _⟩ => ⟨S16x2048x32, .f32⟩
  | .hbm, ⟨58, _⟩ => ⟨S16x2048x32, .f32⟩
  | .hbm, ⟨59, _⟩ => ⟨S32768x32, .f32⟩
  | .hbm, ⟨60, _⟩ => ⟨S32768x32, .f32⟩
  | .hbm, ⟨61, _⟩ => ⟨S32x96, .f32⟩
  | .hbm, ⟨62, _⟩ => ⟨S32768x96, .f32⟩
  | .hbm, ⟨63, _⟩ => ⟨S1x96, .f32⟩
  | .hbm, ⟨64, _⟩ => ⟨S32768x96, .f32⟩
  | .hbm, ⟨65, _⟩ => ⟨S32768x96, .f32⟩
  | .hbm, ⟨66, _⟩ => ⟨S32x96, .f32⟩
  | .hbm, ⟨67, _⟩ => ⟨S32768x96, .f32⟩
  | .hbm, ⟨68, _⟩ => ⟨S1x96, .f32⟩
  | .hbm, ⟨69, _⟩ => ⟨S32768x96, .f32⟩
  | .hbm, ⟨70, _⟩ => ⟨S32768x96, .f32⟩
  | .hbm, ⟨71, _⟩ => ⟨S32768x32, .f32⟩
  | .hbm, ⟨72, _⟩ => ⟨S32768x32, .f32⟩
  | .hbm, ⟨73, _⟩ => ⟨S32768x32, .f32⟩
  | .hbm, ⟨74, _⟩ => ⟨S32768x32, .f32⟩
  | .hbm, ⟨75, _⟩ => ⟨S32768x32, .f32⟩
  | .hbm, ⟨76, _⟩ => ⟨S32768x32, .f32⟩
  | .hbm, ⟨77, _⟩ => ⟨S32768x32, .f32⟩
  | .hbm, ⟨78, _⟩ => ⟨S32768x32, .f32⟩
  | .hbm, ⟨79, _⟩ => ⟨S32768x32, .f32⟩
  | .hbm, ⟨80, _⟩ => ⟨S_, .f32⟩
  | .hbm, ⟨81, _⟩ => ⟨S32768x32, .f32⟩
  | .hbm, ⟨82, _⟩ => ⟨S32768x32, .f32⟩
  | .hbm, ⟨83, _⟩ => ⟨S_, .f32⟩
  | .hbm, ⟨84, _⟩ => ⟨S32768x32, .f32⟩
  | .hbm, ⟨85, _⟩ => ⟨S32768x32, .f32⟩
  | .hbm, ⟨86, _⟩ => ⟨S32768x32, .f32⟩
  | .hbm, ⟨87, _⟩ => ⟨S32768x32, .f32⟩
  | .hbm, ⟨88, _⟩ => ⟨S32768x32, .f32⟩
  | .hbm, ⟨89, _⟩ => ⟨S_, .f32⟩
  | .hbm, ⟨90, _⟩ => ⟨S32768x32, .f32⟩
  | .hbm, ⟨91, _⟩ => ⟨S32768x32, .f32⟩
  | .hbm, ⟨92, _⟩ => ⟨S_, .f32⟩
  | .hbm, ⟨93, _⟩ => ⟨S32768x32, .f32⟩
  | .hbm, ⟨94, _⟩ => ⟨S32768x32, .f32⟩
  | .hbm, ⟨95, _⟩ => ⟨S32768x32, .f32⟩
  | .hbm, ⟨96, _⟩ => ⟨S32768x32, .f32⟩
  | .hbm, ⟨97, _⟩ => ⟨S32768x32, .f32⟩
  | .hbm, ⟨98, _⟩ => ⟨S_, .f32⟩
  | .hbm, ⟨99, _⟩ => ⟨S32768x32, .f32⟩
  | .hbm, ⟨100, _⟩ => ⟨S32768x32, .f32⟩
  | .hbm, ⟨101, _⟩ => ⟨S32768x32, .f32⟩
  | .hbm, ⟨102, _⟩ => ⟨S32768x32, .f32⟩
  | .hbm, ⟨103, _⟩ => ⟨S32768x32, .f32⟩
  | .hbm, ⟨104, _⟩ => ⟨S16x2048x32, .f32⟩
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_4 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_v71 : Ref sig .tc := ⟨.hbm, 90, rfl⟩
abbrev main_v72 : Ref sig .tc := ⟨.hbm, 91, rfl⟩
abbrev main_cst_7 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]

class Facts₀ : Prop where
  shapeCasts_S16x2048x32_S32768x32 : S16x2048x32.ShapeCasts S32768x32
  transposes_S96x32_S32x96_1_0 : S96x32.Transposes [1, 0] S32x96
  bcast_S96_S1x96_1 : S96.BroadcastsInDim S1x96 (![1] : Fin 1 → Fin S1x96.rank)
  bcast_S1x96_S32768x96_0_1 : S1x96.BroadcastsInDim S32768x96 (![0, 1] : Fin 2 → Fin S32768x96.rank)
  slices_S32768x96_S32768x32_0_0 : S32768x96.Slices ![0, 0] S32768x32
  slices_S32768x96_S32768x32_0_32 : S32768x96.Slices ![0, 32] S32768x32
  slices_S32768x96_S32768x32_0_64 : S32768x96.Slices ![0, 64] S32768x32
  bcast_S_S32768x32 : S_.BroadcastsInDim S32768x32 (![] : Fin 0 → Fin S32768x32.rank)
  shapeCasts_S32768x32_S16x2048x32 : S32768x32.ShapeCasts S16x2048x32
  dot_S16x2048x2048_S16x2048x32_S16x2048x32_1_1_2_2_0_0_wf : DotDims.WF S16x2048x2048 S16x2048x32 S16x2048x32 [1] [1] [2] [2] [0] [0]
  dot_S32768x32_S32x96_S32768x96_1_0_0_1_n_n_wf : DotDims.WF S32768x32 S32x96 S32768x96 [1] [0] [0] [1] [] []
  dot_S16x2048x2048_S16x2048x32_S16x2048x32_2_1_1_2_0_0_wf : DotDims.WF S16x2048x2048 S16x2048x32 S16x2048x32 [2] [1] [1] [2] [0] [0]

variable [Facts₀]

def dot_S16x2048x2048_S16x2048x32_S16x2048x32_1_1_2_2_0_0 : DotDims S16x2048x2048 S16x2048x32 S16x2048x32 where
  lhsContracting := [1]
  rhsContracting := [1]
  lhsNonContracting := [2]
  rhsNonContracting := [2]
  lhsBatch := [0]
  rhsBatch := [0]
  wf := dot_S16x2048x2048_S16x2048x32_S16x2048x32_1_1_2_2_0_0_wf
def dot_S32768x32_S32x96_S32768x96_1_0_0_1_n_n : DotDims S32768x32 S32x96 S32768x96 where
  lhsContracting := [1]
  rhsContracting := [0]
  lhsNonContracting := [0]
  rhsNonContracting := [1]
  lhsBatch := []
  rhsBatch := []
  wf := dot_S32768x32_S32x96_S32768x96_1_0_0_1_n_n_wf
def dot_S16x2048x2048_S16x2048x32_S16x2048x32_2_1_1_2_0_0 : DotDims S16x2048x2048 S16x2048x32 S16x2048x32 where
  lhsContracting := [2]
  rhsContracting := [1]
  lhsNonContracting := [1]
  rhsNonContracting := [2]
  lhsBatch := [0]
  rhsBatch := [0]
  wf := dot_S16x2048x2048_S16x2048x32_S16x2048x32_2_1_1_2_0_0_wf

class Facts : Prop extends Facts₀ where

variable [Facts]
-- ==== Proof.Body0K.lean ====
/-
  The first kernel's body (the channel update) on whole staging buffers, in its two control cases. At a grid
  point that starts a batch entry (second coordinate 0) the accumulator is cleared and receives the product of
  the adjacency block with the path block, and the output block is left alone; at the point that ends the entry
  (second coordinate 1) the accumulator receives the second product and the output block receives the gated cell
  of the channel block and the accumulated message.
-/
import proofs.«126749_j44126493999752_2_alg».proof.Proof.Gen.Kernel.Launch
import proofs.«126749_j44126493999752_2_alg».proof.Proof.Gen.Kernel.Skeleton
import proofs.«126749_j44126493999752_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-! ## Every load and store of the body takes a whole buffer -/

abbrev rA0 : Rect S1x1024x2048 := Rect.unit (s := S1x1024x2048) ![0, 0, 0] S1x1024x2048.size inb_S1x1024x2048_S1x1024x2048_0_0_0
abbrev rP0 : Rect S1x1024x32 := Rect.unit (s := S1x1024x32) ![0, 0, 0] S1x1024x32.size inb_S1x1024x32_S1x1024x32_0_0_0
abbrev rC : Rect S1x2048x32 := Rect.unit (s := S1x2048x32) ![0, 0, 0] S1x2048x32.size inb_S1x2048x32_S1x2048x32_0_0_0
abbrev rS : Rect S2048x32 := Rect.unit (s := S2048x32) ![0, 0] S2048x32.size inb_S2048x32_S2048x32_0_0
abbrev rW0 : Rect S32x96 := Rect.unit (s := S32x96) ![0, 0] S32x96.size inb_S32x96_S32x96_0_0
abbrev rB0 : Rect S1x96 := Rect.unit (s := S1x96) ![0, 0] S1x96.size inb_S1x96_S1x96_0_0

section Whole
variable {sp : Space}

/-- A load of the whole buffer reads its contents. -/
theorem readAt_rA0 (v : View sig .tc sp S1x1024x2048 .f32) (f : v.ty.Contents (Elt F)) : v.readAt (Elt F) rA0 f = v.read (Elt F) f :=
  (View.readAt_eq_ld v f rA0).trans (View.ld_unit_zero (S := S1x1024x2048) hz3 _ _)
/-- A load of the whole buffer reads its contents. -/
theorem readAt_rP0 (v : View sig .tc sp S1x1024x32 .f32) (f : v.ty.Contents (Elt F)) : v.readAt (Elt F) rP0 f = v.read (Elt F) f :=
  (View.readAt_eq_ld v f rP0).trans (View.ld_unit_zero (S := S1x1024x32) hz3 _ _)
/-- A load of the whole buffer reads its contents. -/
theorem readAt_rC (v : View sig .tc sp S1x2048x32 .f32) (f : v.ty.Contents (Elt F)) : v.readAt (Elt F) rC f = v.read (Elt F) f :=
  (View.readAt_eq_ld v f rC).trans (View.ld_unit_zero (S := S1x2048x32) hz3 _ _)
/-- A load of the whole buffer reads its contents. -/
theorem readAt_rS (v : View sig .tc sp S2048x32 .f32) (f : v.ty.Contents (Elt F)) : v.readAt (Elt F) rS f = v.read (Elt F) f :=
  (View.readAt_eq_ld v f rS).trans (View.ld_unit_zero (S := S2048x32) hz2 _ _)
/-- A load of the whole buffer reads its contents. -/
theorem readAt_rW0 (v : View sig .tc sp S32x96 .f32) (f : v.ty.Contents (Elt F)) : v.readAt (Elt F) rW0 f = v.read (Elt F) f :=
  (View.readAt_eq_ld v f rW0).trans (View.ld_unit_zero (S := S32x96) hz2 _ _)
/-- A load of the whole buffer reads its contents. -/
theorem readAt_rB0 (v : View sig .tc sp S1x96 .f32) (f : v.ty.Contents (Elt F)) : v.readAt (Elt F) rB0 f = v.read (Elt F) f :=
  (View.readAt_eq_ld v f rB0).trans (View.ld_unit_zero (S := S1x96) hz2 _ _)

theorem coverS (p0 : Vec F S2048x32 .f32) (y : S2048x32.Idx) :
    ∃ pc ∈ ([⟨rS, p0⟩] : List (View.Piece (Elt F) S2048x32 .f32)), y ∈ pc.1.set :=
  View.cover_of_tiled [⟨rS, p0⟩] S2048x32.size (by rfl) y
theorem coverS2 (p0 p1 : Vec F S2048x32 .f32) (y : S2048x32.Idx) :
    ∃ pc ∈ ([⟨rS, p0⟩, ⟨rS, p1⟩] : List (View.Piece (Elt F) S2048x32 .f32)), y ∈ pc.1.set := by
  obtain ⟨pc, hm, hy⟩ := coverS (F := F) p0 y
  exact ⟨pc, List.mem_cons.mpr (Or.inl (List.mem_singleton.mp hm)), hy⟩
theorem coverC (p0 : Vec F S1x2048x32 .f32) (y : S1x2048x32.Idx) :
    ∃ pc ∈ ([⟨rC, p0⟩] : List (View.Piece (Elt F) S1x2048x32 .f32)), y ∈ pc.1.set :=
  View.cover_of_tiled [⟨rC, p0⟩] S1x2048x32.size (by rfl) y

/-- After a whole-buffer store the buffer reads the stored value, whatever was stored before. -/
theorem read_oneS (v : View sig .tc sp S2048x32 .f32) (f : v.ty.Contents (Elt F)) (p0 : Vec F S2048x32 .f32) :
    v.read (Elt F) (v.writes (Elt F) f [⟨rS, p0⟩]) = p0 :=
  (View.read_writes_eq_canon v f _ (coverS p0)).trans (View.canon_unit_zero (S := S2048x32) hz2 _ p0)
theorem read_twoS (v : View sig .tc sp S2048x32 .f32) (f : v.ty.Contents (Elt F)) (p0 p1 : Vec F S2048x32 .f32) :
    v.read (Elt F) (v.writes (Elt F) f [⟨rS, p0⟩, ⟨rS, p1⟩]) = p0 :=
  (View.read_writes_eq_canon v f _ (coverS2 p0 p1)).trans (View.canon_cons_unit_zero (S := S2048x32) hz2 _ p0 _)
theorem read_oneC (v : View sig .tc sp S1x2048x32 .f32) (f : v.ty.Contents (Elt F)) (p0 : Vec F S1x2048x32 .f32) :
    v.read (Elt F) (v.writes (Elt F) f [⟨rC, p0⟩]) = p0 :=
  (View.read_writes_eq_canon v f _ (coverC p0)).trans (View.canon_unit_zero (S := S1x2048x32) hz3 _ p0)
/-- A whole-buffer load after a whole-buffer store reads the stored value. -/
theorem readCov_S (v : View sig .tc sp S2048x32 .f32) (p0 : Vec F S2048x32 .f32) :
    v.readCov [⟨rS, p0⟩] rS = p0 :=
  View.readCov_unit_zero v hz2 _ p0

end Whole

/-- The body's first branch is taken: the point's second coordinate is 0. -/
abbrev condZ (i : grid0.Coords) : Prop := (Scalar.cmpi .ne (Scalar.extui (Scalar.cmpi .eq (BitVec.ofNat 32 (i 1).val) 0#32)) 0#32) = 1#1
/-- The body's last branch is taken: the point's second coordinate is 1. -/
abbrev condL (i : grid0.Coords) : Prop := k0_cond2 i = 1#1

/-- The accumulator after one more product: `s + adjᵀ · path` of the point's blocks. -/
abbrev accNext (x0 : Vec F S1x1024x2048 .f32) (x1 : Vec F S1x1024x32 .f32) (s : Vec F S2048x32 .f32) : Vec F S2048x32 .f32 :=
  k0_pay2 x1 x0 s
/-- The output block of a batch entry: the gated cell of the channel block and the accumulated message. -/
abbrev chanOut (x2 : Vec F S1x2048x32 .f32) (x3 x4 : Vec F S32x96 .f32) (x5 x6 : Vec F S1x96 .f32) (s : Vec F S2048x32 .f32) : Vec F S1x2048x32 .f32 :=
  k0_pay3 (k0_pay4 s x2 x3 x5 x4 x6)

set_option maxHeartbeats 1500000 in
/-- At a point that starts a batch entry: the accumulator, whatever it held, ends at the first product added to zero;
    the output block is not touched. -/
theorem sound_kernel0_first (c : Dev nD) (E : Set ℕ) (i : grid0.Coords) (hz : condZ i) (hl : ¬condL i)
    (arg2 : Memref sig .tc .vmem S1x1024x2048 .f32) (harg2 : arg2.IsWhole) (arg3 : Memref sig .tc .vmem S1x1024x32 .f32) (harg3 : arg3.IsWhole)
    (arg4 : Memref sig .tc .vmem S1x2048x32 .f32) (harg4 : arg4.IsWhole) (arg5 : Memref sig .tc .vmem S32x96 .f32) (harg5 : arg5.IsWhole)
    (arg6 : Memref sig .tc .vmem S32x96 .f32) (harg6 : arg6.IsWhole) (arg7 : Memref sig .tc .vmem S1x96 .f32) (harg7 : arg7.IsWhole)
    (arg8 : Memref sig .tc .vmem S1x96 .f32) (harg8 : arg8.IsWhole) (arg9 : Memref sig .tc .vmem S1x2048x32 .f32) (harg9 : arg9.IsWhole)
    (arg10 : Memref sig .tc .vmem S2048x32 .f32) (harg10 : arg10.IsWhole)
    (x0 : Vec F S1x1024x2048 .f32) (x1 : Vec F S1x1024x32 .f32) (x2 : Vec F S1x2048x32 .f32)
    (x3 x4 : Vec F S32x96 .f32) (x5 x6 : Vec F S1x96 .f32) (d9 : Vec F S1x2048x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare d9 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare d9
            ∗ owns (c : Thread nD τ) arg10 fullShare (accNext x0 x1 (k0_pay1 (F := F)))) -∗ K ⟨⟩))
      ⊢ wp frame (wpE (defs₀ (F := F)) Variants.none c none) E (cc0_channel_kernel i arg2 harg2 arg3 harg3 arg4 harg4 arg5 harg5 arg6 harg6 arg7 harg7 arg8 harg8 arg9 harg9 arg10 harg10) K := by
  simp only [cc0_channel_kernel_eq_skeleton]; unfold cc0_channel_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%d10, %f10, -, H10⟩, Hk⟩
  subst hf0; subst hf1; subst hf2; subst hf3; subst hf4; subst hf5; subst hf6; subst hf9
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact H10
  ipureintro
  sl_unfold_run_names
  refine (read_twoS _ _ _ _).trans ?_
  exact (congr (congr (congrArg k0_pay2 (readAt_rP0 _ _)) (readAt_rA0 _ _)) (readCov_S _ _))

set_option maxHeartbeats 1500000 in
/-- At the point that ends a batch entry: the accumulator at `s` ends at `s` plus the second product, and the output
    block, whatever it held, ends at the gated cell of the channel block and that sum. -/
theorem sound_kernel0_last (c : Dev nD) (E : Set ℕ) (i : grid0.Coords) (hz : ¬condZ i) (hl : condL i)
    (arg2 : Memref sig .tc .vmem S1x1024x2048 .f32) (harg2 : arg2.IsWhole) (arg3 : Memref sig .tc .vmem S1x1024x32 .f32) (harg3 : arg3.IsWhole)
    (arg4 : Memref sig .tc .vmem S1x2048x32 .f32) (harg4 : arg4.IsWhole) (arg5 : Memref sig .tc .vmem S32x96 .f32) (harg5 : arg5.IsWhole)
    (arg6 : Memref sig .tc .vmem S32x96 .f32) (harg6 : arg6.IsWhole) (arg7 : Memref sig .tc .vmem S1x96 .f32) (harg7 : arg7.IsWhole)
    (arg8 : Memref sig .tc .vmem S1x96 .f32) (harg8 : arg8.IsWhole) (arg9 : Memref sig .tc .vmem S1x2048x32 .f32) (harg9 : arg9.IsWhole)
    (arg10 : Memref sig .tc .vmem S2048x32 .f32) (harg10 : arg10.IsWhole)
    (x0 : Vec F S1x1024x2048 .f32) (x1 : Vec F S1x1024x32 .f32) (x2 : Vec F S1x2048x32 .f32)
    (x3 x4 : Vec F S32x96 .f32) (x5 x6 : Vec F S1x96 .f32) (s : Vec F S2048x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (chanOut x2 x3 x4 x5 x6 (accNext x0 x1 s))
            ∗ owns (c : Thread nD τ) arg10 fullShare (accNext x0 x1 s)) -∗ K ⟨⟩))
      ⊢ wp frame (wpE (defs₀ (F := F)) Variants.none c none) E (cc0_channel_kernel i arg2 harg2 arg3 harg3 arg4 harg4 arg5 harg5 arg6 harg6 arg7 harg7 arg8 harg8 arg9 harg9 arg10 harg10) K := by
  simp only [cc0_channel_kernel_eq_skeleton]; unfold cc0_channel_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, Hk⟩
  subst hf0; subst hf1; subst hf2; subst hf3; subst hf4; subst hf5; subst hf6; subst hf10
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_run_names
    refine (read_oneC _ _ _).trans ?_
    refine congrArg k0_pay3 ?_
    exact congr (congr (congr (congr (congr (congrArg k0_pay4 ((readCov_S _ _).trans (congr (congr (congrArg k0_pay2 (readAt_rP0 _ _)) (readAt_rA0 _ _)) (readAt_rS _ _)))) (readAt_rC _ _)) (readAt_rW0 _ _)) (readAt_rB0 _ _)) (readAt_rW0 _ _)) (readAt_rB0 _ _)
  iexists _; isplitr
  swap; · iexact H10
  ipureintro
  sl_unfold_run_names
  refine (read_oneS _ _ _).trans ?_
  exact (congr (congr (congrArg k0_pay2 (readAt_rP0 _ _)) (readAt_rA0 _ _)) (readAt_rS _ _))

end Cert.Kernel.Hand

end
-- ==== Proof.Data0K.lean ====
/-
  The first region's proof data. Each batch entry takes two grid points. The accumulator the kernel keeps
  between points holds, after an entry's first point, the first half of the message sum added to zero, and after its
  second point the whole sum; the output window is left alone at an entry's first point and receives the gated cell
  at its second, where it is written back. The region's invariant carries the accumulator at these contents from
  point to point.
-/
import proofs.«126749_j44126493999752_2_alg».proof.Proof.Gen.Kernel.Launch
import proofs.«126749_j44126493999752_2_alg».proof.Proof.Gen.Kernel.Skeleton
import proofs.«126749_j44126493999752_2_alg».proof.Proof.Gen.Kernel.Points
import proofs.«126749_j44126493999752_2_alg».proof.Proof.Body0K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches over the grid -/

theorem hcondZ : ∀ t : Fin cfg0.N, condZ (grid0.coords t) ↔ t.val % 2 = 0 :=
  (by decide +kernel : ∀ t : Fin grid0.N, condZ (grid0.coords t) ↔ t.val % 2 = 0)
theorem hcondL : ∀ t : Fin cfg0.N, condL (grid0.coords t) ↔ t.val % 2 = 1 :=
  (by decide +kernel : ∀ t : Fin grid0.N, condL (grid0.coords t) ↔ t.val % 2 = 1)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Where the last branch is not taken the output window is idle and is not written back; where it is taken the window is live. -/
theorem idleAt0_7 : ∀ t : Fin cfg0.N, ¬condL (grid0.coords t) → cfg0.idle 7 (grid0.coords t) = true := by decide +kernel
theorem noFlush0_7 : ∀ t : Fin cfg0.N, ¬condL (grid0.coords t) → (cfg0.win 7).flush t = false := by decide +kernel
theorem liveAt0_7 : ∀ t : Fin cfg0.N, condL (grid0.coords t) → cfg0.idle 7 (grid0.coords t) = false := by decide +kernel

/-- The accumulator's buffer. -/
abbrev scM : Memref sig .tc .vmem S2048x32 .f32 := Memref.whole cc0_scratch0

/-- The core's other scoped buffers that are no staging buffer of this region, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant a body may use without describing: the accumulator's buffer and the other scoped buffers at
    some contents, the generator register at some state. -/
theorem PhiA0_eq (c : Dev nD) :
    (Pipeline.ΦA spec0 c : sProp 𝕄)
      = iprop(((∃ d, owns (c : Thread nD τ) scM fullShare d) ∗ others (F := F) c) ∗ (∃ r, prngReg c r)) := by
  unfold Pipeline.ΦA others; rw [scopedRest0_eq]; simp only [scM, owns_whole]; try rfl

section
-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the accumulator holds after the body at position `n`: at an entry's first point the first
    product added to zero, at its second point the second product added to what the point before left. -/
def accAt (c : Dev nD) : (n : ℕ) → n < cfg0.N → Vec F S2048x32 .f32
  | 0, hn => accNext (iblk0 V c 0 ⟨0, hn⟩) (iblk0 V c 1 ⟨0, hn⟩) (k0_pay1 (F := F))
  | n + 1, hn =>
    if (n + 1) % 2 = 0 then accNext (iblk0 V c 0 ⟨n + 1, hn⟩) (iblk0 V c 1 ⟨n + 1, hn⟩) (k0_pay1 (F := F))
    else accNext (iblk0 V c 0 ⟨n + 1, hn⟩) (iblk0 V c 1 ⟨n + 1, hn⟩) (accAt c n (Nat.lt_of_succ_lt hn))

theorem accAt_even (c : Dev nD) (t : Fin cfg0.N) (h : t.val % 2 = 0) :
    accAt V c t.val t.isLt = accNext (iblk0 V c 0 t) (iblk0 V c 1 t) (k0_pay1 (F := F)) := by
  obtain ⟨n, hn⟩ := t
  cases n with
  | zero => rfl
  | succ n => rw [accAt]; exact if_pos h

theorem accAt_odd (c : Dev nD) (t : Fin cfg0.N) (h : t.val % 2 = 1) :
    accAt V c t.val t.isLt = accNext (iblk0 V c 0 t) (iblk0 V c 1 t) (accAt V c (t.val - 1) (Nat.lt_of_le_of_lt (Nat.sub_le _ _) t.isLt)) := by
  obtain ⟨n, hn⟩ := t
  cases n with
  | zero => exact absurd h (by simp)
  | succ n => rw [accAt]; exact (if_neg (by (try dsimp only at h); omega)).trans rfl

/-- The region invariant before position `n`: before the first point the class's; afterwards the accumulator at what
    the point before left in it, beside the other scoped buffers and the generator register. -/
def PhiS (c : Dev nD) : (n : ℕ) → n ≤ cfg0.N → sProp 𝕄
  | 0, _ => Pipeline.ΦA spec0 c
  | n + 1, hn => iprop((owns (c : Thread nD τ) scM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accAt V c n hn) ∗ others (F := F) c) ∗ (∃ r, prngReg c r)) := rfl
theorem PhiS_pos (c : Dev nD) (n : ℕ) (h : n ≤ cfg0.N) (hz : n ≠ 0) :
    PhiS V c n h = iprop((owns (c : Thread nD τ) scM fullShare (accAt V c (n - 1) (by omega)) ∗ others (F := F) c) ∗ (∃ r, prngReg c r)) := by
  cases n with
  | zero => exact absurd rfl hz
  | succ n => rfl

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => chanOut (iblk0 V c 2 t) (iblk0 V c 3 t) (iblk0 V c 4 t) (iblk0 V c 5 t) (iblk0 V c 6 t) (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = chanOut (iblk0 V c 2 t) (iblk0 V c 3 t) (iblk0 V c 4 t) (iblk0 V c 5 t) (iblk0 V c 6 t) (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point. The inputs' buffers hold their blocks. At an entry's first point the invariant hands the
    body the accumulator at anything and takes it back at the first product; the output window is handed back as
    found. At an entry's second point the invariant hands the accumulator at what the first point left and takes it
    back at the whole sum, and the output window's buffer takes the gated cell. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  by_cases h : t.val % 2 = 0
  · have hcz : condZ (grid0.coords t) := (hcondZ t).mpr h
    have hcl : ¬condL (grid0.coords t) := fun hl => by have := (hcondL t).mp hl; omega
    rw [Dat.leavesExact_idle (dat0 V c) 7 t (idleAt0_7 t hcl) (noFlush0_7 t hcl)]
    rw [accAt_even V c t h]
    by_cases hz0 : t.val = 0
    · rw [PhiS_castSucc V c t, PhiS_zero V c _ _ hz0, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) hcz hcl _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz0]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) hcz hcl _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h1 : t.val % 2 = 1 := by omega
    have hcl : condL (grid0.coords t) := (hcondL t).mpr h1
    have hcz : ¬condZ (grid0.coords t) := fun hz => h ((hcondZ t).mp hz)
    have hz0 : t.val ≠ 0 := by omega
    rw [show (dat0 V c).leavesExact 7 t = owns (c : Thread nD τ) (st0_7 t) fullShare ((dat0 V c).after 7 t) from by
      unfold Dat.leavesExact; rw [liveAt0_7 t hcl], after0_7]
    rw [accAt_odd V c t h1]
    rw [PhiS_castSucc V c t, PhiS_pos V c _ _ hz0]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_last c Set.univ (grid0.coords t) hcz hcl _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end

end Cert.Kernel.Hand

end
-- ==== Proof.Body1K.lean ====
/-
  The second kernel's body (the path update) on whole staging buffers: it reads its seven input blocks,
  and leaves in the output block the gated cell of the path block and of the product of the adjacency
  block with the new channel block.
-/
import proofs.«126749_j44126493999752_2_alg».proof.Proof.Gen.Kernel.Launch
import proofs.«126749_j44126493999752_2_alg».proof.Proof.Gen.Kernel.Skeleton
import proofs.«126749_j44126493999752_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store take a whole buffer -/

abbrev rA1 : Rect S1x512x2048 := Rect.unit (s := S1x512x2048) ![0, 0, 0] S1x512x2048.size inb_S1x512x2048_S1x512x2048_0_0_0
abbrev rY1 : Rect S1x2048x32 := Rect.unit (s := S1x2048x32) ![0, 0, 0] S1x2048x32.size inb_S1x2048x32_S1x2048x32_0_0_0
abbrev rX1 : Rect S1x512x32 := Rect.unit (s := S1x512x32) ![0, 0, 0] S1x512x32.size inb_S1x512x32_S1x512x32_0_0_0
abbrev rW : Rect S32x96 := Rect.unit (s := S32x96) ![0, 0] S32x96.size inb_S32x96_S32x96_0_0
abbrev rB : Rect S1x96 := Rect.unit (s := S1x96) ![0, 0] S1x96.size inb_S1x96_S1x96_0_0

/-- What the body stores into the output block, from the seven input blocks (adjacency rows, new channel states,
    path rows, transposed input and hidden weights, input and hidden bias rows). -/
def pathPay (x0 : Vec F S1x512x2048 .f32) (x1 : Vec F S1x2048x32 .f32) (x2 : Vec F S1x512x32 .f32)
    (x3 x4 : Vec F S32x96 .f32) (x5 x6 : Vec F S1x96 .f32) : FVec F S1x512x32 .f32 :=
  k1_pay1 (k1_pay2 (View.ld x0 rA1) (View.ld x1 rY1)) (k1_pay5 (View.ld x2 rX1) (View.ld x3 rW) (View.ld x5 rB))
    (k1_pay6 (View.ld x0 rA1) (View.ld x1 rY1) (View.ld x2 rX1) (View.ld x3 rW) (View.ld x5 rB) (View.ld x4 rW) (View.ld x6 rB))
    (k1_pay7 (View.ld x0 rA1) (View.ld x1 rY1) (View.ld x2 rX1) (View.ld x3 rW) (View.ld x5 rB) (View.ld x4 rW) (View.ld x6 rB))

/-- The output block after the body: its one store, which covers the block. -/
def out1_7 (x0 : Vec F S1x512x2048 .f32) (x1 : Vec F S1x2048x32 .f32) (x2 : Vec F S1x512x32 .f32)
    (x3 x4 : Vec F S32x96 .f32) (x5 x6 : Vec F S1x96 .f32) : Vec F S1x512x32 .f32 :=
  View.canon [⟨rX1, pathPay x0 x1 x2 x3 x4 x5 x6⟩]

theorem cover1_7 (p0 : Vec F S1x512x32 .f32) (y : S1x512x32.Idx) :
    ∃ pc ∈ ([⟨rX1, p0⟩] : List (View.Piece (Elt F) S1x512x32 .f32)), y ∈ pc.1.set :=
  View.cover_of_tiled [⟨rX1, p0⟩] S1x512x32.size (by rfl) y

set_option maxHeartbeats 4000000 in
/-- The body on whole staging buffers, the inputs' at given contents and the output's at anything, runs to the
    continuation holding the inputs' as they were and the output's at `out1_7` of the inputs'. -/
theorem sound_kernel1 (c : Dev nD) (E : Set ℕ) (i : grid1.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole) (arg5 : Memref sig .tc .vmem S32x96 .f32) (harg5 : arg5.IsWhole)
    (arg6 : Memref sig .tc .vmem S32x96 .f32) (harg6 : arg6.IsWhole) (arg7 : Memref sig .tc .vmem S1x96 .f32) (harg7 : arg7.IsWhole)
    (arg8 : Memref sig .tc .vmem S1x96 .f32) (harg8 : arg8.IsWhole) (arg9 : Memref sig .tc .vmem S1x512x32 .f32) (harg9 : arg9.IsWhole)
    (x0 : Vec F S1x512x2048 .f32) (x1 : Vec F S1x2048x32 .f32) (x2 : Vec F S1x512x32 .f32)
    (x3 x4 : Vec F S32x96 .f32) (x5 x6 : Vec F S1x96 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1_path_kernel i arg2 harg2 arg3 harg3 arg4 harg4 arg5 harg5 arg6 harg6 arg7 harg7 arg8 harg8 arg9 harg9) K := by
  simp only [cc1_path_kernel_eq_skeleton]; unfold cc1_path_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.Kernel.Hand

end
-- ==== Proof.Data1K.lean ====
/-
  The second region's proof data: at every grid point each input window's staging buffer holds its block of the
  array the region was entered with, and after the body the output window's buffer holds the body's payload of
  those blocks; the region keeps nothing between points.
-/
import proofs.«126749_j44126493999752_2_alg».proof.Proof.Gen.Kernel.Launch
import proofs.«126749_j44126493999752_2_alg».proof.Proof.Gen.Kernel.Skeleton
import proofs.«126749_j44126493999752_2_alg».proof.Proof.Gen.Kernel.Points
import proofs.«126749_j44126493999752_2_alg».proof.Proof.Body1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.RunK.lean ====
/-
  The whole program's run. Between its items every unscoped buffer of a core is held at known contents: the launch
  memory; then the eight host operations applied to it; then, after the first region, the new channel states in
  place of its result buffer; then, after the second, the new path states in place of its. Each region is entered
  from these contents, takes its windows' arrays out of them and puts them back as its write-backs leave them.
  Every weakly fair execution ends with every unscoped buffer at the last of these contents — from which the
  argument arrays read back as launched and the two results as the regions' proof data give them.
-/
import proofs.«126749_j44126493999752_2_alg».proof.Proof.Gen.Kernel.Launch
import proofs.«126749_j44126493999752_2_alg».proof.Proof.Gen.Kernel.Skeleton
import proofs.«126749_j44126493999752_2_alg».proof.Proof.Gen.Kernel.Points
import proofs.«126749_j44126493999752_2_alg».proof.Proof.Data0K
import proofs.«126749_j44126493999752_2_alg».proof.Proof.Data1K
import proofs.«126749_j44126493999752_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the host operations (the first region's entry). -/
abbrev W1 : Dev nD → Valuation τ sig (Elt F) := fun c => Gen.V1 m c
abbrev E1 : (c : Dev nD) → (b : Ref sig .tc) → Buf (Elt F) ((c : Thread nD τ).loc b) := fun c b => W1 m c b
/-- After the first region: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## No item writes an argument: the last contents read back to the launch memory -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 2).trans (((dat1 (E2 m) c).arrAt_in 2 rfl _).trans (A_eq1 (E2 m) c 2))
    _ = W1 m c (Proc.devRef .tc main_arg0) := (W2_arr m c 1).trans (((dat0 (E1 m) c).arrAt_in 1 rfl _).trans (A_eq0 (E1 m) c 1))
    _ = m ((c : Thread nD τ).loc main_arg0) := (V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 2).trans (((dat0 (E1 m) c).arrAt_in 2 rfl _).trans (A_eq0 (E1 m) c 2))
    _ = m ((c : Thread nD τ).loc main_arg1) := (V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (E2 m) c).arrAt_in 0 rfl _).trans (A_eq1 (E2 m) c 0))
    _ = W1 m c (Proc.devRef .tc main_arg2) := (W2_arr m c 0).trans (((dat0 (E1 m) c).arrAt_in 0 rfl _).trans (A_eq0 (E1 m) c 0))
    _ = m ((c : Thread nD τ).loc main_arg2) := (V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := (V1_of m c main_arg4 (by decide)).trans rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (V1_of m c main_arg5 (by decide)).trans rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := (V1_of m c main_arg6 (by decide)).trans rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := (V1_of m c main_arg7 (by decide)).trans rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = m ((c : Thread nD τ).loc main_arg8) := (V1_of m c main_arg8 (by decide)).trans rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (V1_of m c main_arg9 (by decide)).trans rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = m ((c : Thread nD τ).loc main_arg10) := (V1_of m c main_arg10 (by decide)).trans rfl

/-! ## The arrays the regions are entered with, read back -/

theorem W1_main_arg0 (c : Dev nD) : W1 m c (Proc.devRef .tc main_arg0) = m ((c : Thread nD τ).loc main_arg0) := (V1_of m c main_arg0 (by decide)).trans rfl
theorem W1_main_arg1 (c : Dev nD) : W1 m c (Proc.devRef .tc main_arg1) = m ((c : Thread nD τ).loc main_arg1) := (V1_of m c main_arg1 (by decide)).trans rfl
theorem W1_main_arg2 (c : Dev nD) : W1 m c (Proc.devRef .tc main_arg2) = m ((c : Thread nD τ).loc main_arg2) := (V1_of m c main_arg2 (by decide)).trans rfl
theorem W2_main_arg0 (c : Dev nD) : W2 m c (Proc.devRef .tc main_arg0) = m ((c : Thread nD τ).loc main_arg0) :=
  ((W2_arr m c 1).trans (((dat0 (E1 m) c).arrAt_in 1 rfl _).trans (A_eq0 (E1 m) c 1))).trans (W1_main_arg0 m c)
theorem W2_main_arg2 (c : Dev nD) : W2 m c (Proc.devRef .tc main_arg2) = m ((c : Thread nD τ).loc main_arg2) :=
  ((W2_arr m c 0).trans (((dat0 (E1 m) c).arrAt_in 0 rfl _).trans (A_eq0 (E1 m) c 0))).trans (W1_main_arg2 m c)
theorem W2_main_v4 (c : Dev nD) : W2 m c (Proc.devRef .tc main_v4) = Gen.V1 m c (Proc.devRef .tc main_v4) := W2_of_ne m c main_v4 (by decide)
theorem W2_main_v5 (c : Dev nD) : W2 m c (Proc.devRef .tc main_v5) = Gen.V1 m c (Proc.devRef .tc main_v5) := W2_of_ne m c main_v5 (by decide)
theorem W2_main_v6 (c : Dev nD) : W2 m c (Proc.devRef .tc main_v6) = Gen.V1 m c (Proc.devRef .tc main_v6) := W2_of_ne m c main_v6 (by decide)
theorem W2_main_v7 (c : Dev nD) : W2 m c (Proc.devRef .tc main_v7) = Gen.V1 m c (Proc.devRef .tc main_v7) := W2_of_ne m c main_v7 (by decide)
theorem W2_main_v8 (c : Dev nD) : W2 m c (Proc.devRef .tc main_v8) = (dat0 (E1 m) c).arrAt 7 cfg0.N := W2_arr m c 7

/-! ## What the two results hold at the end -/

/-- The second result (the new channel states) is what the first region's write-backs leave; the second region only reads it. -/
theorem W3_main_v8 (c : Dev nD) : W3 m c (Proc.devRef .tc main_v8) = (dat0 (E1 m) c).arrAt 7 cfg0.N :=
  ((W3_arr m c 1).trans (((dat1 (E2 m) c).arrAt_in 1 rfl _).trans (A_eq1 (E2 m) c 1))).trans (W2_arr m c 7)
/-- The first result (the new path states) is what the second region's write-backs leave. -/
theorem W3_main_v9 (c : Dev nD) : W3 m c (Proc.devRef .tc main_v9) = (dat1 (E2 m) c).arrAt 7 cfg1.N :=
  W3_arr m c 7

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (E1 m) c
    unfold Pipeline.ΦA at h
    iintro ⟨Hp, -, Hr⟩
    iapply h
    isplitl [Hr]; · iexact Hr
    iexact Hp
  hout c := by
    rw [Pipeline.ownSems0_none]
    have h : (pdats m 0 c).Φ (Fin.last _) ⊢ Pipeline.ΦA spec0 c := hout0 (E1 m) c
    unfold Pipeline.ΦA at h
    iintro HPhi
    ihave HA := h $$ HPhi
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev mainSegs : List (Pipeline.Seg (pcfgs (F := F)) adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (mainSegs m) := (main_chain c).trans (by chain_rfl)

set_option backward.isDefEq.respectTransparency.types false in
/-- THE RUN: from any memory with zero counters every weakly fair execution terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

/-- The run with its results: the new path states and the new channel states are what the two regions' write-backs
    leave, and every argument array ends as launched. -/
theorem run_values : θ_run defs (onTc (τ := τ) (main (F := F))) ⟨m, fun _ => 0, ρ⟩ (fun r => ∀ c : Dev nD,
      r.2.mem ((c.tc : Thread nD τ).loc main_v9) = (dat1 (E2 m) c).arrAt 7 cfg1.N
      ∧ r.2.mem ((c.tc : Thread nD τ).loc main_v8) = (dat0 (E1 m) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v9 (by decide))).trans (W3_main_v9 m c),
      (h c _ (mem_uc main_v8 (by decide))).trans (W3_main_v8 m c),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

end Cert.Kernel.Hand

end
-- ==== Proof.Body0.lean ====
/-
  The first kernel's body (the channel update) on whole staging buffers, in its two control cases. At a grid
  point that starts a batch entry (second coordinate 0) the accumulator is cleared and receives the product of
  the adjacency block with the path block, and the output block is left alone; at the point that ends the entry
  (second coordinate 1) the accumulator receives the second product and the output block receives the gated cell
  of the channel block and the accumulated message.
-/
import proofs.«126749_j44126493999752_2_alg».proof.Proof.Gen.KernelIdeal.Launch
import proofs.«126749_j44126493999752_2_alg».proof.Proof.Gen.KernelIdeal.Skeleton
import proofs.«126749_j44126493999752_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-! ## Every load and store of the body takes a whole buffer -/

abbrev rA0 : Rect S1x1024x2048 := Rect.unit (s := S1x1024x2048) ![0, 0, 0] S1x1024x2048.size inb_S1x1024x2048_S1x1024x2048_0_0_0
abbrev rP0 : Rect S1x1024x32 := Rect.unit (s := S1x1024x32) ![0, 0, 0] S1x1024x32.size inb_S1x1024x32_S1x1024x32_0_0_0
abbrev rC : Rect S1x2048x32 := Rect.unit (s := S1x2048x32) ![0, 0, 0] S1x2048x32.size inb_S1x2048x32_S1x2048x32_0_0_0
abbrev rS : Rect S2048x32 := Rect.unit (s := S2048x32) ![0, 0] S2048x32.size inb_S2048x32_S2048x32_0_0
abbrev rW0 : Rect S32x96 := Rect.unit (s := S32x96) ![0, 0] S32x96.size inb_S32x96_S32x96_0_0
abbrev rB0 : Rect S1x96 := Rect.unit (s := S1x96) ![0, 0] S1x96.size inb_S1x96_S1x96_0_0

section Whole
variable {sp : Space}

/-- A load of the whole buffer reads its contents. -/
theorem readAt_rA0 (v : View sig .tc sp S1x1024x2048 .f32) (f : v.ty.Contents (Elt F)) : v.readAt (Elt F) rA0 f = v.read (Elt F) f :=
  (View.readAt_eq_ld v f rA0).trans (View.ld_unit_zero (S := S1x1024x2048) hz3 _ _)
/-- A load of the whole buffer reads its contents. -/
theorem readAt_rP0 (v : View sig .tc sp S1x1024x32 .f32) (f : v.ty.Contents (Elt F)) : v.readAt (Elt F) rP0 f = v.read (Elt F) f :=
  (View.readAt_eq_ld v f rP0).trans (View.ld_unit_zero (S := S1x1024x32) hz3 _ _)
/-- A load of the whole buffer reads its contents. -/
theorem readAt_rC (v : View sig .tc sp S1x2048x32 .f32) (f : v.ty.Contents (Elt F)) : v.readAt (Elt F) rC f = v.read (Elt F) f :=
  (View.readAt_eq_ld v f rC).trans (View.ld_unit_zero (S := S1x2048x32) hz3 _ _)
/-- A load of the whole buffer reads its contents. -/
theorem readAt_rS (v : View sig .tc sp S2048x32 .f32) (f : v.ty.Contents (Elt F)) : v.readAt (Elt F) rS f = v.read (Elt F) f :=
  (View.readAt_eq_ld v f rS).trans (View.ld_unit_zero (S := S2048x32) hz2 _ _)
/-- A load of the whole buffer reads its contents. -/
theorem readAt_rW0 (v : View sig .tc sp S32x96 .f32) (f : v.ty.Contents (Elt F)) : v.readAt (Elt F) rW0 f = v.read (Elt F) f :=
  (View.readAt_eq_ld v f rW0).trans (View.ld_unit_zero (S := S32x96) hz2 _ _)
/-- A load of the whole buffer reads its contents. -/
theorem readAt_rB0 (v : View sig .tc sp S1x96 .f32) (f : v.ty.Contents (Elt F)) : v.readAt (Elt F) rB0 f = v.read (Elt F) f :=
  (View.readAt_eq_ld v f rB0).trans (View.ld_unit_zero (S := S1x96) hz2 _ _)

theorem coverS (p0 : Vec F S2048x32 .f32) (y : S2048x32.Idx) :
    ∃ pc ∈ ([⟨rS, p0⟩] : List (View.Piece (Elt F) S2048x32 .f32)), y ∈ pc.1.set :=
  View.cover_of_tiled [⟨rS, p0⟩] S2048x32.size (by rfl) y
theorem coverS2 (p0 p1 : Vec F S2048x32 .f32) (y : S2048x32.Idx) :
    ∃ pc ∈ ([⟨rS, p0⟩, ⟨rS, p1⟩] : List (View.Piece (Elt F) S2048x32 .f32)), y ∈ pc.1.set := by
  obtain ⟨pc, hm, hy⟩ := coverS (F := F) p0 y
  exact ⟨pc, List.mem_cons.mpr (Or.inl (List.mem_singleton.mp hm)), hy⟩
theorem coverC (p0 : Vec F S1x2048x32 .f32) (y : S1x2048x32.Idx) :
    ∃ pc ∈ ([⟨rC, p0⟩] : List (View.Piece (Elt F) S1x2048x32 .f32)), y ∈ pc.1.set :=
  View.cover_of_tiled [⟨rC, p0⟩] S1x2048x32.size (by rfl) y

/-- After a whole-buffer store the buffer reads the stored value, whatever was stored before. -/
theorem read_oneS (v : View sig .tc sp S2048x32 .f32) (f : v.ty.Contents (Elt F)) (p0 : Vec F S2048x32 .f32) :
    v.read (Elt F) (v.writes (Elt F) f [⟨rS, p0⟩]) = p0 :=
  (View.read_writes_eq_canon v f _ (coverS p0)).trans (View.canon_unit_zero (S := S2048x32) hz2 _ p0)
theorem read_twoS (v : View sig .tc sp S2048x32 .f32) (f : v.ty.Contents (Elt F)) (p0 p1 : Vec F S2048x32 .f32) :
    v.read (Elt F) (v.writes (Elt F) f [⟨rS, p0⟩, ⟨rS, p1⟩]) = p0 :=
  (View.read_writes_eq_canon v f _ (coverS2 p0 p1)).trans (View.canon_cons_unit_zero (S := S2048x32) hz2 _ p0 _)
theorem read_oneC (v : View sig .tc sp S1x2048x32 .f32) (f : v.ty.Contents (Elt F)) (p0 : Vec F S1x2048x32 .f32) :
    v.read (Elt F) (v.writes (Elt F) f [⟨rC, p0⟩]) = p0 :=
  (View.read_writes_eq_canon v f _ (coverC p0)).trans (View.canon_unit_zero (S := S1x2048x32) hz3 _ p0)
/-- A whole-buffer load after a whole-buffer store reads the stored value. -/
theorem readCov_S (v : View sig .tc sp S2048x32 .f32) (p0 : Vec F S2048x32 .f32) :
    v.readCov [⟨rS, p0⟩] rS = p0 :=
  View.readCov_unit_zero v hz2 _ p0

end Whole

/-- The body's first branch is taken: the point's second coordinate is 0. -/
abbrev condZ (i : grid0.Coords) : Prop := (Scalar.cmpi .ne (Scalar.extui (Scalar.cmpi .eq (BitVec.ofNat 32 (i 1).val) 0#32)) 0#32) = 1#1
/-- The body's last branch is taken: the point's second coordinate is 1. -/
abbrev condL (i : grid0.Coords) : Prop := k0_cond2 i = 1#1

/-- The accumulator after one more product: `s + adjᵀ · path` of the point's blocks. -/
abbrev accNext (x0 : Vec F S1x1024x2048 .f32) (x1 : Vec F S1x1024x32 .f32) (s : Vec F S2048x32 .f32) : Vec F S2048x32 .f32 :=
  k0_pay2 x1 x0 s
/-- The output block of a batch entry: the gated cell of the channel block and the accumulated message. -/
abbrev chanOut (x2 : Vec F S1x2048x32 .f32) (x3 x4 : Vec F S32x96 .f32) (x5 x6 : Vec F S1x96 .f32) (s : Vec F S2048x32 .f32) : Vec F S1x2048x32 .f32 :=
  k0_pay3 (k0_pay4 s x2 x3 x5 x4 x6)

set_option maxHeartbeats 1500000 in
/-- At a point that starts a batch entry: the accumulator, whatever it held, ends at the first product added to zero;
    the output block is not touched. -/
theorem sound_kernel0_first (c : Dev nD) (E : Set ℕ) (i : grid0.Coords) (hz : condZ i) (hl : ¬condL i)
    (arg2 : Memref sig .tc .vmem S1x1024x2048 .f32) (harg2 : arg2.IsWhole) (arg3 : Memref sig .tc .vmem S1x1024x32 .f32) (harg3 : arg3.IsWhole)
    (arg4 : Memref sig .tc .vmem S1x2048x32 .f32) (harg4 : arg4.IsWhole) (arg5 : Memref sig .tc .vmem S32x96 .f32) (harg5 : arg5.IsWhole)
    (arg6 : Memref sig .tc .vmem S32x96 .f32) (harg6 : arg6.IsWhole) (arg7 : Memref sig .tc .vmem S1x96 .f32) (harg7 : arg7.IsWhole)
    (arg8 : Memref sig .tc .vmem S1x96 .f32) (harg8 : arg8.IsWhole) (arg9 : Memref sig .tc .vmem S1x2048x32 .f32) (harg9 : arg9.IsWhole)
    (arg10 : Memref sig .tc .vmem S2048x32 .f32) (harg10 : arg10.IsWhole)
    (x0 : Vec F S1x1024x2048 .f32) (x1 : Vec F S1x1024x32 .f32) (x2 : Vec F S1x2048x32 .f32)
    (x3 x4 : Vec F S32x96 .f32) (x5 x6 : Vec F S1x96 .f32) (d9 : Vec F S1x2048x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare d9 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare d9
            ∗ owns (c : Thread nD τ) arg10 fullShare (accNext x0 x1 (k0_pay1 (F := F)))) -∗ K ⟨⟩))
      ⊢ wp frame (wpE (defs₀ (F := F)) Variants.none c none) E (cc0_channel_kernel i arg2 harg2 arg3 harg3 arg4 harg4 arg5 harg5 arg6 harg6 arg7 harg7 arg8 harg8 arg9 harg9 arg10 harg10) K := by
  simp only [cc0_channel_kernel_eq_skeleton]; unfold cc0_channel_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%d10, %f10, -, H10⟩, Hk⟩
  subst hf0; subst hf1; subst hf2; subst hf3; subst hf4; subst hf5; subst hf6; subst hf9
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact H10
  ipureintro
  sl_unfold_run_names
  refine (read_twoS _ _ _ _).trans ?_
  exact (congr (congr (congrArg k0_pay2 (readAt_rP0 _ _)) (readAt_rA0 _ _)) (readCov_S _ _))

set_option maxHeartbeats 1500000 in
/-- At the point that ends a batch entry: the accumulator at `s` ends at `s` plus the second product, and the output
    block, whatever it held, ends at the gated cell of the channel block and that sum. -/
theorem sound_kernel0_last (c : Dev nD) (E : Set ℕ) (i : grid0.Coords) (hz : ¬condZ i) (hl : condL i)
    (arg2 : Memref sig .tc .vmem S1x1024x2048 .f32) (harg2 : arg2.IsWhole) (arg3 : Memref sig .tc .vmem S1x1024x32 .f32) (harg3 : arg3.IsWhole)
    (arg4 : Memref sig .tc .vmem S1x2048x32 .f32) (harg4 : arg4.IsWhole) (arg5 : Memref sig .tc .vmem S32x96 .f32) (harg5 : arg5.IsWhole)
    (arg6 : Memref sig .tc .vmem S32x96 .f32) (harg6 : arg6.IsWhole) (arg7 : Memref sig .tc .vmem S1x96 .f32) (harg7 : arg7.IsWhole)
    (arg8 : Memref sig .tc .vmem S1x96 .f32) (harg8 : arg8.IsWhole) (arg9 : Memref sig .tc .vmem S1x2048x32 .f32) (harg9 : arg9.IsWhole)
    (arg10 : Memref sig .tc .vmem S2048x32 .f32) (harg10 : arg10.IsWhole)
    (x0 : Vec F S1x1024x2048 .f32) (x1 : Vec F S1x1024x32 .f32) (x2 : Vec F S1x2048x32 .f32)
    (x3 x4 : Vec F S32x96 .f32) (x5 x6 : Vec F S1x96 .f32) (s : Vec F S2048x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (chanOut x2 x3 x4 x5 x6 (accNext x0 x1 s))
            ∗ owns (c : Thread nD τ) arg10 fullShare (accNext x0 x1 s)) -∗ K ⟨⟩))
      ⊢ wp frame (wpE (defs₀ (F := F)) Variants.none c none) E (cc0_channel_kernel i arg2 harg2 arg3 harg3 arg4 harg4 arg5 harg5 arg6 harg6 arg7 harg7 arg8 harg8 arg9 harg9 arg10 harg10) K := by
  simp only [cc0_channel_kernel_eq_skeleton]; unfold cc0_channel_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, Hk⟩
  subst hf0; subst hf1; subst hf2; subst hf3; subst hf4; subst hf5; subst hf6; subst hf10
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_run_names
    refine (read_oneC _ _ _).trans ?_
    refine congrArg k0_pay3 ?_
    exact congr (congr (congr (congr (congr (congrArg k0_pay4 ((readCov_S _ _).trans (congr (congr (congrArg k0_pay2 (readAt_rP0 _ _)) (readAt_rA0 _ _)) (readAt_rS _ _)))) (readAt_rC _ _)) (readAt_rW0 _ _)) (readAt_rB0 _ _)) (readAt_rW0 _ _)) (readAt_rB0 _ _)
  iexists _; isplitr
  swap; · iexact H10
  ipureintro
  sl_unfold_run_names
  refine (read_oneS _ _ _).trans ?_
  exact (congr (congr (congrArg k0_pay2 (readAt_rP0 _ _)) (readAt_rA0 _ _)) (readAt_rS _ _))

end Cert.KernelIdeal.Hand

end
-- ==== Proof.Data0.lean ====
/-
  The first region's proof data. Each batch entry takes two grid points. The accumulator the kernel keeps
  between points holds, after an entry's first point, the first half of the message sum added to zero, and after its
  second point the whole sum; the output window is left alone at an entry's first point and receives the gated cell
  at its second, where it is written back. The region's invariant carries the accumulator at these contents from
  point to point.
-/
import proofs.«126749_j44126493999752_2_alg».proof.Proof.Gen.KernelIdeal.Launch
import proofs.«126749_j44126493999752_2_alg».proof.Proof.Gen.KernelIdeal.Skeleton
import proofs.«126749_j44126493999752_2_alg».proof.Proof.Gen.KernelIdeal.Points
import proofs.«126749_j44126493999752_2_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches over the grid -/

theorem hcondZ : ∀ t : Fin cfg0.N, condZ (grid0.coords t) ↔ t.val % 2 = 0 :=
  (by decide +kernel : ∀ t : Fin grid0.N, condZ (grid0.coords t) ↔ t.val % 2 = 0)
theorem hcondL : ∀ t : Fin cfg0.N, condL (grid0.coords t) ↔ t.val % 2 = 1 :=
  (by decide +kernel : ∀ t : Fin grid0.N, condL (grid0.coords t) ↔ t.val % 2 = 1)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Where the last branch is not taken the output window is idle and is not written back; where it is taken the window is live. -/
theorem idleAt0_7 : ∀ t : Fin cfg0.N, ¬condL (grid0.coords t) → cfg0.idle 7 (grid0.coords t) = true := by decide +kernel
theorem noFlush0_7 : ∀ t : Fin cfg0.N, ¬condL (grid0.coords t) → (cfg0.win 7).flush t = false := by decide +kernel
theorem liveAt0_7 : ∀ t : Fin cfg0.N, condL (grid0.coords t) → cfg0.idle 7 (grid0.coords t) = false := by decide +kernel

/-- The accumulator's buffer. -/
abbrev scM : Memref sig .tc .vmem S2048x32 .f32 := Memref.whole cc0_scratch0

/-- The core's other scoped buffers that are no staging buffer of this region, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant a body may use without describing: the accumulator's buffer and the other scoped buffers at
    some contents, the generator register at some state. -/
theorem PhiA0_eq (c : Dev nD) :
    (Pipeline.ΦA spec0 c : sProp 𝕄)
      = iprop(((∃ d, owns (c : Thread nD τ) scM fullShare d) ∗ others (F := F) c) ∗ (∃ r, prngReg c r)) := by
  unfold Pipeline.ΦA others; rw [scopedRest0_eq]; simp only [scM, owns_whole]; try rfl

section
-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the accumulator holds after the body at position `n`: at an entry's first point the first
    product added to zero, at its second point the second product added to what the point before left. -/
def accAt (c : Dev nD) : (n : ℕ) → n < cfg0.N → Vec F S2048x32 .f32
  | 0, hn => accNext (iblk0 V c 0 ⟨0, hn⟩) (iblk0 V c 1 ⟨0, hn⟩) (k0_pay1 (F := F))
  | n + 1, hn =>
    if (n + 1) % 2 = 0 then accNext (iblk0 V c 0 ⟨n + 1, hn⟩) (iblk0 V c 1 ⟨n + 1, hn⟩) (k0_pay1 (F := F))
    else accNext (iblk0 V c 0 ⟨n + 1, hn⟩) (iblk0 V c 1 ⟨n + 1, hn⟩) (accAt c n (Nat.lt_of_succ_lt hn))

theorem accAt_even (c : Dev nD) (t : Fin cfg0.N) (h : t.val % 2 = 0) :
    accAt V c t.val t.isLt = accNext (iblk0 V c 0 t) (iblk0 V c 1 t) (k0_pay1 (F := F)) := by
  obtain ⟨n, hn⟩ := t
  cases n with
  | zero => rfl
  | succ n => rw [accAt]; exact if_pos h

theorem accAt_odd (c : Dev nD) (t : Fin cfg0.N) (h : t.val % 2 = 1) :
    accAt V c t.val t.isLt = accNext (iblk0 V c 0 t) (iblk0 V c 1 t) (accAt V c (t.val - 1) (Nat.lt_of_le_of_lt (Nat.sub_le _ _) t.isLt)) := by
  obtain ⟨n, hn⟩ := t
  cases n with
  | zero => exact absurd h (by simp)
  | succ n => rw [accAt]; exact (if_neg (by (try dsimp only at h); omega)).trans rfl

/-- The region invariant before position `n`: before the first point the class's; afterwards the accumulator at what
    the point before left in it, beside the other scoped buffers and the generator register. -/
def PhiS (c : Dev nD) : (n : ℕ) → n ≤ cfg0.N → sProp 𝕄
  | 0, _ => Pipeline.ΦA spec0 c
  | n + 1, hn => iprop((owns (c : Thread nD τ) scM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accAt V c n hn) ∗ others (F := F) c) ∗ (∃ r, prngReg c r)) := rfl
theorem PhiS_pos (c : Dev nD) (n : ℕ) (h : n ≤ cfg0.N) (hz : n ≠ 0) :
    PhiS V c n h = iprop((owns (c : Thread nD τ) scM fullShare (accAt V c (n - 1) (by omega)) ∗ others (F := F) c) ∗ (∃ r, prngReg c r)) := by
  cases n with
  | zero => exact absurd rfl hz
  | succ n => rfl

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => chanOut (iblk0 V c 2 t) (iblk0 V c 3 t) (iblk0 V c 4 t) (iblk0 V c 5 t) (iblk0 V c 6 t) (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = chanOut (iblk0 V c 2 t) (iblk0 V c 3 t) (iblk0 V c 4 t) (iblk0 V c 5 t) (iblk0 V c 6 t) (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point. The inputs' buffers hold their blocks. At an entry's first point the invariant hands the
    body the accumulator at anything and takes it back at the first product; the output window is handed back as
    found. At an entry's second point the invariant hands the accumulator at what the first point left and takes it
    back at the whole sum, and the output window's buffer takes the gated cell. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  by_cases h : t.val % 2 = 0
  · have hcz : condZ (grid0.coords t) := (hcondZ t).mpr h
    have hcl : ¬condL (grid0.coords t) := fun hl => by have := (hcondL t).mp hl; omega
    rw [Dat.leavesExact_idle (dat0 V c) 7 t (idleAt0_7 t hcl) (noFlush0_7 t hcl)]
    rw [accAt_even V c t h]
    by_cases hz0 : t.val = 0
    · rw [PhiS_castSucc V c t, PhiS_zero V c _ _ hz0, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) hcz hcl _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz0]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) hcz hcl _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 7 t d7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h1 : t.val % 2 = 1 := by omega
    have hcl : condL (grid0.coords t) := (hcondL t).mpr h1
    have hcz : ¬condZ (grid0.coords t) := fun hz => h ((hcondZ t).mp hz)
    have hz0 : t.val ≠ 0 := by omega
    rw [show (dat0 V c).leavesExact 7 t = owns (c : Thread nD τ) (st0_7 t) fullShare ((dat0 V c).after 7 t) from by
      unfold Dat.leavesExact; rw [liveAt0_7 t hcl], after0_7]
    rw [accAt_odd V c t h1]
    rw [PhiS_castSucc V c t, PhiS_pos V c _ _ hz0]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_last c Set.univ (grid0.coords t) hcz hcl _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end

end Cert.KernelIdeal.Hand

end
-- ==== Proof.Body1.lean ====
/-
  The second kernel's body (the path update) on whole staging buffers: it reads its seven input blocks,
  and leaves in the output block the gated cell of the path block and of the product of the adjacency
  block with the new channel block.
-/
import proofs.«126749_j44126493999752_2_alg».proof.Proof.Gen.KernelIdeal.Launch
import proofs.«126749_j44126493999752_2_alg».proof.Proof.Gen.KernelIdeal.Skeleton
import proofs.«126749_j44126493999752_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store take a whole buffer -/

abbrev rA1 : Rect S1x512x2048 := Rect.unit (s := S1x512x2048) ![0, 0, 0] S1x512x2048.size inb_S1x512x2048_S1x512x2048_0_0_0
abbrev rY1 : Rect S1x2048x32 := Rect.unit (s := S1x2048x32) ![0, 0, 0] S1x2048x32.size inb_S1x2048x32_S1x2048x32_0_0_0
abbrev rX1 : Rect S1x512x32 := Rect.unit (s := S1x512x32) ![0, 0, 0] S1x512x32.size inb_S1x512x32_S1x512x32_0_0_0
abbrev rW : Rect S32x96 := Rect.unit (s := S32x96) ![0, 0] S32x96.size inb_S32x96_S32x96_0_0
abbrev rB : Rect S1x96 := Rect.unit (s := S1x96) ![0, 0] S1x96.size inb_S1x96_S1x96_0_0

/-- What the body stores into the output block, from the seven input blocks (adjacency rows, new channel states,
    path rows, transposed input and hidden weights, input and hidden bias rows). -/
def pathPay (x0 : Vec F S1x512x2048 .f32) (x1 : Vec F S1x2048x32 .f32) (x2 : Vec F S1x512x32 .f32)
    (x3 x4 : Vec F S32x96 .f32) (x5 x6 : Vec F S1x96 .f32) : FVec F S1x512x32 .f32 :=
  k1_pay1 (k1_pay2 (View.ld x0 rA1) (View.ld x1 rY1)) (k1_pay5 (View.ld x2 rX1) (View.ld x3 rW) (View.ld x5 rB))
    (k1_pay6 (View.ld x0 rA1) (View.ld x1 rY1) (View.ld x2 rX1) (View.ld x3 rW) (View.ld x5 rB) (View.ld x4 rW) (View.ld x6 rB))
    (k1_pay7 (View.ld x0 rA1) (View.ld x1 rY1) (View.ld x2 rX1) (View.ld x3 rW) (View.ld x5 rB) (View.ld x4 rW) (View.ld x6 rB))

/-- The output block after the body: its one store, which covers the block. -/
def out1_7 (x0 : Vec F S1x512x2048 .f32) (x1 : Vec F S1x2048x32 .f32) (x2 : Vec F S1x512x32 .f32)
    (x3 x4 : Vec F S32x96 .f32) (x5 x6 : Vec F S1x96 .f32) : Vec F S1x512x32 .f32 :=
  View.canon [⟨rX1, pathPay x0 x1 x2 x3 x4 x5 x6⟩]

theorem cover1_7 (p0 : Vec F S1x512x32 .f32) (y : S1x512x32.Idx) :
    ∃ pc ∈ ([⟨rX1, p0⟩] : List (View.Piece (Elt F) S1x512x32 .f32)), y ∈ pc.1.set :=
  View.cover_of_tiled [⟨rX1, p0⟩] S1x512x32.size (by rfl) y

set_option maxHeartbeats 4000000 in
/-- The body on whole staging buffers, the inputs' at given contents and the output's at anything, runs to the
    continuation holding the inputs' as they were and the output's at `out1_7` of the inputs'. -/
theorem sound_kernel1 (c : Dev nD) (E : Set ℕ) (i : grid1.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole) (arg5 : Memref sig .tc .vmem S32x96 .f32) (harg5 : arg5.IsWhole)
    (arg6 : Memref sig .tc .vmem S32x96 .f32) (harg6 : arg6.IsWhole) (arg7 : Memref sig .tc .vmem S1x96 .f32) (harg7 : arg7.IsWhole)
    (arg8 : Memref sig .tc .vmem S1x96 .f32) (harg8 : arg8.IsWhole) (arg9 : Memref sig .tc .vmem S1x512x32 .f32) (harg9 : arg9.IsWhole)
    (x0 : Vec F S1x512x2048 .f32) (x1 : Vec F S1x2048x32 .f32) (x2 : Vec F S1x512x32 .f32)
    (x3 x4 : Vec F S32x96 .f32) (x5 x6 : Vec F S1x96 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1_path_kernel i arg2 harg2 arg3 harg3 arg4 harg4 arg5 harg5 arg6 harg6 arg7 harg7 arg8 harg8 arg9 harg9) K := by
  simp only [cc1_path_kernel_eq_skeleton]; unfold cc1_path_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

end Cert.KernelIdeal.Hand

end
-- ==== Proof.Data1.lean ====
/-
  The second region's proof data: at every grid point each input window's staging buffer holds its block of the
  array the region was entered with, and after the body the output window's buffer holds the body's payload of
  those blocks; the region keeps nothing between points.
-/
import proofs.«126749_j44126493999752_2_alg».proof.Proof.Gen.KernelIdeal.Launch
import proofs.«126749_j44126493999752_2_alg».proof.Proof.Gen.KernelIdeal.Skeleton
import proofs.«126749_j44126493999752_2_alg».proof.Proof.Gen.KernelIdeal.Points
import proofs.«126749_j44126493999752_2_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Run.lean ====
/-
  The whole program's run. Between its items every unscoped buffer of a core is held at known contents: the launch
  memory; then the eight host operations applied to it; then, after the first region, the new channel states in
  place of its result buffer; then, after the second, the new path states in place of its. Each region is entered
  from these contents, takes its windows' arrays out of them and puts them back as its write-backs leave them.
  Every weakly fair execution ends with every unscoped buffer at the last of these contents — from which the
  argument arrays read back as launched and the two results as the regions' proof data give them.
-/
import proofs.«126749_j44126493999752_2_alg».proof.Proof.Gen.KernelIdeal.Launch
import proofs.«126749_j44126493999752_2_alg».proof.Proof.Gen.KernelIdeal.Skeleton
import proofs.«126749_j44126493999752_2_alg».proof.Proof.Gen.KernelIdeal.Points
import proofs.«126749_j44126493999752_2_alg».proof.Proof.Data0
import proofs.«126749_j44126493999752_2_alg».proof.Proof.Data1
import proofs.«126749_j44126493999752_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the host operations (the first region's entry). -/
abbrev W1 : Dev nD → Valuation τ sig (Elt F) := fun c => Gen.V1 m c
abbrev E1 : (c : Dev nD) → (b : Ref sig .tc) → Buf (Elt F) ((c : Thread nD τ).loc b) := fun c b => W1 m c b
/-- After the first region: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## No item writes an argument: the last contents read back to the launch memory -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 2).trans (((dat1 (E2 m) c).arrAt_in 2 rfl _).trans (A_eq1 (E2 m) c 2))
    _ = W1 m c (Proc.devRef .tc main_arg0) := (W2_arr m c 1).trans (((dat0 (E1 m) c).arrAt_in 1 rfl _).trans (A_eq0 (E1 m) c 1))
    _ = m ((c : Thread nD τ).loc main_arg0) := (V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 2).trans (((dat0 (E1 m) c).arrAt_in 2 rfl _).trans (A_eq0 (E1 m) c 2))
    _ = m ((c : Thread nD τ).loc main_arg1) := (V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (E2 m) c).arrAt_in 0 rfl _).trans (A_eq1 (E2 m) c 0))
    _ = W1 m c (Proc.devRef .tc main_arg2) := (W2_arr m c 0).trans (((dat0 (E1 m) c).arrAt_in 0 rfl _).trans (A_eq0 (E1 m) c 0))
    _ = m ((c : Thread nD τ).loc main_arg2) := (V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := (V1_of m c main_arg4 (by decide)).trans rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (V1_of m c main_arg5 (by decide)).trans rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := (V1_of m c main_arg6 (by decide)).trans rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := (V1_of m c main_arg7 (by decide)).trans rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = m ((c : Thread nD τ).loc main_arg8) := (V1_of m c main_arg8 (by decide)).trans rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (V1_of m c main_arg9 (by decide)).trans rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = m ((c : Thread nD τ).loc main_arg10) := (V1_of m c main_arg10 (by decide)).trans rfl

/-! ## The arrays the regions are entered with, read back -/

theorem W1_main_arg0 (c : Dev nD) : W1 m c (Proc.devRef .tc main_arg0) = m ((c : Thread nD τ).loc main_arg0) := (V1_of m c main_arg0 (by decide)).trans rfl
theorem W1_main_arg1 (c : Dev nD) : W1 m c (Proc.devRef .tc main_arg1) = m ((c : Thread nD τ).loc main_arg1) := (V1_of m c main_arg1 (by decide)).trans rfl
theorem W1_main_arg2 (c : Dev nD) : W1 m c (Proc.devRef .tc main_arg2) = m ((c : Thread nD τ).loc main_arg2) := (V1_of m c main_arg2 (by decide)).trans rfl
theorem W2_main_arg0 (c : Dev nD) : W2 m c (Proc.devRef .tc main_arg0) = m ((c : Thread nD τ).loc main_arg0) :=
  ((W2_arr m c 1).trans (((dat0 (E1 m) c).arrAt_in 1 rfl _).trans (A_eq0 (E1 m) c 1))).trans (W1_main_arg0 m c)
theorem W2_main_arg2 (c : Dev nD) : W2 m c (Proc.devRef .tc main_arg2) = m ((c : Thread nD τ).loc main_arg2) :=
  ((W2_arr m c 0).trans (((dat0 (E1 m) c).arrAt_in 0 rfl _).trans (A_eq0 (E1 m) c 0))).trans (W1_main_arg2 m c)
theorem W2_main_v4 (c : Dev nD) : W2 m c (Proc.devRef .tc main_v4) = Gen.V1 m c (Proc.devRef .tc main_v4) := W2_of_ne m c main_v4 (by decide)
theorem W2_main_v5 (c : Dev nD) : W2 m c (Proc.devRef .tc main_v5) = Gen.V1 m c (Proc.devRef .tc main_v5) := W2_of_ne m c main_v5 (by decide)
theorem W2_main_v6 (c : Dev nD) : W2 m c (Proc.devRef .tc main_v6) = Gen.V1 m c (Proc.devRef .tc main_v6) := W2_of_ne m c main_v6 (by decide)
theorem W2_main_v7 (c : Dev nD) : W2 m c (Proc.devRef .tc main_v7) = Gen.V1 m c (Proc.devRef .tc main_v7) := W2_of_ne m c main_v7 (by decide)
theorem W2_main_v8 (c : Dev nD) : W2 m c (Proc.devRef .tc main_v8) = (dat0 (E1 m) c).arrAt 7 cfg0.N := W2_arr m c 7

/-! ## What the two results hold at the end -/

/-- The second result (the new channel states) is what the first region's write-backs leave; the second region only reads it. -/
theorem W3_main_v8 (c : Dev nD) : W3 m c (Proc.devRef .tc main_v8) = (dat0 (E1 m) c).arrAt 7 cfg0.N :=
  ((W3_arr m c 1).trans (((dat1 (E2 m) c).arrAt_in 1 rfl _).trans (A_eq1 (E2 m) c 1))).trans (W2_arr m c 7)
/-- The first result (the new path states) is what the second region's write-backs leave. -/
theorem W3_main_v9 (c : Dev nD) : W3 m c (Proc.devRef .tc main_v9) = (dat1 (E2 m) c).arrAt 7 cfg1.N :=
  W3_arr m c 7

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (E1 m) c
    unfold Pipeline.ΦA at h
    iintro ⟨Hp, -, Hr⟩
    iapply h
    isplitl [Hr]; · iexact Hr
    iexact Hp
  hout c := by
    rw [Pipeline.ownSems0_none]
    have h : (pdats m 0 c).Φ (Fin.last _) ⊢ Pipeline.ΦA spec0 c := hout0 (E1 m) c
    unfold Pipeline.ΦA at h
    iintro HPhi
    ihave HA := h $$ HPhi
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev mainSegs : List (Pipeline.Seg (pcfgs (F := F)) adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (mainSegs m) := (main_chain c).trans (by chain_rfl)

set_option backward.isDefEq.respectTransparency.types false in
/-- THE RUN: from any memory with zero counters every weakly fair execution terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

/-- The run with its results: the new path states and the new channel states are what the two regions' write-backs
    leave, and every argument array ends as launched. -/
theorem run_values : θ_run defs (onTc (τ := τ) (main (F := F))) ⟨m, fun _ => 0, ρ⟩ (fun r => ∀ c : Dev nD,
      r.2.mem ((c.tc : Thread nD τ).loc main_v9) = (dat1 (E2 m) c).arrAt 7 cfg1.N
      ∧ r.2.mem ((c.tc : Thread nD τ).loc main_v8) = (dat0 (E1 m) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v9 (by decide))).trans (W3_main_v9 m c),
      (h c _ (mem_uc main_v8 (by decide))).trans (W3_main_v8 m c),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

end Cert.KernelIdeal.Hand

end
-- ==== Proof.Spec.lean ====
/-
  The mathematics both programs compute, over plain families of extended reals.

  One message-passing round on a bipartite graph of 2048 path nodes and 2048 channel nodes per batch
  entry (16 entries), every node carrying 32 features:
    * a channel node c receives   msg_c = Σ_p adj[p,c] · path_p
    * it is updated by a gated recurrent cell with INPUT its old state and HIDDEN state the message:
        gate(x)[j] = Σ_k x[k] · W[j,k] + bias[j]            (j < 96: three groups of 32)
        r = σ(gi[o] + gh[o]),  z = σ(gi[32+o] + gh[32+o]),  n = tanh(gi[64+o] + r · gh[64+o])
        new[o] = (1 − z) · n + z · msg[o]
    * a path node p then receives  msg_p = Σ_c adj[p,c] · newChannel_c  and is updated the same way
      with its own weights.
  σ is the logistic function of the extended reals, `1 / (1 + e^(−x))`.
-/
import Idealize.ShloMosaic.PureOps.Ideal

noncomputable section

namespace Cert.GruSpec

open Idealize.ShloMosaic

/-- The constant 1.0 of both programs, as the extended real its f32 word denotes. -/
def one : EReal := Ideal.ofBits .f32 0x3F800000#32

/-- The three groups of a 96-wide gate vector. -/
def lo (o : Fin 32) : Fin 96 := ⟨o.val, by omega⟩
def mid (o : Fin 32) : Fin 96 := ⟨o.val + 32, by omega⟩
def hi (o : Fin 32) : Fin 96 := ⟨o.val + 64, by omega⟩

/-- An affine gate pre-activation: `Σ_k x k · w j k + b j`. -/
def gate (x : Fin 32 → EReal) (w : Fin 96 → Fin 32 → EReal) (b : Fin 96 → EReal) (j : Fin 96) : EReal :=
  (∑ k : Fin 32, x k * w j k) + b j

/-- The gated recurrent cell with input `x` and hidden state `h`, output feature `o`. -/
def cell (x h : Fin 32 → EReal) (wi wh : Fin 96 → Fin 32 → EReal) (bi bh : Fin 96 → EReal) (o : Fin 32) : EReal :=
  (one - Ideal.logistic (gate x wi bi (mid o) + gate h wh bh (mid o)))
      * Ideal.tanh (gate x wi bi (hi o)
          + Ideal.logistic (gate x wi bi (lo o) + gate h wh bh (lo o)) * gate h wh bh (hi o))
    + Ideal.logistic (gate x wi bi (mid o) + gate h wh bh (mid o)) * h o

/-- What channel node `c` of batch entry `b` receives: `Σ_p adj[b,p,c] · path[b,p,·]`. -/
def chanMsg (adj : Fin 16 → Fin 2048 → Fin 2048 → EReal) (path : Fin 16 → Fin 2048 → Fin 32 → EReal)
    (b : Fin 16) (c : Fin 2048) (h : Fin 32) : EReal :=
  ∑ p : Fin 2048, adj b p c * path b p h

/-- The updated channel states. -/
def newChan (path chan : Fin 16 → Fin 2048 → Fin 32 → EReal) (adj : Fin 16 → Fin 2048 → Fin 2048 → EReal)
    (wi wh : Fin 96 → Fin 32 → EReal) (bi bh : Fin 96 → EReal) (b : Fin 16) (c : Fin 2048) (o : Fin 32) : EReal :=
  cell (chan b c) (chanMsg adj path b c) wi wh bi bh o

/-- What path node `p` of batch entry `b` receives from the channel states `nc`: `Σ_c adj[b,p,c] · nc[b,c,·]`. -/
def pathMsg (adj : Fin 16 → Fin 2048 → Fin 2048 → EReal) (nc : Fin 16 → Fin 2048 → Fin 32 → EReal)
    (b : Fin 16) (p : Fin 2048) (h : Fin 32) : EReal :=
  ∑ c : Fin 2048, adj b p c * nc b c h

/-- The updated path states, from the channel states `nc` already updated. -/
def newPath (path nc : Fin 16 → Fin 2048 → Fin 32 → EReal) (adj : Fin 16 → Fin 2048 → Fin 2048 → EReal)
    (wi wh : Fin 96 → Fin 32 → EReal) (bi bh : Fin 96 → EReal) (b : Fin 16) (p : Fin 2048) (o : Fin 32) : EReal :=
  cell (path b p) (pathMsg adj nc b p) wi wh bi bh o

end Cert.GruSpec

end
-- ==== Proof.PaySide.lean ====
/-
  The arithmetic of the two kernel bodies, read at one index at the ideal values.

  Every narrowing to bf16 is the identity on extended reals, a matrix product into the zero accumulator is the plain
  sum of products over the contracted axis, the casts between [1,a,b] and [a,b] and the broadcast of a bias row only
  rename indices, and the three column groups of a 96-wide gate vector are the columns o, 32 + o and 64 + o. So the
  channel body accumulates  acc[c,h] + Σ_p adj[p,c] · path[p,h]  and then applies the gated cell of the specification
  row by row, and the path body forms  Σ_c adj[p,c] · chan[c,k]  and applies the same cell to it.
-/
import proofs.«126749_j44126493999752_2_alg».proof.Proof.Gen.KernelIdeal.Skeleton
import proofs.«126749_j44126493999752_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PaySide

open Idealize.ShloMosaic Idealize.ShloMosaic.ValueIdx Cert.KernelIdeal

/-! ## Four matrix products into the zero accumulator, read at an index -/

/-! The product that contracts the ROWS of both blocks: a [1024,2048] block and a [1024,32] block; at (c, h) it is
    the sum over the 1024 shared rows p of l[p,c] · w[p,h]. -/
theorem mmT_lhs1 (i : S2048x32.Idx) (q : dot_S1024x2048_S1024x32_S2048x32_0_0_1_1_n_n.contr.Idx) :
    (dot_S1024x2048_S1024x32_S2048x32_0_0_1_1_n_n.lhsIdx i q 1).val = (i 0).val := by
  unfold DotDims.lhsIdx
  rw [dif_neg (show ¬(1 : Fin S1024x2048.rank) ∈ dot_S1024x2048_S1024x32_S2048x32_0_0_1_1_n_n.lhsBatch by decide),
    dif_pos (show (1 : Fin S1024x2048.rank) ∈ dot_S1024x2048_S1024x32_S2048x32_0_0_1_1_n_n.lhsNonContracting by decide)]
  rfl
theorem mmT_rhs1 (i : S2048x32.Idx) (q : dot_S1024x2048_S1024x32_S2048x32_0_0_1_1_n_n.contr.Idx) :
    (dot_S1024x2048_S1024x32_S2048x32_0_0_1_1_n_n.rhsIdx i q 1).val = (i 1).val := by
  unfold DotDims.rhsIdx
  rw [dif_neg (show ¬(1 : Fin S1024x32.rank) ∈ dot_S1024x2048_S1024x32_S2048x32_0_0_1_1_n_n.rhsBatch by decide),
    dif_pos (show (1 : Fin S1024x32.rank) ∈ dot_S1024x2048_S1024x32_S2048x32_0_0_1_1_n_n.rhsNonContracting by decide)]
  rfl
theorem mmT_apply {φ₁ φ₂ : FTy} (l : FVec Ideal S1024x2048 φ₁) (w : FVec Ideal S1024x32 φ₂) (c : Fin 2048) (h : Fin 32) :
    matmul dot_S1024x2048_S1024x32_S2048x32_0_0_1_1_n_n none l w (constant (F := Ideal) S2048x32 .f32 0x00000000#32) (ix2 c h)
      = ∑ p : Fin 1024, l (ix2 p c) * w (ix2 p h) := by
  simp only [matmul]
  rw [Ideal.matmul_constant_zero_apply,
    ← Equiv.sum_comp (contrEquiv1 dot_S1024x2048_S1024x32_S2048x32_0_0_1_1_n_n 1024 rfl rfl).symm]
  refine Finset.sum_congr rfl fun p _ => ?_
  have hp := contrEquiv1_symm_val dot_S1024x2048_S1024x32_S2048x32_0_0_1_1_n_n 1024 rfl rfl p
  have el : dot_S1024x2048_S1024x32_S2048x32_0_0_1_1_n_n.lhsIdx (ix2 c h)
      ((contrEquiv1 dot_S1024x2048_S1024x32_S2048x32_0_0_1_1_n_n 1024 rfl rfl).symm p) = ix2 p c :=
    funext fun a => Fin.ext (by
      match a with
      | ⟨0, _⟩ => exact (dot_S1024x2048_S1024x32_S2048x32_0_0_1_1_n_n.lhsIdx_val_of_single rfl _ _).trans hp
      | ⟨1, _⟩ => exact mmT_lhs1 _ _)
  have er : dot_S1024x2048_S1024x32_S2048x32_0_0_1_1_n_n.rhsIdx (ix2 c h)
      ((contrEquiv1 dot_S1024x2048_S1024x32_S2048x32_0_0_1_1_n_n 1024 rfl rfl).symm p) = ix2 p h :=
    funext fun a => Fin.ext (by
      match a with
      | ⟨0, _⟩ => exact (dot_S1024x2048_S1024x32_S2048x32_0_0_1_1_n_n.rhsIdx_val_of_single rfl _ _).trans hp
      | ⟨1, _⟩ => exact mmT_rhs1 _ _)
  rw [el, er]

/-! The product of a [2048,32] block by a [32,96] block: at (r, c) the sum over k of l[r,k] · w[k,c]. -/
theorem mmG2048_lhs0 (i : S2048x96.Idx) (q : dot_S2048x32_S32x96_S2048x96_1_0_0_1_n_n.contr.Idx) :
    (dot_S2048x32_S32x96_S2048x96_1_0_0_1_n_n.lhsIdx i q 0).val = (i 0).val := by
  unfold DotDims.lhsIdx
  rw [dif_neg (show ¬(0 : Fin S2048x32.rank) ∈ dot_S2048x32_S32x96_S2048x96_1_0_0_1_n_n.lhsBatch by decide),
    dif_pos (show (0 : Fin S2048x32.rank) ∈ dot_S2048x32_S32x96_S2048x96_1_0_0_1_n_n.lhsNonContracting by decide)]
  rfl
theorem mmG2048_rhs1 (i : S2048x96.Idx) (q : dot_S2048x32_S32x96_S2048x96_1_0_0_1_n_n.contr.Idx) :
    (dot_S2048x32_S32x96_S2048x96_1_0_0_1_n_n.rhsIdx i q 1).val = (i 1).val := by
  unfold DotDims.rhsIdx
  rw [dif_neg (show ¬(1 : Fin S32x96.rank) ∈ dot_S2048x32_S32x96_S2048x96_1_0_0_1_n_n.rhsBatch by decide),
    dif_pos (show (1 : Fin S32x96.rank) ∈ dot_S2048x32_S32x96_S2048x96_1_0_0_1_n_n.rhsNonContracting by decide)]
  rfl
theorem mmG2048_apply {φ₁ φ₂ : FTy} (l : FVec Ideal S2048x32 φ₁) (w : FVec Ideal S32x96 φ₂) (r : Fin 2048) (c : Fin 96) :
    matmul dot_S2048x32_S32x96_S2048x96_1_0_0_1_n_n none l w (constant (F := Ideal) S2048x96 .f32 0x00000000#32) (ix2 r c)
      = ∑ k : Fin 32, l (ix2 r k) * w (ix2 k c) := by
  simp only [matmul]
  rw [Ideal.matmul_constant_zero_apply,
    ← Equiv.sum_comp (contrEquiv1 dot_S2048x32_S32x96_S2048x96_1_0_0_1_n_n 32 rfl rfl).symm]
  refine Finset.sum_congr rfl fun k _ => ?_
  have hk := contrEquiv1_symm_val dot_S2048x32_S32x96_S2048x96_1_0_0_1_n_n 32 rfl rfl k
  have el : dot_S2048x32_S32x96_S2048x96_1_0_0_1_n_n.lhsIdx (ix2 r c)
      ((contrEquiv1 dot_S2048x32_S32x96_S2048x96_1_0_0_1_n_n 32 rfl rfl).symm k) = ix2 r k :=
    funext fun a => Fin.ext (by
      match a with
      | ⟨0, _⟩ => exact mmG2048_lhs0 _ _
      | ⟨1, _⟩ => exact (dot_S2048x32_S32x96_S2048x96_1_0_0_1_n_n.lhsIdx_val_of_single rfl _ _).trans hk)
  have er : dot_S2048x32_S32x96_S2048x96_1_0_0_1_n_n.rhsIdx (ix2 r c)
      ((contrEquiv1 dot_S2048x32_S32x96_S2048x96_1_0_0_1_n_n 32 rfl rfl).symm k) = ix2 k c :=
    funext fun a => Fin.ext (by
      match a with
      | ⟨0, _⟩ => exact (dot_S2048x32_S32x96_S2048x96_1_0_0_1_n_n.rhsIdx_val_of_single rfl _ _).trans hk
      | ⟨1, _⟩ => exact mmG2048_rhs1 _ _)
  rw [el, er]

/-! The product of a [512,2048] block by a [2048,32] block: at (r, c) the sum over k of l[r,k] · w[k,c]. -/
theorem mmA512_lhs0 (i : S512x32.Idx) (q : dot_S512x2048_S2048x32_S512x32_1_0_0_1_n_n.contr.Idx) :
    (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide),
    dif_pos (show (0 : Fin S512x2048.rank) ∈ dot_S512x2048_S2048x32_S512x32_1_0_0_1_n_n.lhsNonContracting by decide)]
  rfl
theorem mmA512_rhs1 (i : S512x32.Idx) (q : dot_S512x2048_S2048x32_S512x32_1_0_0_1_n_n.contr.Idx) :
    (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide),
    dif_pos (show (1 : Fin S2048x32.rank) ∈ dot_S512x2048_S2048x32_S512x32_1_0_0_1_n_n.rhsNonContracting by decide)]
  rfl
theorem mmA512_apply {φ₁ φ₂ : FTy} (l : FVec Ideal S512x2048 φ₁) (w : FVec Ideal S2048x32 φ₂) (r : Fin 512) (c : Fin 32) :
    matmul dot_S512x2048_S2048x32_S512x32_1_0_0_1_n_n none l w (constant (F := Ideal) S512x32 .f32 0x00000000#32) (ix2 r c)
      = ∑ k : Fin 2048, l (ix2 r k) * w (ix2 k c) := by
  simp only [matmul]
  rw [Ideal.matmul_constant_zero_apply,
    ← Equiv.sum_comp (contrEquiv1 dot_S512x2048_S2048x32_S512x32_1_0_0_1_n_n 2048 rfl rfl).symm]
  refine Finset.sum_congr rfl fun k _ => ?_
  have hk := contrEquiv1_symm_val dot_S512x2048_S2048x32_S512x32_1_0_0_1_n_n 2048 rfl rfl k
  have el : dot_S512x2048_S2048x32_S512x32_1_0_0_1_n_n.lhsIdx (ix2 r c)
      ((contrEquiv1 dot_S512x2048_S2048x32_S512x32_1_0_0_1_n_n 2048 rfl rfl).symm k) = ix2 r k :=
    funext fun a => Fin.ext (by
      match a with
      | ⟨0, _⟩ => exact mmA512_lhs0 _ _
      | ⟨1, _⟩ => exact (dot_S512x2048_S2048x32_S512x32_1_0_0_1_n_n.lhsIdx_val_of_single rfl _ _).trans hk)
  have er : dot_S512x2048_S2048x32_S512x32_1_0_0_1_n_n.rhsIdx (ix2 r c)
      ((contrEquiv1 dot_S512x2048_S2048x32_S512x32_1_0_0_1_n_n 2048 rfl rfl).symm k) = ix2 k c :=
    funext fun a => Fin.ext (by
      match a with
      | ⟨0, _⟩ => exact (dot_S512x2048_S2048x32_S512x32_1_0_0_1_n_n.rhsIdx_val_of_single rfl _ _).trans hk
      | ⟨1, _⟩ => exact mmA512_rhs1 _ _)
  rw [el, er]

/-! The product of a [512,32] block by a [32,96] block: at (r, c) the sum over k of l[r,k] · w[k,c]. -/
theorem mmG512_lhs0 (i : S512x96.Idx) (q : dot_S512x32_S32x96_S512x96_1_0_0_1_n_n.contr.Idx) :
    (dot_S512x32_S32x96_S512x96_1_0_0_1_n_n.lhsIdx i q 0).val = (i 0).val := by
  unfold DotDims.lhsIdx
  rw [dif_neg (show ¬(0 : Fin S512x32.rank) ∈ dot_S512x32_S32x96_S512x96_1_0_0_1_n_n.lhsBatch by decide),
    dif_pos (show (0 : Fin S512x32.rank) ∈ dot_S512x32_S32x96_S512x96_1_0_0_1_n_n.lhsNonContracting by decide)]
  rfl
theorem mmG512_rhs1 (i : S512x96.Idx) (q : dot_S512x32_S32x96_S512x96_1_0_0_1_n_n.contr.Idx) :
    (dot_S512x32_S32x96_S512x96_1_0_0_1_n_n.rhsIdx i q 1).val = (i 1).val := by
  unfold DotDims.rhsIdx
  rw [dif_neg (show ¬(1 : Fin S32x96.rank) ∈ dot_S512x32_S32x96_S512x96_1_0_0_1_n_n.rhsBatch by decide),
    dif_pos (show (1 : Fin S32x96.rank) ∈ dot_S512x32_S32x96_S512x96_1_0_0_1_n_n.rhsNonContracting by decide)]
  rfl
theorem mmG512_apply {φ₁ φ₂ : FTy} (l : FVec Ideal S512x32 φ₁) (w : FVec Ideal S32x96 φ₂) (r : Fin 512) (c : Fin 96) :
    matmul dot_S512x32_S32x96_S512x96_1_0_0_1_n_n none l w (constant (F := Ideal) S512x96 .f32 0x00000000#32) (ix2 r c)
      = ∑ k : Fin 32, l (ix2 r k) * w (ix2 k c) := by
  simp only [matmul]
  rw [Ideal.matmul_constant_zero_apply,
    ← Equiv.sum_comp (contrEquiv1 dot_S512x32_S32x96_S512x96_1_0_0_1_n_n 32 rfl rfl).symm]
  refine Finset.sum_congr rfl fun k _ => ?_
  have hk := contrEquiv1_symm_val dot_S512x32_S32x96_S512x96_1_0_0_1_n_n 32 rfl rfl k
  have el : dot_S512x32_S32x96_S512x96_1_0_0_1_n_n.lhsIdx (ix2 r c)
      ((contrEquiv1 dot_S512x32_S32x96_S512x96_1_0_0_1_n_n 32 rfl rfl).symm k) = ix2 r k :=
    funext fun a => Fin.ext (by
      match a with
      | ⟨0, _⟩ => exact mmG512_lhs0 _ _
      | ⟨1, _⟩ => exact (dot_S512x32_S32x96_S512x96_1_0_0_1_n_n.lhsIdx_val_of_single rfl _ _).trans hk)
  have er : dot_S512x32_S32x96_S512x96_1_0_0_1_n_n.rhsIdx (ix2 r c)
      ((contrEquiv1 dot_S512x32_S32x96_S512x96_1_0_0_1_n_n 32 rfl rfl).symm k) = ix2 k c :=
    funext fun a => Fin.ext (by
      match a with
      | ⟨0, _⟩ => exact (dot_S512x32_S32x96_S512x96_1_0_0_1_n_n.rhsIdx_val_of_single rfl _ _).trans hk
      | ⟨1, _⟩ => exact mmG512_rhs1 _ _)
  rw [el, er]

/-! ## The accumulator's zero fill and one accumulation step -/

/-- The fill written at the first reduction step is zero everywhere. -/
theorem pay1_apply (j : S2048x32.Idx) : Gen.k0_pay1 (F := Ideal) j = 0 := by
  unfold Gen.k0_pay1
  rw [shapeCast_self]
  exact Ideal.ofBits_zero_f32

/-- One accumulation step: the accumulator plus the sum over the 1024 rows of the block of adj[p,c] · path[p,h]. -/
theorem pay2_apply (v3 : FVec Ideal S1x1024x32 .f32) (v6 : FVec Ideal S1x1024x2048 .f32) (v10 : FVec Ideal S2048x32 .f32)
    (c : Fin 2048) (h : Fin 32) :
    Gen.k0_pay2 v3 v6 v10 (ix2 c h) = v10 (ix2 c h) + ∑ p : Fin 1024, v6 (ix3 0 p c) * v3 (ix3 0 p h) := by
  unfold Gen.k0_pay2
  rw [shapeCast_self, addf_apply]
  refine congrArg (v10 (ix2 c h) + ·) ?_
  refine (mmT_apply _ _ c h).trans ?_
  refine Finset.sum_congr rfl fun p _ => ?_
  rw [truncf_apply, truncf_apply, shapeCast_1ab_ab_apply, shapeCast_1ab_ab_apply]

/-! ## A gate pre-activation: rows times transposed weights into zero, plus the bias row -/

/-- On 2048 rows: at (r, j) the value is  Σ_k l[r,k] · w[j,k] + b[j]. -/
theorem gate2048 (l : FVec Ideal S2048x32 .f32) (wT : FVec Ideal S32x96 .f32) (bT : FVec Ideal S1x96 .f32)
    (w : Fin 96 → Fin 32 → EReal) (b : Fin 96 → EReal)
    (hw : ∀ (j : Fin 96) (k : Fin 32), wT (ix2 k j) = w j k) (hb : ∀ j : Fin 96, bT (ix2 0 j) = b j)
    (h1 : (FTy.bf16).bits < (FTy.f32).bits) (h2 : S32x96.ShapeCasts S32x96) (h3 : S1x96.ShapeCasts S1x96)
    (h4 : S1x96.Broadcasts S2048x96) (r : Fin 2048) (j : Fin 96) :
    addf (matmul dot_S2048x32_S32x96_S2048x96_1_0_0_1_n_n none (truncf .bf16 l h1) (truncf .bf16 (shapeCast S32x96 wT h2) h1)
            (constant (F := Ideal) S2048x96 .f32 0x00000000#32))
        (broadcastTo S2048x96 (shapeCast S1x96 bT h3) h4) (ix2 r j)
      = Cert.GruSpec.gate (fun k => l (ix2 r k)) w b j := by
  rw [addf_apply, mmG2048_apply, broadcastTo_1b_ab_apply, shapeCast_self, shapeCast_self, hb]
  unfold Cert.GruSpec.gate
  refine congrArg (· + b j) (Finset.sum_congr rfl fun k _ => ?_)
  rw [truncf_apply, truncf_apply, hw]

/-- On 512 rows: at (r, j) the value is  Σ_k l[r,k] · w[j,k] + b[j]. -/
theorem gate512 (l : FVec Ideal S512x32 .f32) (wT : FVec Ideal S32x96 .f32) (bT : FVec Ideal S1x96 .f32)
    (w : Fin 96 → Fin 32 → EReal) (b : Fin 96 → EReal)
    (hw : ∀ (j : Fin 96) (k : Fin 32), wT (ix2 k j) = w j k) (hb : ∀ j : Fin 96, bT (ix2 0 j) = b j)
    (h1 : (FTy.bf16).bits < (FTy.f32).bits) (h2 : S32x96.ShapeCasts S32x96) (h3 : S1x96.ShapeCasts S1x96)
    (h4 : S1x96.Broadcasts S512x96) (r : Fin 512) (j : Fin 96) :
    addf (matmul dot_S512x32_S32x96_S512x96_1_0_0_1_n_n none (truncf .bf16 l h1) (truncf .bf16 (shapeCast S32x96 wT h2) h1)
            (constant (F := Ideal) S512x96 .f32 0x00000000#32))
        (broadcastTo S512x96 (shapeCast S1x96 bT h3) h4) (ix2 r j)
      = Cert.GruSpec.gate (fun k => l (ix2 r k)) w b j := by
  rw [addf_apply, mmG512_apply, broadcastTo_1b_ab_apply, shapeCast_self, shapeCast_self, hb]
  unfold Cert.GruSpec.gate
  refine congrArg (· + b j) (Finset.sum_congr rfl fun k _ => ?_)
  rw [truncf_apply, truncf_apply, hw]

/-! ## The gated cell from its two gate vectors -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- Rows of 96 gate values gi, gh and the hidden state s: the three column groups (columns o, 32 + o, 64 + o), the
    two logistic gates, the candidate and the blend, read at row c and feature o, are the cell of the specification. -/
theorem cell_core {R : Nat} (gi gh : FVec Ideal ⟨2, ![R, 96]⟩ .f32) (s : FVec Ideal ⟨2, ![R, 32]⟩ .f32)
    (h0 : (⟨2, ![R, 96]⟩ : Shape).Slices ![0, 0] ⟨2, ![R, 32]⟩)
    (h32 : (⟨2, ![R, 96]⟩ : Shape).Slices ![0, 32] ⟨2, ![R, 32]⟩)
    (h64 : (⟨2, ![R, 96]⟩ : Shape).Slices ![0, 64] ⟨2, ![R, 32]⟩)
    (c : Fin R) (o : Fin 32) (x h : Fin 32 → EReal) (wi wh : Fin 96 → Fin 32 → EReal) (bi bh : Fin 96 → EReal)
    (hgi : ∀ j : Fin 96, gi (ix2 c j) = Cert.GruSpec.gate x wi bi j)
    (hgh : ∀ j : Fin 96, gh (ix2 c j) = Cert.GruSpec.gate h wh bh j)
    (hs : s (ix2 c o) = h o) :
    addf (mulf (subf (broadcast ⟨2, ![R, 32]⟩ (Scalar.ofBits (F := Ideal) .f32 0x3F800000#32))
                  (logistic (addf (extractStridedSlice ⟨2, ![R, 32]⟩ ![0, 32] gi h32)
                                  (extractStridedSlice ⟨2, ![R, 32]⟩ ![0, 32] gh h32))))
               (tanh (addf (extractStridedSlice ⟨2, ![R, 32]⟩ ![0, 64] gi h64)
                  (mulf (logistic (addf (extractStridedSlice ⟨2, ![R, 32]⟩ ![0, 0] gi h0)
                                        (extractStridedSlice ⟨2, ![R, 32]⟩ ![0, 0] gh h0)))
                        (extractStridedSlice ⟨2, ![R, 32]⟩ ![0, 64] gh h64)))))
         (mulf (logistic (addf (extractStridedSlice ⟨2, ![R, 32]⟩ ![0, 32] gi h32)
                               (extractStridedSlice ⟨2, ![R, 32]⟩ ![0, 32] gh h32))) s) (ix2 c o)
      = Cert.GruSpec.cell x h wi wh bi bh o := by
  have elo : (Cert.GruSpec.lo o).val = 0 + o.val := (Nat.zero_add _).symm
  have emid : (Cert.GruSpec.mid o).val = 32 + o.val := Nat.add_comm _ _
  have ehi : (Cert.GruSpec.hi o).val = 64 + o.val := Nat.add_comm _ _
  simp only [addf_apply, mulf_apply, subf_apply, broadcast_apply, logistic_apply, tanh_apply]
  rw [slice2_axis1_apply 0 gi h0 c o _ elo, slice2_axis1_apply 0 gh h0 c o _ elo,
    slice2_axis1_apply 32 gi h32 c o _ emid, slice2_axis1_apply 32 gh h32 c o _ emid,
    slice2_axis1_apply 64 gi h64 c o _ ehi, slice2_axis1_apply 64 gh h64 c o _ ehi,
    hgi, hgi, hgi, hgh, hgh, hgh, hs]
  rfl

/-! ## The channel cell -/

/-- The channel body's stored value at (0, c, o): the cell with input the channel row and hidden state the
    accumulated message row. -/
theorem chan_cell (s : FVec Ideal S2048x32 .f32) (x : FVec Ideal S1x2048x32 .f32) (wiT whT : FVec Ideal S32x96 .f32)
    (biT bhT : FVec Ideal S1x96 .f32) (wi wh : Fin 96 → Fin 32 → EReal) (bi bh : Fin 96 → EReal)
    (hwi : ∀ (j : Fin 96) (k : Fin 32), wiT (ix2 k j) = wi j k) (hwh : ∀ (j : Fin 96) (k : Fin 32), whT (ix2 k j) = wh j k)
    (hbi : ∀ j : Fin 96, biT (ix2 0 j) = bi j) (hbh : ∀ j : Fin 96, bhT (ix2 0 j) = bh j) (c : Fin 2048) (o : Fin 32) :
    Gen.k0_pay3 (F := Ideal) (Gen.k0_pay4 (F := Ideal) s x wiT biT whT bhT) (ix3 0 c o)
      = Cert.GruSpec.cell (fun k => x (ix3 0 c k)) (fun k => s (ix2 c k)) wi wh bi bh o := by
  unfold Gen.k0_pay3 Gen.k0_pay4
  refine (shapeCast_ab_1ab_apply _ _ 0 c o).trans ?_
  refine cell_core _ _ s _ _ _ c o _ _ wi wh bi bh (fun j => ?_) (fun j => ?_) rfl
  · exact (gate2048 _ wiT biT wi bi hwi hbi _ _ _ _ c j).trans
      (congrArg (fun f => Cert.GruSpec.gate f wi bi j) (funext fun k => shapeCast_1ab_ab_apply x _ c k))
  · exact gate2048 s whT bhT wh bh hwh hbh _ _ _ _ c j

/-! ## The path message and the path cell -/

/-- The message a path row receives: at (p, k) the sum over the 2048 channel rows of adj[p,c] · chan[c,k]. -/
theorem pathMsg_apply (a : FVec Ideal S1x512x2048 .f32) (y : FVec Ideal S1x2048x32 .f32) (p : Fin 512) (k : Fin 32) :
    Gen.k1_pay2 a y (ix2 p k) = ∑ c : Fin 2048, a (ix3 0 p c) * y (ix3 0 c k) := by
  unfold Gen.k1_pay2
  refine (mmA512_apply _ _ p k).trans ?_
  refine Finset.sum_congr rfl fun c _ => ?_
  rw [truncf_apply, truncf_apply, shapeCast_1ab_ab_apply, shapeCast_1ab_ab_apply]

/-- The path body's stored value at (0, p, o): the cell with input the path row and hidden state its message. -/
theorem path_cell (a : FVec Ideal S1x512x2048 .f32) (y : FVec Ideal S1x2048x32 .f32) (x : FVec Ideal S1x512x32 .f32)
    (wiT whT : FVec Ideal S32x96 .f32) (biT bhT : FVec Ideal S1x96 .f32)
    (wi wh : Fin 96 → Fin 32 → EReal) (bi bh : Fin 96 → EReal)
    (hwi : ∀ (j : Fin 96) (k : Fin 32), wiT (ix2 k j) = wi j k) (hwh : ∀ (j : Fin 96) (k : Fin 32), whT (ix2 k j) = wh j k)
    (hbi : ∀ j : Fin 96, biT (ix2 0 j) = bi j) (hbh : ∀ j : Fin 96, bhT (ix2 0 j) = bh j) (p : Fin 512) (o : Fin 32) :
    Gen.k1_pay1 (F := Ideal) (Gen.k1_pay2 a y) (Gen.k1_pay5 x wiT biT) (Gen.k1_pay6 a y x wiT biT whT bhT)
        (Gen.k1_pay7 a y x wiT biT whT bhT) (ix3 0 p o)
      = Cert.GruSpec.cell (fun k => x (ix3 0 p k)) (fun k => ∑ c : Fin 2048, a (ix3 0 p c) * y (ix3 0 c k))
          wi wh bi bh o := by
  unfold Gen.k1_pay1 Gen.k1_pay5 Gen.k1_pay6 Gen.k1_pay7 Gen.k1_pay3 Gen.k1_pay4
  refine (shapeCast_ab_1ab_apply _ _ 0 p o).trans ?_
  refine cell_core _ _ (Gen.k1_pay2 a y) _ _ _ p o _ _ wi wh bi bh (fun j => ?_) (fun j => ?_) (pathMsg_apply a y p o)
  · exact (gate512 _ wiT biT wi bi hwi hbi _ _ _ _ p j).trans
      (congrArg (fun f => Cert.GruSpec.gate f wi bi j) (funext fun k => shapeCast_1ab_ab_apply x _ p k))
  · exact (gate512 (Gen.k1_pay2 a y) whT bhT wh bh hwh hbh _ _ _ _ p j).trans
      (congrArg (fun f => Cert.GruSpec.gate f wh bh j) (funext fun k => pathMsg_apply a y p k))

end Cert.KernelIdeal.PaySide

end
-- ==== Proof.Layout.lean ====
/-
  Layout facts of the kernel's program: what the host operations before the two regions leave in their
  result buffers, index by index, and what a window's block reads of its array at a grid point.
  No arithmetic: every statement holds at any float instance.
-/
import proofs.«126749_j44126493999752_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Layout

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ) (c : Dev nD)

/-! ## The host operations before the two regions, read at an index

Four transposes `[96, 32] → [32, 96]` and four reshapes `[96] → [1, 96]`. -/

/-- `main_v0` holds `main_arg3` transposed. -/
theorem V1_main_v0_eq :
    Gen.V1 m c main_v0 = transpose S32x96 [1, 0] (m ((c : Thread nD τ).loc main_arg3)) transposes_S96x32_S32x96_1_0 := by
  dsimp only [Gen.V1, Gen.V0, Gen.hostOps0]
  after_results <;> rfl

theorem V1_main_v0 (k : Fin 32) (j : Fin 96) :
    Gen.V1 m c main_v0 (ix2 k j) = m ((c : Thread nD τ).loc main_arg3) (ix2 j k) := by
  rw [V1_main_v0_eq]
  exact transpose_ix2_apply _ _ k j

/-- `main_v1` holds `main_arg4` transposed. -/
theorem V1_main_v1_eq :
    Gen.V1 m c main_v1 = transpose S32x96 [1, 0] (m ((c : Thread nD τ).loc main_arg4)) transposes_S96x32_S32x96_1_0 := by
  dsimp only [Gen.V1, Gen.V0, Gen.hostOps0]
  after_results <;> rfl

theorem V1_main_v1 (k : Fin 32) (j : Fin 96) :
    Gen.V1 m c main_v1 (ix2 k j) = m ((c : Thread nD τ).loc main_arg4) (ix2 j k) := by
  rw [V1_main_v1_eq]
  exact transpose_ix2_apply _ _ k j

/-- `main_v4` holds `main_arg7` transposed. -/
theorem V1_main_v4_eq :
    Gen.V1 m c main_v4 = transpose S32x96 [1, 0] (m ((c : Thread nD τ).loc main_arg7)) transposes_S96x32_S32x96_1_0 := by
  dsimp only [Gen.V1, Gen.V0, Gen.hostOps0]
  after_results <;> rfl

theorem V1_main_v4 (k : Fin 32) (j : Fin 96) :
    Gen.V1 m c main_v4 (ix2 k j) = m ((c : Thread nD τ).loc main_arg7) (ix2 j k) := by
  rw [V1_main_v4_eq]
  exact transpose_ix2_apply _ _ k j

/-- `main_v5` holds `main_arg8` transposed. -/
theorem V1_main_v5_eq :
    Gen.V1 m c main_v5 = transpose S32x96 [1, 0] (m ((c : Thread nD τ).loc main_arg8)) transposes_S96x32_S32x96_1_0 := by
  dsimp only [Gen.V1, Gen.V0, Gen.hostOps0]
  after_results <;> rfl

theorem V1_main_v5 (k : Fin 32) (j : Fin 96) :
    Gen.V1 m c main_v5 (ix2 k j) = m ((c : Thread nD τ).loc main_arg8) (ix2 j k) := by
  rw [V1_main_v5_eq]
  exact transpose_ix2_apply _ _ k j

/-- `main_v2` holds `main_arg5` with a leading unit axis. -/
theorem V1_main_v2_eq :
    Gen.V1 m c main_v2 = shapeCast S1x96 (m ((c : Thread nD τ).loc main_arg5)) shapeCasts_S96_S1x96 := by
  dsimp only [Gen.V1, Gen.V0, Gen.hostOps0]
  after_results <;> rfl

theorem V1_main_v2 (j : Fin 96) :
    Gen.V1 m c main_v2 (ix2 (0 : Fin 1) j) = m ((c : Thread nD τ).loc main_arg5) (ix1 j) := by
  rw [V1_main_v2_eq]
  exact shapeCast_a_1a_apply _ _ 0 j

/-- `main_v3` holds `main_arg6` with a leading unit axis. -/
theorem V1_main_v3_eq :
    Gen.V1 m c main_v3 = shapeCast S1x96 (m ((c : Thread nD τ).loc main_arg6)) shapeCasts_S96_S1x96 := by
  dsimp only [Gen.V1, Gen.V0, Gen.hostOps0]
  after_results <;> rfl

theorem V1_main_v3 (j : Fin 96) :
    Gen.V1 m c main_v3 (ix2 (0 : Fin 1) j) = m ((c : Thread nD τ).loc main_arg6) (ix1 j) := by
  rw [V1_main_v3_eq]
  exact shapeCast_a_1a_apply _ _ 0 j

/-- `main_v6` holds `main_arg9` with a leading unit axis. -/
theorem V1_main_v6_eq :
    Gen.V1 m c main_v6 = shapeCast S1x96 (m ((c : Thread nD τ).loc main_arg9)) shapeCasts_S96_S1x96 := by
  dsimp only [Gen.V1, Gen.V0, Gen.hostOps0]
  after_results <;> rfl

theorem V1_main_v6 (j : Fin 96) :
    Gen.V1 m c main_v6 (ix2 (0 : Fin 1) j) = m ((c : Thread nD τ).loc main_arg9) (ix1 j) := by
  rw [V1_main_v6_eq]
  exact shapeCast_a_1a_apply _ _ 0 j

/-- `main_v7` holds `main_arg10` with a leading unit axis. -/
theorem V1_main_v7_eq :
    Gen.V1 m c main_v7 = shapeCast S1x96 (m ((c : Thread nD τ).loc main_arg10)) shapeCasts_S96_S1x96 := by
  dsimp only [Gen.V1, Gen.V0, Gen.hostOps0]
  after_results <;> rfl

theorem V1_main_v7 (j : Fin 96) :
    Gen.V1 m c main_v7 (ix2 (0 : Fin 1) j) = m ((c : Thread nD τ).loc main_arg10) (ix1 j) := by
  rw [V1_main_v7_eq]
  exact shapeCast_a_1a_apply _ _ 0 j

/-! # What a window's block reads of its array

A block's array coordinate is, on every axis, the block index times the block size plus the coordinate
inside the block. -/

/-! ## The second region: grid 16 × 4, point `t` is batch entry `t / 4`, row block `t % 4` -/

/-- The batch entry of grid point `t`. -/
def bat1 (t : Fin cfg1.N) : Fin 16 := ⟨(grid1.coords t 0).val, (grid1.coords t 0).isLt⟩
/-- The row block of grid point `t`. -/
def quar1 (t : Fin cfg1.N) : Fin 4 := ⟨(grid1.coords t 1).val, (grid1.coords t 1).isLt⟩
/-- Row `p` of point `t`'s block of 512 rows, as a row of the array. -/
def row1 (t : Fin cfg1.N) (p : Fin 512) : Fin 2048 :=
  ⟨512 * (quar1 t).val + p.val, by have := (quar1 t).isLt; have := p.isLt; omega⟩

theorem coords1_val : ∀ t : Fin cfg1.N, (grid1.coords t 0).val = t.val / 4 ∧ (grid1.coords t 1).val = t.val % 4 :=
  (by decide +kernel : ∀ t : Fin grid1.N, _)
theorem bat1_val (t : Fin cfg1.N) : (bat1 t).val = t.val / 4 := (coords1_val t).1
theorem quar1_val (t : Fin cfg1.N) : (quar1 t).val = t.val % 4 := (coords1_val t).2
theorem row1_val (t : Fin cfg1.N) (p : Fin 512) : (row1 t p).val = 512 * (t.val % 4) + p.val := by
  show 512 * (grid1.coords t 1).val + p.val = _
  rw [(coords1_val t).2]

/-- Window 0's block index at every point. -/
theorem idx1_0 : ∀ t : Fin cfg1.N, win1_0.index t (0 : Fin 3) = (grid1.coords t 0).val
    ∧ win1_0.index t (1 : Fin 3) = (grid1.coords t 1).val ∧ win1_0.index t (2 : Fin 3) = 0 :=
  (by decide +kernel : ∀ t : Fin grid1.N, _)

/-- Where an element of window 0's block at point `t` sits in its array. -/
theorem emb1_0 (t : Fin cfg1.N) (u : Fin 1) (p : Fin 512) (k : Fin 2048) :
    ((cfg1.win 0).blk t).view.emb (ix3 u p k) = ix3 (bat1 t) (row1 t p) k := by
  obtain ⟨e0, e1, e2⟩ := idx1_0 t
  have hu : u.val = 0 := by have := u.isLt; omega
  refine funext fun a => Fin.ext ?_
  match a with
  | ⟨0, _⟩ => show win1_0.index t (0 : Fin 3) * 1 + 1 * u.val = (grid1.coords t 0).val; omega
  | ⟨1, _⟩ => show win1_0.index t (1 : Fin 3) * 512 + 1 * p.val = 512 * (grid1.coords t 1).val + p.val; omega
  | ⟨2, _⟩ => show win1_0.index t (2 : Fin 3) * 2048 + 1 * k.val = k.val; omega

theorem read1_0 (A : S16x2048x2048.Idx → Elt F .f32) (t : Fin cfg1.N) (u : Fin 1) (p : Fin 512) (k : Fin 2048) :
    ((cfg1.win 0).blk t).view.read (Elt F) A (ix3 u p k) = A (ix3 (bat1 t) (row1 t p) k) := by
  show A (((cfg1.win 0).blk t).view.emb (ix3 u p k)) = _
  exact congrArg A (emb1_0 t u p k)

/-- Window 1's block index at every point. -/
theorem idx1_1 : ∀ t : Fin cfg1.N, win1_1.index t (0 : Fin 3) = (grid1.coords t 0).val
    ∧ win1_1.index t (1 : Fin 3) = 0 ∧ win1_1.index t (2 : Fin 3) = 0 :=
  (by decide +kernel : ∀ t : Fin grid1.N, _)

/-- Where an element of window 1's block at point `t` sits in its array. -/
theorem emb1_1 (t : Fin cfg1.N) (u : Fin 1) (p : Fin 2048) (k : Fin 32) :
    ((cfg1.win 1).blk t).view.emb (ix3 u p k) = ix3 (bat1 t) p k := by
  obtain ⟨e0, e1, e2⟩ := idx1_1 t
  have hu : u.val = 0 := by have := u.isLt; omega
  refine funext fun a => Fin.ext ?_
  match a with
  | ⟨0, _⟩ => show win1_1.index t (0 : Fin 3) * 1 + 1 * u.val = (grid1.coords t 0).val; omega
  | ⟨1, _⟩ => show win1_1.index t (1 : Fin 3) * 2048 + 1 * p.val = p.val; omega
  | ⟨2, _⟩ => show win1_1.index t (2 : Fin 3) * 32 + 1 * k.val = k.val; omega

theorem read1_1 (A : S16x2048x32.Idx → Elt F .f32) (t : Fin cfg1.N) (u : Fin 1) (p : Fin 2048) (k : Fin 32) :
    ((cfg1.win 1).blk t).view.read (Elt F) A (ix3 u p k) = A (ix3 (bat1 t) p k) := by
  show A (((cfg1.win 1).blk t).view.emb (ix3 u p k)) = _
  exact congrArg A (emb1_1 t u p k)

/-- Window 2's block index at every point. -/
theorem idx1_2 : ∀ t : Fin cfg1.N, win1_2.index t (0 : Fin 3) = (grid1.coords t 0).val
    ∧ win1_2.index t (1 : Fin 3) = (grid1.coords t 1).val ∧ win1_2.index t (2 : Fin 3) = 0 :=
  (by decide +kernel : ∀ t : Fin grid1.N, _)

/-- Where an element of window 2's block at point `t` sits in its array. -/
theorem emb1_2 (t : Fin cfg1.N) (u : Fin 1) (p : Fin 512) (k : Fin 32) :
    ((cfg1.win 2).blk t).view.emb (ix3 u p k) = ix3 (bat1 t) (row1 t p) k := by
  obtain ⟨e0, e1, e2⟩ := idx1_2 t
  have hu : u.val = 0 := by have := u.isLt; omega
  refine funext fun a => Fin.ext ?_
  match a with
  | ⟨0, _⟩ => show win1_2.index t (0 : Fin 3) * 1 + 1 * u.val = (grid1.coords t 0).val; omega
  | ⟨1, _⟩ => show win1_2.index t (1 : Fin 3) * 512 + 1 * p.val = 512 * (grid1.coords t 1).val + p.val; omega
  | ⟨2, _⟩ => show win1_2.index t (2 : Fin 3) * 32 + 1 * k.val = k.val; omega

theorem read1_2 (A : S16x2048x32.Idx → Elt F .f32) (t : Fin cfg1.N) (u : Fin 1) (p : Fin 512) (k : Fin 32) :
    ((cfg1.win 2).blk t).view.read (Elt F) A (ix3 u p k) = A (ix3 (bat1 t) (row1 t p) k) := by
  show A (((cfg1.win 2).blk t).view.emb (ix3 u p k)) = _
  exact congrArg A (emb1_2 t u p k)

/-- Window 3's block is its whole array at every point. -/
theorem idx1_3 : ∀ t : Fin cfg1.N, win1_3.index t (0 : Fin 2) = 0 ∧ win1_3.index t (1 : Fin 2) = 0 :=
  (by decide +kernel : ∀ t : Fin grid1.N, _)

theorem emb1_3 (t : Fin cfg1.N) (k : Fin 32) (j : Fin 96) :
    ((cfg1.win 3).blk t).view.emb (ix2 k j) = ix2 k j := by
  obtain ⟨e0, e1⟩ := idx1_3 t
  refine funext fun a => Fin.ext ?_
  match a with
  | ⟨0, _⟩ => show win1_3.index t (0 : Fin 2) * 32 + 1 * k.val = k.val; omega
  | ⟨1, _⟩ => show win1_3.index t (1 : Fin 2) * 96 + 1 * j.val = j.val; omega

theorem read1_3 (A : S32x96.Idx → Elt F .f32) (t : Fin cfg1.N) (k : Fin 32) (j : Fin 96) :
    ((cfg1.win 3).blk t).view.read (Elt F) A (ix2 k j) = A (ix2 k j) := by
  show A (((cfg1.win 3).blk t).view.emb (ix2 k j)) = _
  exact congrArg A (emb1_3 t k j)

/-- Window 4's block is its whole array at every point. -/
theorem idx1_4 : ∀ t : Fin cfg1.N, win1_4.index t (0 : Fin 2) = 0 ∧ win1_4.index t (1 : Fin 2) = 0 :=
  (by decide +kernel : ∀ t : Fin grid1.N, _)

theorem emb1_4 (t : Fin cfg1.N) (k : Fin 32) (j : Fin 96) :
    ((cfg1.win 4).blk t).view.emb (ix2 k j) = ix2 k j := by
  obtain ⟨e0, e1⟩ := idx1_4 t
  refine funext fun a => Fin.ext ?_
  match a with
  | ⟨0, _⟩ => show win1_4.index t (0 : Fin 2) * 32 + 1 * k.val = k.val; omega
  | ⟨1, _⟩ => show win1_4.index t (1 : Fin 2) * 96 + 1 * j.val = j.val; omega

theorem read1_4 (A : S32x96.Idx → Elt F .f32) (t : Fin cfg1.N) (k : Fin 32) (j : Fin 96) :
    ((cfg1.win 4).blk t).view.read (Elt F) A (ix2 k j) = A (ix2 k j) := by
  show A (((cfg1.win 4).blk t).view.emb (ix2 k j)) = _
  exact congrArg A (emb1_4 t k j)

/-- Window 5's block is its whole array at every point. -/
theorem idx1_5 : ∀ t : Fin cfg1.N, win1_5.index t (0 : Fin 2) = 0 ∧ win1_5.index t (1 : Fin 2) = 0 :=
  (by decide +kernel : ∀ t : Fin grid1.N, _)

theorem emb1_5 (t : Fin cfg1.N) (k : Fin 1) (j : Fin 96) :
    ((cfg1.win 5).blk t).view.emb (ix2 k j) = ix2 k j := by
  obtain ⟨e0, e1⟩ := idx1_5 t
  refine funext fun a => Fin.ext ?_
  match a with
  | ⟨0, _⟩ => show win1_5.index t (0 : Fin 2) * 1 + 1 * k.val = k.val; omega
  | ⟨1, _⟩ => show win1_5.index t (1 : Fin 2) * 96 + 1 * j.val = j.val; omega

theorem read1_5 (A : S1x96.Idx → Elt F .f32) (t : Fin cfg1.N) (k : Fin 1) (j : Fin 96) :
    ((cfg1.win 5).blk t).view.read (Elt F) A (ix2 k j) = A (ix2 k j) := by
  show A (((cfg1.win 5).blk t).view.emb (ix2 k j)) = _
  exact congrArg A (emb1_5 t k j)

/-- Window 6's block is its whole array at every point. -/
theorem idx1_6 : ∀ t : Fin cfg1.N, win1_6.index t (0 : Fin 2) = 0 ∧ win1_6.index t (1 : Fin 2) = 0 :=
  (by decide +kernel : ∀ t : Fin grid1.N, _)

theorem emb1_6 (t : Fin cfg1.N) (k : Fin 1) (j : Fin 96) :
    ((cfg1.win 6).blk t).view.emb (ix2 k j) = ix2 k j := by
  obtain ⟨e0, e1⟩ := idx1_6 t
  refine funext fun a => Fin.ext ?_
  match a with
  | ⟨0, _⟩ => show win1_6.index t (0 : Fin 2) * 1 + 1 * k.val = k.val; omega
  | ⟨1, _⟩ => show win1_6.index t (1 : Fin 2) * 96 + 1 * j.val = j.val; omega

theorem read1_6 (A : S1x96.Idx → Elt F .f32) (t : Fin cfg1.N) (k : Fin 1) (j : Fin 96) :
    ((cfg1.win 6).blk t).view.read (Elt F) A (ix2 k j) = A (ix2 k j) := by
  show A (((cfg1.win 6).blk t).view.emb (ix2 k j)) = _
  exact congrArg A (emb1_6 t k j)

/-- Window 7's block index at every point. -/
theorem idx1_7 : ∀ t : Fin cfg1.N, win1_7.index t (0 : Fin 3) = (grid1.coords t 0).val
    ∧ win1_7.index t (1 : Fin 3) = (grid1.coords t 1).val ∧ win1_7.index t (2 : Fin 3) = 0 :=
  (by decide +kernel : ∀ t : Fin grid1.N, _)

/-- Where an element of window 7's block at point `t` sits in its array. -/
theorem emb1_7 (t : Fin cfg1.N) (u : Fin 1) (p : Fin 512) (k : Fin 32) :
    ((cfg1.win 7).blk t).view.emb (ix3 u p k) = ix3 (bat1 t) (row1 t p) k := by
  obtain ⟨e0, e1, e2⟩ := idx1_7 t
  have hu : u.val = 0 := by have := u.isLt; omega
  refine funext fun a => Fin.ext ?_
  match a with
  | ⟨0, _⟩ => show win1_7.index t (0 : Fin 3) * 1 + 1 * u.val = (grid1.coords t 0).val; omega
  | ⟨1, _⟩ => show win1_7.index t (1 : Fin 3) * 512 + 1 * p.val = 512 * (grid1.coords t 1).val + p.val; omega
  | ⟨2, _⟩ => show win1_7.index t (2 : Fin 3) * 32 + 1 * k.val = k.val; omega

theorem read1_7 (A : S16x2048x32.Idx → Elt F .f32) (t : Fin cfg1.N) (u : Fin 1) (p : Fin 512) (k : Fin 32) :
    ((cfg1.win 7).blk t).view.read (Elt F) A (ix3 u p k) = A (ix3 (bat1 t) (row1 t p) k) := by
  show A (((cfg1.win 7).blk t).view.emb (ix3 u p k)) = _
  exact congrArg A (emb1_7 t u p k)

/-- The indices of the result array inside point `t`'s block: batch entry `t / 4`, rows `512·(t % 4)` up to `512·(t % 4) + 512`. -/
theorem mem1_7 (t : Fin cfg1.N) (i : S16x2048x32.Idx) :
    i ∈ ((cfg1.win 7).blk t).view.set ↔ (i 0).val = (bat1 t).val ∧ 512 * (quar1 t).val ≤ (i 1).val ∧ (i 1).val < 512 * (quar1 t).val + 512 := by
  have h : i ∈ ((cfg1.win 7).blk t).view.set ↔ ∀ a : Fin 3, win1_7.index t a * S1x512x32.size a ≤ (i a).val
      ∧ (i a).val < win1_7.index t a * S1x512x32.size a + S1x512x32.size a := by
    show i ∈ ((View.whole main_v9).slice (win1_7.rect t)).set ↔ _
    rw [View.set_slice_whole, Rect.mem_set_unit]
    exact Iff.rfl
  rw [h]
  obtain ⟨e0, e1, e2⟩ := idx1_7 t
  have h1 : (i 1).val < 2048 := (i 1).isLt
  have h2 : (i 2).val < 32 := (i 2).isLt
  constructor
  · intro hh
    have b0 : win1_7.index t (0 : Fin 3) * 1 ≤ (i 0).val ∧ (i 0).val < win1_7.index t (0 : Fin 3) * 1 + 1 := hh 0
    have b1 : win1_7.index t (1 : Fin 3) * 512 ≤ (i 1).val ∧ (i 1).val < win1_7.index t (1 : Fin 3) * 512 + 512 := hh 1
    show (i 0).val = (grid1.coords t 0).val ∧ 512 * (grid1.coords t 1).val ≤ (i 1).val ∧ (i 1).val < 512 * (grid1.coords t 1).val + 512
    omega
  · intro hh a
    have hh' : (i 0).val = (grid1.coords t 0).val ∧ 512 * (grid1.coords t 1).val ≤ (i 1).val ∧ (i 1).val < 512 * (grid1.coords t 1).val + 512 := hh
    match a with
    | ⟨0, _⟩ => show win1_7.index t (0 : Fin 3) * 1 ≤ (i 0).val ∧ (i 0).val < win1_7.index t (0 : Fin 3) * 1 + 1; omega
    | ⟨1, _⟩ => show win1_7.index t (1 : Fin 3) * 512 ≤ (i 1).val ∧ (i 1).val < win1_7.index t (1 : Fin 3) * 512 + 512; omega
    | ⟨2, _⟩ => show win1_7.index t (2 : Fin 3) * 32 ≤ (i 2).val ∧ (i 2).val < win1_7.index t (2 : Fin 3) * 32 + 32; omega

/-- The point whose block of the result holds row `p` of batch entry `b`. -/
def pt1 (b : Fin 16) (p : Fin 2048) : Fin cfg1.N :=
  ⟨4 * b.val + p.val / 512, by have := b.isLt; have := p.isLt; rw [show cfg1.N = 64 from Gen.N_1]; omega⟩
/-- Row `p` inside its block. -/
def inRow1 (p : Fin 2048) : Fin 512 := ⟨p.val % 512, Nat.mod_lt _ (by decide)⟩

theorem bat1_pt1 (b : Fin 16) (p : Fin 2048) : bat1 (pt1 b p) = b := by
  refine Fin.ext ?_
  rw [bat1_val]
  have := b.isLt; have := p.isLt
  show (4 * b.val + p.val / 512) / 4 = b.val
  omega
theorem row1_pt1 (b : Fin 16) (p : Fin 2048) : row1 (pt1 b p) (inRow1 p) = p := by
  refine Fin.ext ?_
  rw [row1_val]
  have := b.isLt; have := p.isLt
  show 512 * ((4 * b.val + p.val / 512) % 4) + p.val % 512 = p.val
  omega
/-- Every index of the result array is the element `(0, p % 512, k)` of the block of point `4·b + p / 512`. -/
theorem emb1_7_pt1 (b : Fin 16) (p : Fin 2048) (k : Fin 32) :
    ((cfg1.win 7).blk (pt1 b p)).view.emb (ix3 (0 : Fin 1) (inRow1 p) k) = ix3 b p k := by
  rw [emb1_7, bat1_pt1, row1_pt1]

/-! ## The first region: grid 16 × 2, point `t` is batch entry `t / 2`, row block `t % 2` -/

/-- The batch entry of grid point `t`. -/
def bat0 (t : Fin cfg0.N) : Fin 16 := ⟨(grid0.coords t 0).val, (grid0.coords t 0).isLt⟩
/-- The row block of grid point `t`. -/
def half0 (t : Fin cfg0.N) : Fin 2 := ⟨(grid0.coords t 1).val, (grid0.coords t 1).isLt⟩
/-- Row `p` of point `t`'s block of 1024 rows, as a row of the array. -/
def row0 (t : Fin cfg0.N) (p : Fin 1024) : Fin 2048 :=
  ⟨1024 * (half0 t).val + p.val, by have := (half0 t).isLt; have := p.isLt; omega⟩

theorem coords0_val : ∀ t : Fin cfg0.N, (grid0.coords t 0).val = t.val / 2 ∧ (grid0.coords t 1).val = t.val % 2 :=
  (by decide +kernel : ∀ t : Fin grid0.N, _)
theorem bat0_val (t : Fin cfg0.N) : (bat0 t).val = t.val / 2 := (coords0_val t).1
theorem half0_val (t : Fin cfg0.N) : (half0 t).val = t.val % 2 := (coords0_val t).2
theorem row0_val (t : Fin cfg0.N) (p : Fin 1024) : (row0 t p).val = 1024 * (t.val % 2) + p.val := by
  show 1024 * (grid0.coords t 1).val + p.val = _
  rw [(coords0_val t).2]

/-- Window 0's block index at every point. -/
theorem idx0_0 : ∀ t : Fin cfg0.N, win0_0.index t (0 : Fin 3) = (grid0.coords t 0).val
    ∧ win0_0.index t (1 : Fin 3) = (grid0.coords t 1).val ∧ win0_0.index t (2 : Fin 3) = 0 :=
  (by decide +kernel : ∀ t : Fin grid0.N, _)

/-- Where an element of window 0's block at point `t` sits in its array. -/
theorem emb0_0 (t : Fin cfg0.N) (u : Fin 1) (p : Fin 1024) (k : Fin 2048) :
    ((cfg0.win 0).blk t).view.emb (ix3 u p k) = ix3 (bat0 t) (row0 t p) k := by
  obtain ⟨e0, e1, e2⟩ := idx0_0 t
  have hu : u.val = 0 := by have := u.isLt; omega
  refine funext fun a => Fin.ext ?_
  match a with
  | ⟨0, _⟩ => show win0_0.index t (0 : Fin 3) * 1 + 1 * u.val = (grid0.coords t 0).val; omega
  | ⟨1, _⟩ => show win0_0.index t (1 : Fin 3) * 1024 + 1 * p.val = 1024 * (grid0.coords t 1).val + p.val; omega
  | ⟨2, _⟩ => show win0_0.index t (2 : Fin 3) * 2048 + 1 * k.val = k.val; omega

theorem read0_0 (A : S16x2048x2048.Idx → Elt F .f32) (t : Fin cfg0.N) (u : Fin 1) (p : Fin 1024) (k : Fin 2048) :
    ((cfg0.win 0).blk t).view.read (Elt F) A (ix3 u p k) = A (ix3 (bat0 t) (row0 t p) k) := by
  show A (((cfg0.win 0).blk t).view.emb (ix3 u p k)) = _
  exact congrArg A (emb0_0 t u p k)

/-- Window 1's block index at every point. -/
theorem idx0_1 : ∀ t : Fin cfg0.N, win0_1.index t (0 : Fin 3) = (grid0.coords t 0).val
    ∧ win0_1.index t (1 : Fin 3) = (grid0.coords t 1).val ∧ win0_1.index t (2 : Fin 3) = 0 :=
  (by decide +kernel : ∀ t : Fin grid0.N, _)

/-- Where an element of window 1's block at point `t` sits in its array. -/
theorem emb0_1 (t : Fin cfg0.N) (u : Fin 1) (p : Fin 1024) (k : Fin 32) :
    ((cfg0.win 1).blk t).view.emb (ix3 u p k) = ix3 (bat0 t) (row0 t p) k := by
  obtain ⟨e0, e1, e2⟩ := idx0_1 t
  have hu : u.val = 0 := by have := u.isLt; omega
  refine funext fun a => Fin.ext ?_
  match a with
  | ⟨0, _⟩ => show win0_1.index t (0 : Fin 3) * 1 + 1 * u.val = (grid0.coords t 0).val; omega
  | ⟨1, _⟩ => show win0_1.index t (1 : Fin 3) * 1024 + 1 * p.val = 1024 * (grid0.coords t 1).val + p.val; omega
  | ⟨2, _⟩ => show win0_1.index t (2 : Fin 3) * 32 + 1 * k.val = k.val; omega

theorem read0_1 (A : S16x2048x32.Idx → Elt F .f32) (t : Fin cfg0.N) (u : Fin 1) (p : Fin 1024) (k : Fin 32) :
    ((cfg0.win 1).blk t).view.read (Elt F) A (ix3 u p k) = A (ix3 (bat0 t) (row0 t p) k) := by
  show A (((cfg0.win 1).blk t).view.emb (ix3 u p k)) = _
  exact congrArg A (emb0_1 t u p k)

/-- Window 2's block index at every point. -/
theorem idx0_2 : ∀ t : Fin cfg0.N, win0_2.index t (0 : Fin 3) = (grid0.coords t 0).val
    ∧ win0_2.index t (1 : Fin 3) = 0 ∧ win0_2.index t (2 : Fin 3) = 0 :=
  (by decide +kernel : ∀ t : Fin grid0.N, _)

/-- Where an element of window 2's block at point `t` sits in its array. -/
theorem emb0_2 (t : Fin cfg0.N) (u : Fin 1) (p : Fin 2048) (k : Fin 32) :
    ((cfg0.win 2).blk t).view.emb (ix3 u p k) = ix3 (bat0 t) p k := by
  obtain ⟨e0, e1, e2⟩ := idx0_2 t
  have hu : u.val = 0 := by have := u.isLt; omega
  refine funext fun a => Fin.ext ?_
  match a with
  | ⟨0, _⟩ => show win0_2.index t (0 : Fin 3) * 1 + 1 * u.val = (grid0.coords t 0).val; omega
  | ⟨1, _⟩ => show win0_2.index t (1 : Fin 3) * 2048 + 1 * p.val = p.val; omega
  | ⟨2, _⟩ => show win0_2.index t (2 : Fin 3) * 32 + 1 * k.val = k.val; omega

theorem read0_2 (A : S16x2048x32.Idx → Elt F .f32) (t : Fin cfg0.N) (u : Fin 1) (p : Fin 2048) (k : Fin 32) :
    ((cfg0.win 2).blk t).view.read (Elt F) A (ix3 u p k) = A (ix3 (bat0 t) p k) := by
  show A (((cfg0.win 2).blk t).view.emb (ix3 u p k)) = _
  exact congrArg A (emb0_2 t u p k)

/-- Window 3's block is its whole array at every point. -/
theorem idx0_3 : ∀ t : Fin cfg0.N, win0_3.index t (0 : Fin 2) = 0 ∧ win0_3.index t (1 : Fin 2) = 0 :=
  (by decide +kernel : ∀ t : Fin grid0.N, _)

theorem emb0_3 (t : Fin cfg0.N) (k : Fin 32) (j : Fin 96) :
    ((cfg0.win 3).blk t).view.emb (ix2 k j) = ix2 k j := by
  obtain ⟨e0, e1⟩ := idx0_3 t
  refine funext fun a => Fin.ext ?_
  match a with
  | ⟨0, _⟩ => show win0_3.index t (0 : Fin 2) * 32 + 1 * k.val = k.val; omega
  | ⟨1, _⟩ => show win0_3.index t (1 : Fin 2) * 96 + 1 * j.val = j.val; omega

theorem read0_3 (A : S32x96.Idx → Elt F .f32) (t : Fin cfg0.N) (k : Fin 32) (j : Fin 96) :
    ((cfg0.win 3).blk t).view.read (Elt F) A (ix2 k j) = A (ix2 k j) := by
  show A (((cfg0.win 3).blk t).view.emb (ix2 k j)) = _
  exact congrArg A (emb0_3 t k j)

/-- Window 4's block is its whole array at every point. -/
theorem idx0_4 : ∀ t : Fin cfg0.N, win0_4.index t (0 : Fin 2) = 0 ∧ win0_4.index t (1 : Fin 2) = 0 :=
  (by decide +kernel : ∀ t : Fin grid0.N, _)

theorem emb0_4 (t : Fin cfg0.N) (k : Fin 32) (j : Fin 96) :
    ((cfg0.win 4).blk t).view.emb (ix2 k j) = ix2 k j := by
  obtain ⟨e0, e1⟩ := idx0_4 t
  refine funext fun a => Fin.ext ?_
  match a with
  | ⟨0, _⟩ => show win0_4.index t (0 : Fin 2) * 32 + 1 * k.val = k.val; omega
  | ⟨1, _⟩ => show win0_4.index t (1 : Fin 2) * 96 + 1 * j.val = j.val; omega

theorem read0_4 (A : S32x96.Idx → Elt F .f32) (t : Fin cfg0.N) (k : Fin 32) (j : Fin 96) :
    ((cfg0.win 4).blk t).view.read (Elt F) A (ix2 k j) = A (ix2 k j) := by
  show A (((cfg0.win 4).blk t).view.emb (ix2 k j)) = _
  exact congrArg A (emb0_4 t k j)

/-- Window 5's block is its whole array at every point. -/
theorem idx0_5 : ∀ t : Fin cfg0.N, win0_5.index t (0 : Fin 2) = 0 ∧ win0_5.index t (1 : Fin 2) = 0 :=
  (by decide +kernel : ∀ t : Fin grid0.N, _)

theorem emb0_5 (t : Fin cfg0.N) (k : Fin 1) (j : Fin 96) :
    ((cfg0.win 5).blk t).view.emb (ix2 k j) = ix2 k j := by
  obtain ⟨e0, e1⟩ := idx0_5 t
  refine funext fun a => Fin.ext ?_
  match a with
  | ⟨0, _⟩ => show win0_5.index t (0 : Fin 2) * 1 + 1 * k.val = k.val; omega
  | ⟨1, _⟩ => show win0_5.index t (1 : Fin 2) * 96 + 1 * j.val = j.val; omega

theorem read0_5 (A : S1x96.Idx → Elt F .f32) (t : Fin cfg0.N) (k : Fin 1) (j : Fin 96) :
    ((cfg0.win 5).blk t).view.read (Elt F) A (ix2 k j) = A (ix2 k j) := by
  show A (((cfg0.win 5).blk t).view.emb (ix2 k j)) = _
  exact congrArg A (emb0_5 t k j)

/-- Window 6's block is its whole array at every point. -/
theorem idx0_6 : ∀ t : Fin cfg0.N, win0_6.index t (0 : Fin 2) = 0 ∧ win0_6.index t (1 : Fin 2) = 0 :=
  (by decide +kernel : ∀ t : Fin grid0.N, _)

theorem emb0_6 (t : Fin cfg0.N) (k : Fin 1) (j : Fin 96) :
    ((cfg0.win 6).blk t).view.emb (ix2 k j) = ix2 k j := by
  obtain ⟨e0, e1⟩ := idx0_6 t
  refine funext fun a => Fin.ext ?_
  match a with
  | ⟨0, _⟩ => show win0_6.index t (0 : Fin 2) * 1 + 1 * k.val = k.val; omega
  | ⟨1, _⟩ => show win0_6.index t (1 : Fin 2) * 96 + 1 * j.val = j.val; omega

theorem read0_6 (A : S1x96.Idx → Elt F .f32) (t : Fin cfg0.N) (k : Fin 1) (j : Fin 96) :
    ((cfg0.win 6).blk t).view.read (Elt F) A (ix2 k j) = A (ix2 k j) := by
  show A (((cfg0.win 6).blk t).view.emb (ix2 k j)) = _
  exact congrArg A (emb0_6 t k j)

/-- Window 7's block index at every point. -/
theorem idx0_7 : ∀ t : Fin cfg0.N, win0_7.index t (0 : Fin 3) = (grid0.coords t 0).val
    ∧ win0_7.index t (1 : Fin 3) = 0 ∧ win0_7.index t (2 : Fin 3) = 0 :=
  (by decide +kernel : ∀ t : Fin grid0.N, _)

/-- Where an element of window 7's block at point `t` sits in its array. -/
theorem emb0_7 (t : Fin cfg0.N) (u : Fin 1) (p : Fin 2048) (k : Fin 32) :
    ((cfg0.win 7).blk t).view.emb (ix3 u p k) = ix3 (bat0 t) p k := by
  obtain ⟨e0, e1, e2⟩ := idx0_7 t
  have hu : u.val = 0 := by have := u.isLt; omega
  refine funext fun a => Fin.ext ?_
  match a with
  | ⟨0, _⟩ => show win0_7.index t (0 : Fin 3) * 1 + 1 * u.val = (grid0.coords t 0).val; omega
  | ⟨1, _⟩ => show win0_7.index t (1 : Fin 3) * 2048 + 1 * p.val = p.val; omega
  | ⟨2, _⟩ => show win0_7.index t (2 : Fin 3) * 32 + 1 * k.val = k.val; omega

theorem read0_7 (A : S16x2048x32.Idx → Elt F .f32) (t : Fin cfg0.N) (u : Fin 1) (p : Fin 2048) (k : Fin 32) :
    ((cfg0.win 7).blk t).view.read (Elt F) A (ix3 u p k) = A (ix3 (bat0 t) p k) := by
  show A (((cfg0.win 7).blk t).view.emb (ix3 u p k)) = _
  exact congrArg A (emb0_7 t u p k)

/-- The indices of the result array inside point `t`'s block: batch entry `t / 2`, every row. -/
theorem mem0_7 (t : Fin cfg0.N) (i : S16x2048x32.Idx) :
    i ∈ ((cfg0.win 7).blk t).view.set ↔ (i 0).val = (bat0 t).val := by
  have h : i ∈ ((cfg0.win 7).blk t).view.set ↔ ∀ a : Fin 3, win0_7.index t a * S1x2048x32.size a ≤ (i a).val
      ∧ (i a).val < win0_7.index t a * S1x2048x32.size a + S1x2048x32.size a := by
    show i ∈ ((View.whole main_v8).slice (win0_7.rect t)).set ↔ _
    rw [View.set_slice_whole, Rect.mem_set_unit]
    exact Iff.rfl
  rw [h]
  obtain ⟨e0, e1, e2⟩ := idx0_7 t
  have h1 : (i 1).val < 2048 := (i 1).isLt
  have h2 : (i 2).val < 32 := (i 2).isLt
  constructor
  · intro hh
    have b0 : win0_7.index t (0 : Fin 3) * 1 ≤ (i 0).val ∧ (i 0).val < win0_7.index t (0 : Fin 3) * 1 + 1 := hh 0
    have b1 : win0_7.index t (1 : Fin 3) * 2048 ≤ (i 1).val ∧ (i 1).val < win0_7.index t (1 : Fin 3) * 2048 + 2048 := hh 1
    show (i 0).val = (grid0.coords t 0).val
    omega
  · intro hh a
    have hh' : (i 0).val = (grid0.coords t 0).val := hh
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 2048 ≤ (i 1).val ∧ (i 1).val < win0_7.index t (1 : Fin 3) * 2048 + 2048; omega
    | ⟨2, _⟩ => show win0_7.index t (2 : Fin 3) * 32 ≤ (i 2).val ∧ (i 2).val < win0_7.index t (2 : Fin 3) * 32 + 32; omega

/-- The last point of batch entry `b`, the one after which the result block is written back. -/
def pt0 (b : Fin 16) : Fin cfg0.N :=
  ⟨2 * b.val + 1, by have := b.isLt; rw [show cfg0.N = 32 from Gen.N_0]; omega⟩

theorem bat0_pt0 (b : Fin 16) : bat0 (pt0 b) = b := by
  refine Fin.ext ?_
  rw [bat0_val]
  have := b.isLt
  show (2 * b.val + 1) / 2 = b.val
  omega
theorem half0_pt0 (b : Fin 16) : half0 (pt0 b) = 1 := by
  refine Fin.ext ?_
  rw [half0_val]
  show (2 * b.val + 1) % 2 = 1
  omega
/-- Every index of the result array is the element `(0, p, k)` of the block of point `2·b + 1`. -/
theorem emb0_7_pt0 (b : Fin 16) (p : Fin 2048) (k : Fin 32) :
    ((cfg0.win 7).blk (pt0 b)).view.emb (ix3 (0 : Fin 1) p k) = ix3 b p k := by
  rw [emb0_7, bat0_pt0]

end Cert.KernelIdeal.Layout

end
-- ==== Proof.Arrays.lean ====
/-
  The specification's two results as whole arrays over the programs' literal shapes, from the arrays the
  kernel's windows hold: the weights already transposed (`[32, 96]`) and the biases with a leading unit
  axis (`[1, 96]`).
-/
import proofs.«126749_j44126493999752_2_alg».proof.Proof.Spec
import Idealize.ShloMosaic.Lib.ValueIdx

noncomputable section

namespace Cert.GruSpec

open Idealize.ShloMosaic Idealize.ShloMosaic.ValueIdx

/-- The adjacency array's shape, `[16, 2048, 2048]`. -/
abbrev SAdj : Shape := ⟨3, ![16, 2048, 2048]⟩
/-- The node states' shape, `[16, 2048, 32]`. -/
abbrev SStates : Shape := ⟨3, ![16, 2048, 32]⟩
/-- A transposed weight matrix's shape, `[32, 96]`. -/
abbrev SWt : Shape := ⟨2, ![32, 96]⟩
/-- A bias row's shape, `[1, 96]`. -/
abbrev SBias : Shape := ⟨2, ![1, 96]⟩

/-- The updated channel states as an array: at `[b, c, o]` the cell with input the channel state `Cs[b, c, ·]`
    and hidden state the message `Σ_p A[b, p, c] · P[b, p, ·]`, the weights read transposed. -/
def chanArr (A : SAdj.Idx → EReal) (P Cs : SStates.Idx → EReal) (wiT whT : SWt.Idx → EReal) (biT bhT : SBias.Idx → EReal) :
    SStates.Idx → EReal := fun i =>
  let b : Fin 16 := i 0
  let c : Fin 2048 := i 1
  let o : Fin 32 := i 2
  cell (fun k => Cs (ix3 b c k)) (fun k => ∑ p : Fin 2048, A (ix3 b p c) * P (ix3 b p k))
    (fun j k => wiT (ix2 k j)) (fun j k => whT (ix2 k j)) (fun j => biT (ix2 (0 : Fin 1) j)) (fun j => bhT (ix2 (0 : Fin 1) j)) o

theorem chanArr_apply (A : SAdj.Idx → EReal) (P Cs : SStates.Idx → EReal) (wiT whT : SWt.Idx → EReal) (biT bhT : SBias.Idx → EReal)
    (b : Fin 16) (c : Fin 2048) (o : Fin 32) :
    chanArr A P Cs wiT whT biT bhT (ix3 b c o)
      = cell (fun k => Cs (ix3 b c k)) (fun k => ∑ p : Fin 2048, A (ix3 b p c) * P (ix3 b p k))
          (fun j k => wiT (ix2 k j)) (fun j k => whT (ix2 k j)) (fun j => biT (ix2 (0 : Fin 1) j)) (fun j => bhT (ix2 (0 : Fin 1) j)) o := rfl

/-- The updated path states as an array: at `[b, p, o]` the cell with input the path state `X[b, p, ·]` and hidden
    state the message `Σ_c A[b, p, c] · Y[b, c, ·]` from the channel states `Y` already updated. -/
def pathArr (A : SAdj.Idx → EReal) (Y X : SStates.Idx → EReal) (wiT whT : SWt.Idx → EReal) (biT bhT : SBias.Idx → EReal) :
    SStates.Idx → EReal := fun i =>
  let b : Fin 16 := i 0
  let p : Fin 2048 := i 1
  let o : Fin 32 := i 2
  cell (fun k => X (ix3 b p k)) (fun k => ∑ c : Fin 2048, A (ix3 b p c) * Y (ix3 b c k))
    (fun j k => wiT (ix2 k j)) (fun j k => whT (ix2 k j)) (fun j => biT (ix2 (0 : Fin 1) j)) (fun j => bhT (ix2 (0 : Fin 1) j)) o

theorem pathArr_apply (A : SAdj.Idx → EReal) (Y X : SStates.Idx → EReal) (wiT whT : SWt.Idx → EReal) (biT bhT : SBias.Idx → EReal)
    (b : Fin 16) (p : Fin 2048) (o : Fin 32) :
    pathArr A Y X wiT whT biT bhT (ix3 b p o)
      = cell (fun k => X (ix3 b p k)) (fun k => ∑ c : Fin 2048, A (ix3 b p c) * Y (ix3 b c k))
          (fun j k => wiT (ix2 k j)) (fun j k => whT (ix2 k j)) (fun j => biT (ix2 (0 : Fin 1) j)) (fun j => bhT (ix2 (0 : Fin 1) j)) o := rfl

end Cert.GruSpec

end
-- ==== Proof.Value0.lean ====
/-
  The first region's result array as one function of the arrays the region reads.

  A batch entry takes two grid points. Its first point clears the accumulator and adds the product of the first 1024
  adjacency rows with the first 1024 path rows; its second point adds the product of the last 1024 rows, so that after
  it the accumulator holds, at channel c and feature h,  Σ_p adj[b,p,c] · path[b,p,h]  over all 2048 path rows. The
  second point then leaves in the result window's block the gated cell of the channel rows and of that message, and
  writes the block back; the 16 blocks written back tile the array, so the array ends holding the cell of every channel
  row of every batch entry.
-/
import proofs.«126749_j44126493999752_2_alg».proof.Proof.Data0
import proofs.«126749_j44126493999752_2_alg».proof.Proof.PaySide
import proofs.«126749_j44126493999752_2_alg».proof.Proof.Layout
import proofs.«126749_j44126493999752_2_alg».proof.Proof.Spec
import proofs.«126749_j44126493999752_2_alg».proof.Proof.Arrays
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The two halves of the path rows -/

/-- Row p of the first 1024 rows, as one of the 2048. -/
def loRow (p : Fin 1024) : Fin 2048 := ⟨p.val, by have := p.isLt; omega⟩
/-- Row p of the last 1024 rows, as one of the 2048. -/
def hiRow (p : Fin 1024) : Fin 2048 := ⟨1024 + p.val, by have := p.isLt; omega⟩

/-- A sum over the 2048 rows is the sum over the first 1024 plus the sum over the last 1024. -/
theorem sum_halves (f : Fin 2048 → EReal) :
    ∑ p : Fin 2048, f p = ∑ p : Fin 1024, f (loRow p) + ∑ p : Fin 1024, f (hiRow p) :=
  Fin.sum_univ_add (a := 1024) (b := 1024) f

/-- The message channel c of batch entry b receives, feature h: the sum over the 2048 path rows of adj[b,p,c] · path[b,p,h]. -/
def chanMsgAt (A : S16x2048x2048.Idx → EReal) (P : S16x2048x32.Idx → EReal) (b : Fin 16) (c : Fin 2048) (h : Fin 32) : EReal :=
  ∑ p : Fin 2048, A (ix3 b p c) * P (ix3 b p h)

/-! ## The accumulator after an entry's two points, on blocks -/

/-- Two accumulation steps from the zero fill, the first on the blocks of the first 1024 rows and the second on the
    blocks of the last 1024, leave at (c, h) the sum over all 2048 rows of adj[b,p,c] · path[b,p,h]. -/
theorem acc_two_steps (A : S16x2048x2048.Idx → EReal) (P : S16x2048x32.Idx → EReal)
    (a0 a1 : FVec Ideal S1x1024x2048 .f32) (p0 p1 : FVec Ideal S1x1024x32 .f32) (b : Fin 16)
    (ha0 : ∀ (p : Fin 1024) (k : Fin 2048), a0 (ix3 0 p k) = A (ix3 b (loRow p) k))
    (ha1 : ∀ (p : Fin 1024) (k : Fin 2048), a1 (ix3 0 p k) = A (ix3 b (hiRow p) k))
    (hp0 : ∀ (p : Fin 1024) (k : Fin 32), p0 (ix3 0 p k) = P (ix3 b (loRow p) k))
    (hp1 : ∀ (p : Fin 1024) (k : Fin 32), p1 (ix3 0 p k) = P (ix3 b (hiRow p) k))
    (c : Fin 2048) (h : Fin 32) :
    accNext (F := Ideal) a1 p1 (accNext (F := Ideal) a0 p0 (k0_pay1 (F := Ideal))) (ix2 c h)
      = ∑ p : Fin 2048, A (ix3 b p c) * P (ix3 b p h) := by
  show k0_pay2 (F := Ideal) p1 a1 (k0_pay2 (F := Ideal) p0 a0 (k0_pay1 (F := Ideal))) (ix2 c h) = _
  rw [PaySide.pay2_apply, PaySide.pay2_apply, PaySide.pay1_apply, zero_add, sum_halves]
  simp only [ha0, ha1, hp0, hp1]

/-! ## The body's output on blocks -/

/-- The output block at channel row c and feature o: the cell of the channel block's row and of the accumulator's row. -/
theorem chanOut_apply (x2 : FVec Ideal S1x2048x32 .f32) (x3 x4 : FVec Ideal S32x96 .f32) (x5 x6 : FVec Ideal S1x96 .f32)
    (s : FVec Ideal S2048x32 .f32) (c : Fin 2048) (o : Fin 32) :
    chanOut (F := Ideal) x2 x3 x4 x5 x6 s (ix3 0 c o)
      = Cert.GruSpec.cell (fun k => x2 (ix3 0 c k)) (fun k => s (ix2 c k))
          (fun j k => x3 (ix2 k j)) (fun j k => x4 (ix2 k j)) (fun j => x5 (ix2 0 j)) (fun j => x6 (ix2 0 j)) o :=
  PaySide.chan_cell s x2 x3 x4 x5 x6 (fun j k => x3 (ix2 k j)) (fun j k => x4 (ix2 k j))
    (fun j => x5 (ix2 0 j)) (fun j => x6 (ix2 0 j)) (fun _ _ => rfl) (fun _ _ => rfl) (fun _ => rfl) (fun _ => rfl) c o

/-- When the channel block is the rows of batch entry b, the weights and biases are whole, and the accumulator holds
    the entry's messages, the output block at (0, c, o) is the array function at (b, c, o). -/
theorem chanOut_eq_chanArr (A : S16x2048x2048.Idx → EReal) (P Cs : S16x2048x32.Idx → EReal) (wiT whT : S32x96.Idx → EReal)
    (biT bhT : S1x96.Idx → EReal)
    (x2 : FVec Ideal S1x2048x32 .f32) (x3 x4 : FVec Ideal S32x96 .f32) (x5 x6 : FVec Ideal S1x96 .f32)
    (s : FVec Ideal S2048x32 .f32) (b : Fin 16)
    (h2 : ∀ (r : Fin 2048) (k : Fin 32), x2 (ix3 0 r k) = Cs (ix3 b r k))
    (h3 : ∀ (k : Fin 32) (j : Fin 96), x3 (ix2 k j) = wiT (ix2 k j))
    (h4 : ∀ (k : Fin 32) (j : Fin 96), x4 (ix2 k j) = whT (ix2 k j))
    (h5 : ∀ j : Fin 96, x5 (ix2 0 j) = biT (ix2 0 j)) (h6 : ∀ j : Fin 96, x6 (ix2 0 j) = bhT (ix2 0 j))
    (hs : ∀ (c : Fin 2048) (k : Fin 32), s (ix2 c k) = ∑ p : Fin 2048, A (ix3 b p c) * P (ix3 b p k))
    (c : Fin 2048) (o : Fin 32) :
    chanOut (F := Ideal) x2 x3 x4 x5 x6 s (ix3 0 c o) = Cert.GruSpec.chanArr A P Cs wiT whT biT bhT (ix3 b c o) := by
  rw [chanOut_apply, Cert.GruSpec.chanArr_apply]
  simp only [h2, h3, h4, h5, h6, hs]

/-- Two functions on a [1,2048,32] block that agree at every (0, c, o) are equal. -/
theorem block_ext0 (f g : S1x2048x32.Idx → EReal) (h : ∀ (c : Fin 2048) (o : Fin 32), f (ix3 0 c o) = g (ix3 0 c o)) :
    f = g := by
  funext j
  obtain ⟨u, c, o, rfl⟩ : ∃ (u : Fin 1) (c : Fin 2048) (o : Fin 32), j = ix3 u c o := ⟨j 0, j 1, j 2, eq_ix3 j⟩
  have hu : u = 0 := Fin.ext (by have := u.isLt; show u.val = 0; omega)
  subst hu
  exact h c o

/-! ## From blocks to the array -/

section
-- the buffers' contents when the region is entered
variable (V : (c : Dev nD) → (b : Ref sig .tc) → Buf (Elt Ideal) ((c : Thread nD τ).loc b))

/-- After an entry's second point the accumulator holds the entry's messages, b the point's batch entry. -/
theorem acc_odd (c : Dev nD) (t : Fin cfg0.N) (ht : t.val % 2 = 1) (cc : Fin 2048) (h : Fin 32) :
    accAt V c t.val t.isLt (ix2 cc h)
      = chanMsgAt (V c main_arg2) (V c main_arg0) (Layout.bat0 t) cc h := by
  have hN : cfg0.N = 32 := N_0
  have hlt : t.val - 1 < cfg0.N := by have := t.isLt; omega
  have hev : (⟨t.val - 1, hlt⟩ : Fin cfg0.N).val % 2 = 0 := by show (t.val - 1) % 2 = 0; omega
  have hb : Layout.bat0 ⟨t.val - 1, hlt⟩ = Layout.bat0 t :=
    Fin.ext (by rw [Layout.bat0_val, Layout.bat0_val]; show (t.val - 1) / 2 = t.val / 2; omega)
  have hr0 : ∀ p : Fin 1024, Layout.row0 ⟨t.val - 1, hlt⟩ p = loRow p := fun p =>
    Fin.ext (by rw [Layout.row0_val]; show 1024 * ((t.val - 1) % 2) + p.val = p.val; omega)
  have hr1 : ∀ p : Fin 1024, Layout.row0 t p = hiRow p := fun p =>
    Fin.ext (by rw [Layout.row0_val]; show 1024 * (t.val % 2) + p.val = 1024 + p.val; omega)
  refine (congrFun (accAt_odd V c t ht) _).trans ?_
  refine (congrArg (fun s => accNext (F := Ideal) (iblk0 V c 0 t) (iblk0 V c 1 t) s (ix2 cc h))
    (accAt_even V c ⟨t.val - 1, hlt⟩ hev)).trans ?_
  exact acc_two_steps (V c main_arg2) (V c main_arg0) (iblk0 V c 0 ⟨t.val - 1, hlt⟩) (iblk0 V c 0 t)
    (iblk0 V c 1 ⟨t.val - 1, hlt⟩) (iblk0 V c 1 t) (Layout.bat0 t)
    (fun p k => (Layout.read0_0 (V c main_arg2) ⟨t.val - 1, hlt⟩ 0 p k).trans (by rw [hb, hr0]))
    (fun p k => (Layout.read0_0 (V c main_arg2) t 0 p k).trans (by rw [hr1]))
    (fun p k => (Layout.read0_1 (V c main_arg0) ⟨t.val - 1, hlt⟩ 0 p k).trans (by rw [hb, hr0]))
    (fun p k => (Layout.read0_1 (V c main_arg0) t 0 p k).trans (by rw [hr1]))
    cc h

/-- What a writing point t writes back is its block of the array function of the arrays as the region finds them. -/
theorem flushed0_7 (c : Dev nD) (t : Fin cfg0.N) (hf : (cfg0.win 7).flush t = true) :
    (dat0 (F := Ideal) V c).flushed 7 t
      = ((cfg0.win 7).blk t).view.read (Elt Ideal)
          (Cert.GruSpec.chanArr (V c main_arg2) (V c main_arg0) (V c main_arg1) (V c main_v0) (V c main_v1) (V c main_v2)
            (V c main_v3)) := by
  have ht : t.val % 2 = 1 := (flush0_7 t).mp hf
  show (cfg0.win 7).cut (grid0.coords t) ((dat0 V c).after 7 t) = _
  rw [after0_7]
  refine block_ext0 _ _ fun cc o => ?_
  refine (chanOut_eq_chanArr (V c main_arg2) (V c main_arg0) (V c main_arg1) (V c main_v0) (V c main_v1) (V c main_v2)
    (V c main_v3) (iblk0 V c 2 t) (iblk0 V c 3 t) (iblk0 V c 4 t) (iblk0 V c 5 t) (iblk0 V c 6 t)
    (accAt V c t.val t.isLt) (Layout.bat0 t)
    (fun r k => Layout.read0_2 (V c main_arg1) t 0 r k) (fun k j => Layout.read0_3 (V c main_v0) t k j)
    (fun k j => Layout.read0_4 (V c main_v1) t k j) (fun j => Layout.read0_5 (V c main_v2) t 0 j)
    (fun j => Layout.read0_6 (V c main_v3) t 0 j) (fun cc k => acc_odd V c t ht cc k) cc o).trans ?_
  exact (Layout.read0_7 (F := Ideal) _ t 0 cc o).symm

/-- Every index of the result array lies in the block of an entry's second point, which writes its block back. -/
theorem cover0 (i : S16x2048x32.Idx) :
    ∃ t : Fin cfg0.N, (cfg0.win 7).flush t = true ∧ i ∈ ((cfg0.win 7).blk t).view.set := by
  obtain ⟨b, p, k, rfl⟩ : ∃ (b : Fin 16) (p : Fin 2048) (k : Fin 32), i = ix3 b p k := ⟨i 0, i 1, i 2, eq_ix3 i⟩
  refine ⟨Layout.pt0 b, (flush0_7 _).mpr ?_, ?_⟩
  · show (2 * b.val + 1) % 2 = 1
    omega
  · rw [← Layout.emb0_7_pt0 b p k]
    exact View.emb_mem_set _ _

/-- THE RESULT ARRAY after the region: the array function of the arrays the region was entered with. -/
theorem final0 (c : Dev nD) :
    (dat0 (F := Ideal) V c).arrAt 7 cfg0.N
      = Cert.GruSpec.chanArr (V c main_arg2) (V c main_arg0) (V c main_arg1) (V c main_v0) (V c main_v1) (V c main_v2)
          (V c main_v3) :=
  (dat0 V c).arrAt_eq_of_cover 7 _ (fun t hf => flushed0_7 V c t hf) cover0

end

end Cert.KernelIdeal.Hand

end
-- ==== Proof.Value1.lean ====
/-
  The second region's result array as one function of the arrays the region reads.

  At every grid point the body leaves in the result window's block the gated cell of the path rows and of their
  messages, computed from the point's blocks; each block is a rectangle of its array, so what the point writes back is
  that rectangle of ONE function of the whole arrays: at batch entry b, path row p and feature o, the cell of row p of the
  path states and of  Σ_c adj[b,p,c] · chan[b,c,·]. The 64 blocks of the result window tile the array (row p of entry b
  lies in the block of point 4·b + p / 512), so the array ends holding that function.
-/
import proofs.«126749_j44126493999752_2_alg».proof.Proof.Data1
import proofs.«126749_j44126493999752_2_alg».proof.Proof.PaySide
import proofs.«126749_j44126493999752_2_alg».proof.Proof.Layout
import proofs.«126749_j44126493999752_2_alg».proof.Proof.Spec
import proofs.«126749_j44126493999752_2_alg».proof.Proof.Arrays
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem zeros2 : (![0, 0] : Fin 2 → ℕ) = fun _ => 0 := by
  funext a; match a with | ⟨0, _⟩ => rfl | ⟨1, _⟩ => rfl
theorem zeros3 : (![0, 0, 0] : Fin 3 → ℕ) = fun _ => 0 := by
  funext a; match a with | ⟨0, _⟩ => rfl | ⟨1, _⟩ => rfl | ⟨2, _⟩ => rfl

/-! ## The body's payload on blocks, and on blocks that are rectangles of the arrays -/

/-- The payload at row p and feature o of its block: the cell of the path block's row and of the product of the
    adjacency block's row with the channel block. -/
theorem pathPay_apply (x0 : FVec Ideal S1x512x2048 .f32) (x1 : FVec Ideal S1x2048x32 .f32) (x2 : FVec Ideal S1x512x32 .f32)
    (x3 x4 : FVec Ideal S32x96 .f32) (x5 x6 : FVec Ideal S1x96 .f32) (p : Fin 512) (o : Fin 32) :
    pathPay (F := Ideal) x0 x1 x2 x3 x4 x5 x6 (ix3 0 p o)
      = Cert.GruSpec.cell (fun k => x2 (ix3 0 p k)) (fun k => ∑ c : Fin 2048, x0 (ix3 0 p c) * x1 (ix3 0 c k))
          (fun j k => x3 (ix2 k j)) (fun j k => x4 (ix2 k j)) (fun j => x5 (ix2 0 j)) (fun j => x6 (ix2 0 j)) o := by
  unfold pathPay
  simp only [View.ld_unit_zero (S := S1x512x2048) zeros3, View.ld_unit_zero (S := S1x2048x32) zeros3,
    View.ld_unit_zero (S := S1x512x32) zeros3, View.ld_unit_zero (S := S32x96) zeros2,
    View.ld_unit_zero (S := S1x96) zeros2]
  exact PaySide.path_cell x0 x1 x2 x3 x4 x5 x6 (fun j k => x3 (ix2 k j)) (fun j k => x4 (ix2 k j))
    (fun j => x5 (ix2 0 j)) (fun j => x6 (ix2 0 j)) (fun _ _ => rfl) (fun _ _ => rfl) (fun _ => rfl) (fun _ => rfl) p o

/-- When the seven blocks are the rectangles of the arrays at batch entry b, rows row p (the weights and biases
    whole), the payload at (0, p, o) is the array function at (b, row p, o). -/
theorem pathPay_eq_pathArr (A : S16x2048x2048.Idx → EReal) (Y X : S16x2048x32.Idx → EReal) (wiT whT : S32x96.Idx → EReal)
    (biT bhT : S1x96.Idx → EReal)
    (x0 : FVec Ideal S1x512x2048 .f32) (x1 : FVec Ideal S1x2048x32 .f32) (x2 : FVec Ideal S1x512x32 .f32)
    (x3 x4 : FVec Ideal S32x96 .f32) (x5 x6 : FVec Ideal S1x96 .f32) (b : Fin 16) (row : Fin 512 → Fin 2048)
    (h0 : ∀ (p : Fin 512) (k : Fin 2048), x0 (ix3 0 p k) = A (ix3 b (row p) k))
    (h1 : ∀ (r : Fin 2048) (k : Fin 32), x1 (ix3 0 r k) = Y (ix3 b r k))
    (h2 : ∀ (p : Fin 512) (k : Fin 32), x2 (ix3 0 p k) = X (ix3 b (row p) k))
    (h3 : ∀ (k : Fin 32) (j : Fin 96), x3 (ix2 k j) = wiT (ix2 k j))
    (h4 : ∀ (k : Fin 32) (j : Fin 96), x4 (ix2 k j) = whT (ix2 k j))
    (h5 : ∀ j : Fin 96, x5 (ix2 0 j) = biT (ix2 0 j)) (h6 : ∀ j : Fin 96, x6 (ix2 0 j) = bhT (ix2 0 j))
    (p : Fin 512) (o : Fin 32) :
    pathPay (F := Ideal) x0 x1 x2 x3 x4 x5 x6 (ix3 0 p o) = Cert.GruSpec.pathArr A Y X wiT whT biT bhT (ix3 b (row p) o) := by
  rw [pathPay_apply, Cert.GruSpec.pathArr_apply]
  simp only [h0, h1, h2, h3, h4, h5, h6]

/-- Two functions on a [1,512,32] block that agree at every (0, p, o) are equal. -/
theorem block_ext (f g : S1x512x32.Idx → EReal) (h : ∀ (p : Fin 512) (o : Fin 32), f (ix3 0 p o) = g (ix3 0 p o)) :
    f = g := by
  funext j
  obtain ⟨u, p, o, rfl⟩ : ∃ (u : Fin 1) (p : Fin 512) (o : Fin 32), j = ix3 u p o := ⟨j 0, j 1, j 2, eq_ix3 j⟩
  have hu : u = 0 := Fin.ext (by have := u.isLt; show u.val = 0; omega)
  subst hu
  exact h p o

/-! ## From blocks to the array -/

section
-- the buffers' contents when the region is entered
variable (V : (c : Dev nD) → (b : Ref sig .tc) → Buf (Elt Ideal) ((c : Thread nD τ).loc b))

/-- What point t writes back is its block of the array function of the arrays as the region finds them. -/
theorem flushed1_7 (c : Dev nD) (t : Fin cfg1.N) :
    (dat1 (F := Ideal) V c).flushed 7 t
      = ((cfg1.win 7).blk t).view.read (Elt Ideal)
          (Cert.GruSpec.pathArr (V c main_arg2) (V c main_v8) (V c main_arg0) (V c main_v4) (V c main_v5) (V c main_v6) (V c main_v7)) := by
  show (cfg1.win 7).cut (grid1.coords t) ((dat1 V c).after 7 t) = _
  rw [after1_7]
  unfold out1_7
  rw [View.canon_unit_zero zeros3]
  refine block_ext _ _ fun p o => ?_
  refine (pathPay_eq_pathArr (V c main_arg2) (V c main_v8) (V c main_arg0) (V c main_v4) (V c main_v5) (V c main_v6)
    (V c main_v7) (iblk1 V c 0 t) (iblk1 V c 1 t) (iblk1 V c 2 t) (iblk1 V c 3 t) (iblk1 V c 4 t) (iblk1 V c 5 t)
    (iblk1 V c 6 t) (Layout.bat1 t) (Layout.row1 t)
    (fun p k => Layout.read1_0 _ t 0 p k) (fun r k => Layout.read1_1 _ t 0 r k) (fun p k => Layout.read1_2 _ t 0 p k)
    (fun k j => Layout.read1_3 _ t k j) (fun k j => Layout.read1_4 _ t k j)
    (fun j => Layout.read1_5 _ t 0 j) (fun j => Layout.read1_6 _ t 0 j) p o).trans ?_
  exact (Layout.read1_7 (F := Ideal) _ t 0 p o).symm

/-- Every index of the result array lies in the block of some point, and every point writes its block back. -/
theorem cover1 (i : S16x2048x32.Idx) :
    ∃ t : Fin cfg1.N, (cfg1.win 7).flush t = true ∧ i ∈ ((cfg1.win 7).blk t).view.set := by
  obtain ⟨b, p, k, rfl⟩ : ∃ (b : Fin 16) (p : Fin 2048) (k : Fin 32), i = ix3 b p k := ⟨i 0, i 1, i 2, eq_ix3 i⟩
  refine ⟨Layout.pt1 b p, flush1_7 _, ?_⟩
  rw [← Layout.emb1_7_pt1 b p k]
  exact View.emb_mem_set _ _

/-- THE RESULT ARRAY after the region: the array function of the arrays the region was entered with. -/
theorem final1 (c : Dev nD) :
    (dat1 (F := Ideal) V c).arrAt 7 cfg1.N
      = Cert.GruSpec.pathArr (V c main_arg2) (V c main_v8) (V c main_arg0) (V c main_v4) (V c main_v5) (V c main_v6) (V c main_v7) :=
  (dat1 V c).arrAt_eq_of_cover 7 _ (fun t _ => flushed1_7 V c t) cover1

end

end Cert.KernelIdeal.Hand

end
-- ==== Proof.RefSide.lean ====
/-
  The reference's side of the bridge: what the reference program's two results are, index by index,
  as functions of the argument arrays.

  The reference flattens `[16, 2048, 32]` to `[32768, 32]` (row `2048·b + c`), multiplies by the transposed
  weights, adds the bias broadcast over the rows, cuts the 96 gate columns into three groups of 32, expands
  the logistic function as `1 / (1 + e^(−x))`, and reshapes back. Read at an index, each of its two results is
  the gated recurrent cell of the specification.
-/
import proofs.«126749_j44126493999752_2_alg».proof.Proof.Gen.ReferenceIdeal.Read
import proofs.«126749_j44126493999752_2_alg».proof.Proof.Spec

noncomputable section

namespace Cert.ReferenceIdeal.RefSide

open Idealize.ShloMosaic Idealize.ShloMosaic.ValueIdx Cert.ReferenceIdeal Cert.ReferenceIdeal.Read Cert.GruSpec

/-- The word `0x3F800000` denotes the real number 1. -/
theorem ofBits_one : Ideal.ofBits .f32 0x3F800000#32 = 1 := by
  simp [Ideal.ofBits, Ideal.ieee, -EReal.coe_mul]; norm_num

/-- The expansion `1 / (1 + e^(−x))` with the constant word is the logistic function. -/
theorem logistic_expand (x : EReal) :
    Ideal.div (Ideal.ofBits .f32 0x3F800000#32) (Ideal.ofBits .f32 0x3F800000#32 + Ideal.exp (-x)) = Ideal.logistic x := by
  rw [ofBits_one]; rfl

/-- The cell's arithmetic at one output feature, from the six gate values and the hidden state's feature. -/
theorem cell_pt (al am ah gl gm gh m : EReal) :
    (Ideal.ofBits .f32 0x3F800000#32
          - Ideal.div (Ideal.ofBits .f32 0x3F800000#32) (Ideal.ofBits .f32 0x3F800000#32 + Ideal.exp (-(am + gm))))
        * Ideal.tanh (ah + Ideal.div (Ideal.ofBits .f32 0x3F800000#32) (Ideal.ofBits .f32 0x3F800000#32 + Ideal.exp (-(al + gl))) * gh)
      + Ideal.div (Ideal.ofBits .f32 0x3F800000#32) (Ideal.ofBits .f32 0x3F800000#32 + Ideal.exp (-(am + gm))) * m
    = (one - Ideal.logistic (am + gm)) * Ideal.tanh (ah + Ideal.logistic (al + gl) * gh) + Ideal.logistic (am + gm) * m := by
  rw [logistic_expand, logistic_expand]
  rfl

/-- Row `2048·b + c` of a flattened `[16, 2048, ·]` array. -/
def row (b : Fin 16) (c : Fin 2048) : Fin 32768 := ⟨b.val * 2048 + c.val, by have := b.isLt; have := c.isLt; omega⟩

/-! ## The channel update (operations 0 to 41) -/

/-- The flattened input rows: row `2048·b + c`, column `k` is the state `[b, c, k]`. -/
theorem in_rows_c (x1 : (⟨S16x2048x32, .f32⟩ : BufTy).Contents (Elt Ideal)) (b : Fin 16) (c : Fin 2048) (k : Fin 32) :
    val_main_v1 (F := Ideal) x1 (ix2 (row b c) k) = x1 (ix3 b c k) := by
  rw [val_main_v1_apply]
  refine congrArg x1 (funext fun a => ?_)
  have hb := b.isLt; have hc := c.isLt; have hk := k.isLt
  match a with
  | ⟨0, _⟩ => exact Fin.ext (by show ((b.val * 2048 + c.val) * 32 + k.val) / 65536 = b.val; omega)
  | ⟨1, _⟩ => exact Fin.ext (by show ((b.val * 2048 + c.val) * 32 + k.val) / 32 % 2048 = c.val; omega)
  | ⟨2, _⟩ => exact Fin.ext (by show ((b.val * 2048 + c.val) * 32 + k.val) % 32 = k.val; omega)

/-- The transposed weights read back as the weights. -/
theorem wt_in_c (x3 : (⟨S96x32, .f32⟩ : BufTy).Contents (Elt Ideal)) (k : Fin 32) (j : Fin 96) :
    val_main_v3 (F := Ideal) x3 (ix2 k j) = x3 (ix2 j k) := by
  rw [val_main_v3_apply]
  exact congrArg x3 (funext fun a => match a with | ⟨0, _⟩ => rfl | ⟨1, _⟩ => rfl)

theorem wt_hid_c (x4 : (⟨S96x32, .f32⟩ : BufTy).Contents (Elt Ideal)) (k : Fin 32) (j : Fin 96) :
    val_main_v8 (F := Ideal) x4 (ix2 k j) = x4 (ix2 j k) := by
  rw [val_main_v8_apply]
  exact congrArg x4 (funext fun a => match a with | ⟨0, _⟩ => rfl | ⟨1, _⟩ => rfl)

/-- The bias, broadcast over the rows. -/
theorem bias_in_c (x5 : (⟨S96, .f32⟩ : BufTy).Contents (Elt Ideal)) (r : Fin 32768) (j : Fin 96) :
    val_main_v6 (F := Ideal) x5 (ix2 r j) = x5 (ix1 j) := by
  rw [val_main_v6_apply, val_main_v5_apply]
  exact congrArg x5 (funext fun a => match a with | ⟨0, _⟩ => rfl)

theorem bias_hid_c (x6 : (⟨S96, .f32⟩ : BufTy).Contents (Elt Ideal)) (r : Fin 32768) (j : Fin 96) :
    val_main_v11 (F := Ideal) x6 (ix2 r j) = x6 (ix1 j) := by
  rw [val_main_v11_apply, val_main_v10_apply]
  exact congrArg x6 (funext fun a => match a with | ⟨0, _⟩ => rfl)

/-- The flattened message rows: row `2048·b + c`, column `k` is what channel node `c` receives. -/
theorem msg_rows_c (x0 : (⟨S16x2048x32, .f32⟩ : BufTy).Contents (Elt Ideal)) (x2 : (⟨S16x2048x2048, .f32⟩ : BufTy).Contents (Elt Ideal)) (b : Fin 16) (c : Fin 2048) (k : Fin 32) :
    val_main_v2 (F := Ideal) x0 x2 (ix2 (row b c) k) = chanMsg (fun b p c => x2 (ix3 b p c)) (fun b p h => x0 (ix3 b p h)) b c k := by
  have e : idx_main_v2 (ix2 (row b c) k) = ix3 b c k := funext fun a => by
    have hb := b.isLt; have hc := c.isLt; have hk := k.isLt
    match a with
    | ⟨0, _⟩ => exact Fin.ext (by show ((b.val * 2048 + c.val) * 32 + k.val) / 65536 = b.val; omega)
    | ⟨1, _⟩ => exact Fin.ext (by show ((b.val * 2048 + c.val) * 32 + k.val) / 32 % 2048 = c.val; omega)
    | ⟨2, _⟩ => exact Fin.ext (by show ((b.val * 2048 + c.val) * 32 + k.val) % 32 = k.val; omega)
  rw [val_main_v2_apply, e, val_main_v0_apply]
  unfold chanMsg
  refine Finset.sum_congr rfl fun p _ => ?_
  have e1 : lidx_main_v0 (ix3 b c k) p = ix3 b p c := funext fun a => match a with | ⟨0, _⟩ => rfl | ⟨1, _⟩ => rfl | ⟨2, _⟩ => rfl
  have e2 : ridx_main_v0 (ix3 b c k) p = ix3 b p k := funext fun a => match a with | ⟨0, _⟩ => rfl | ⟨1, _⟩ => rfl | ⟨2, _⟩ => rfl
  rw [e1, e2]

/-- The input's gate vector at row `2048·b + c`. -/
theorem gate_in_c (x1 : (⟨S16x2048x32, .f32⟩ : BufTy).Contents (Elt Ideal)) (x3 : (⟨S96x32, .f32⟩ : BufTy).Contents (Elt Ideal)) (x5 : (⟨S96, .f32⟩ : BufTy).Contents (Elt Ideal)) (b : Fin 16) (c : Fin 2048) (j : Fin 96) :
    val_main_v7 (F := Ideal) x1 x3 x5 (ix2 (row b c) j) = gate (fun k => x1 (ix3 b c k)) (fun j k => x3 (ix2 j k)) (fun j => x5 (ix1 j)) j := by
  have hd : val_main_v4 (F := Ideal) x1 x3 (ix2 (row b c) j) = ∑ k : Fin 32, x1 (ix3 b c k) * x3 (ix2 j k) := by
    rw [val_main_v4_apply]
    refine Finset.sum_congr rfl fun k _ => ?_
    have e1 : lidx_main_v4 (ix2 (row b c) j) k = ix2 (row b c) k := funext fun a => match a with | ⟨0, _⟩ => rfl | ⟨1, _⟩ => rfl
    have e2 : ridx_main_v4 (ix2 (row b c) j) k = ix2 k j := funext fun a => match a with | ⟨0, _⟩ => rfl | ⟨1, _⟩ => rfl
    rw [e1, e2, in_rows_c, wt_in_c]
  rw [val_main_v7_apply, hd, bias_in_c]
  rfl

/-- The message's gate vector at row `2048·b + c`. -/
theorem gate_hid_c (x0 : (⟨S16x2048x32, .f32⟩ : BufTy).Contents (Elt Ideal)) (x2 : (⟨S16x2048x2048, .f32⟩ : BufTy).Contents (Elt Ideal)) (x4 : (⟨S96x32, .f32⟩ : BufTy).Contents (Elt Ideal)) (x6 : (⟨S96, .f32⟩ : BufTy).Contents (Elt Ideal)) (b : Fin 16) (c : Fin 2048) (j : Fin 96) :
    val_main_v12 (F := Ideal) x0 x2 x4 x6 (ix2 (row b c) j) = gate (chanMsg (fun b p c => x2 (ix3 b p c)) (fun b p h => x0 (ix3 b p h)) b c) (fun j k => x4 (ix2 j k)) (fun j => x6 (ix1 j)) j := by
  have hd : val_main_v9 (F := Ideal) x0 x2 x4 (ix2 (row b c) j) = ∑ k : Fin 32, chanMsg (fun b p c => x2 (ix3 b p c)) (fun b p h => x0 (ix3 b p h)) b c k * x4 (ix2 j k) := by
    rw [val_main_v9_apply]
    refine Finset.sum_congr rfl fun k _ => ?_
    have e1 : lidx_main_v9 (ix2 (row b c) j) k = ix2 (row b c) k := funext fun a => match a with | ⟨0, _⟩ => rfl | ⟨1, _⟩ => rfl
    have e2 : ridx_main_v9 (ix2 (row b c) j) k = ix2 k j := funext fun a => match a with | ⟨0, _⟩ => rfl | ⟨1, _⟩ => rfl
    rw [e1, e2, msg_rows_c, wt_hid_c]
  rw [val_main_v12_apply, hd, bias_hid_c]
  rfl

/-- The cell at row `2048·b + c`, output feature `o`. -/
theorem cell_rows_c (x0 : (⟨S16x2048x32, .f32⟩ : BufTy).Contents (Elt Ideal)) (x1 : (⟨S16x2048x32, .f32⟩ : BufTy).Contents (Elt Ideal)) (x2 : (⟨S16x2048x2048, .f32⟩ : BufTy).Contents (Elt Ideal)) (x3 : (⟨S96x32, .f32⟩ : BufTy).Contents (Elt Ideal)) (x4 : (⟨S96x32, .f32⟩ : BufTy).Contents (Elt Ideal)) (x5 : (⟨S96, .f32⟩ : BufTy).Contents (Elt Ideal)) (x6 : (⟨S96, .f32⟩ : BufTy).Contents (Elt Ideal)) (b : Fin 16) (c : Fin 2048) (o : Fin 32) :
    val_main_v40 (F := Ideal) x0 x1 x2 x3 x4 x5 x6 (ix2 (row b c) o)
      = cell (fun k => x1 (ix3 b c k)) (chanMsg (fun b p c => x2 (ix3 b p c)) (fun b p h => x0 (ix3 b p h)) b c) (fun j k => x3 (ix2 j k)) (fun j k => x4 (ix2 j k))
          (fun j => x5 (ix1 j)) (fun j => x6 (ix1 j)) o := by
  have i13 : idx_main_v13 (ix2 (row b c) o) = ix2 (row b c) (lo o) :=
    funext fun a => match a with | ⟨0, _⟩ => rfl | ⟨1, _⟩ => rfl
  have i14 : idx_main_v14 (ix2 (row b c) o) = ix2 (row b c) (mid o) :=
    funext fun a => match a with | ⟨0, _⟩ => rfl | ⟨1, _⟩ => Fin.ext (Nat.add_comm 32 o.val)
  have i15 : idx_main_v15 (ix2 (row b c) o) = ix2 (row b c) (hi o) :=
    funext fun a => match a with | ⟨0, _⟩ => rfl | ⟨1, _⟩ => Fin.ext (Nat.add_comm 64 o.val)
  have i16 : idx_main_v16 (ix2 (row b c) o) = ix2 (row b c) (lo o) :=
    funext fun a => match a with | ⟨0, _⟩ => rfl | ⟨1, _⟩ => rfl
  have i17 : idx_main_v17 (ix2 (row b c) o) = ix2 (row b c) (mid o) :=
    funext fun a => match a with | ⟨0, _⟩ => rfl | ⟨1, _⟩ => Fin.ext (Nat.add_comm 32 o.val)
  have i18 : idx_main_v18 (ix2 (row b c) o) = ix2 (row b c) (hi o) :=
    funext fun a => match a with | ⟨0, _⟩ => rfl | ⟨1, _⟩ => Fin.ext (Nat.add_comm 64 o.val)
  simp only [val_main_v40_apply, val_main_v38_apply, val_main_v39_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_cst_apply, val_main_cst_0_apply, val_main_cst_1_apply, val_main_cst_2_apply, val_main_cst_3_apply]
  rw [i13, i14, i15, i16, i17, i18]
  simp only [gate_in_c, gate_hid_c, msg_rows_c]
  exact cell_pt _ _ _ _ _ _ _

/-- The reference's updated channel states are the specification's. -/
theorem ref_newChan (x0 : (⟨S16x2048x32, .f32⟩ : BufTy).Contents (Elt Ideal)) (x1 : (⟨S16x2048x32, .f32⟩ : BufTy).Contents (Elt Ideal)) (x2 : (⟨S16x2048x2048, .f32⟩ : BufTy).Contents (Elt Ideal)) (x3 : (⟨S96x32, .f32⟩ : BufTy).Contents (Elt Ideal)) (x4 : (⟨S96x32, .f32⟩ : BufTy).Contents (Elt Ideal)) (x5 : (⟨S96, .f32⟩ : BufTy).Contents (Elt Ideal)) (x6 : (⟨S96, .f32⟩ : BufTy).Contents (Elt Ideal)) (b : Fin 16) (c : Fin 2048) (o : Fin 32) :
    val_main_v41 (F := Ideal) x0 x1 x2 x3 x4 x5 x6 (ix3 b c o) = newChan (fun b p h => x0 (ix3 b p h)) (fun b c h => x1 (ix3 b c h)) (fun b p c => x2 (ix3 b p c)) (fun j k => x3 (ix2 j k)) (fun j k => x4 (ix2 j k)) (fun j => x5 (ix1 j)) (fun j => x6 (ix1 j)) b c o := by
  have e : idx_main_v41 (ix3 b c o) = ix2 (row b c) o := funext fun a => by
    have hb := b.isLt; have hc := c.isLt; have ho := o.isLt
    match a with
    | ⟨0, _⟩ => exact Fin.ext (by show ((b.val * 2048 + c.val) * 32 + o.val) / 32 = b.val * 2048 + c.val; omega)
    | ⟨1, _⟩ => exact Fin.ext (by show ((b.val * 2048 + c.val) * 32 + o.val) % 32 = o.val; omega)
  rw [val_main_v41_apply, e, cell_rows_c]
  rfl

/-! ## The path update (operations 42 to 83) -/

/-- The flattened input rows: row `2048·b + c`, column `k` is the state `[b, c, k]`. -/
theorem in_rows_p (x0 : (⟨S16x2048x32, .f32⟩ : BufTy).Contents (Elt Ideal)) (b : Fin 16) (c : Fin 2048) (k : Fin 32) :
    val_main_v43 (F := Ideal) x0 (ix2 (row b c) k) = x0 (ix3 b c k) := by
  rw [val_main_v43_apply]
  refine congrArg x0 (funext fun a => ?_)
  have hb := b.isLt; have hc := c.isLt; have hk := k.isLt
  match a with
  | ⟨0, _⟩ => exact Fin.ext (by show ((b.val * 2048 + c.val) * 32 + k.val) / 65536 = b.val; omega)
  | ⟨1, _⟩ => exact Fin.ext (by show ((b.val * 2048 + c.val) * 32 + k.val) / 32 % 2048 = c.val; omega)
  | ⟨2, _⟩ => exact Fin.ext (by show ((b.val * 2048 + c.val) * 32 + k.val) % 32 = k.val; omega)

/-- The transposed weights read back as the weights. -/
theorem wt_in_p (x7 : (⟨S96x32, .f32⟩ : BufTy).Contents (Elt Ideal)) (k : Fin 32) (j : Fin 96) :
    val_main_v45 (F := Ideal) x7 (ix2 k j) = x7 (ix2 j k) := by
  rw [val_main_v45_apply]
  exact congrArg x7 (funext fun a => match a with | ⟨0, _⟩ => rfl | ⟨1, _⟩ => rfl)

theorem wt_hid_p (x8 : (⟨S96x32, .f32⟩ : BufTy).Contents (Elt Ideal)) (k : Fin 32) (j : Fin 96) :
    val_main_v50 (F := Ideal) x8 (ix2 k j) = x8 (ix2 j k) := by
  rw [val_main_v50_apply]
  exact congrArg x8 (funext fun a => match a with | ⟨0, _⟩ => rfl | ⟨1, _⟩ => rfl)

/-- The bias, broadcast over the rows. -/
theorem bias_in_p (x9 : (⟨S96, .f32⟩ : BufTy).Contents (Elt Ideal)) (r : Fin 32768) (j : Fin 96) :
    val_main_v48 (F := Ideal) x9 (ix2 r j) = x9 (ix1 j) := by
  rw [val_main_v48_apply, val_main_v47_apply]
  exact congrArg x9 (funext fun a => match a with | ⟨0, _⟩ => rfl)

theorem bias_hid_p (x10 : (⟨S96, .f32⟩ : BufTy).Contents (Elt Ideal)) (r : Fin 32768) (j : Fin 96) :
    val_main_v53 (F := Ideal) x10 (ix2 r j) = x10 (ix1 j) := by
  rw [val_main_v53_apply, val_main_v52_apply]
  exact congrArg x10 (funext fun a => match a with | ⟨0, _⟩ => rfl)

/-- The flattened message rows: row `2048·b + c`, column `k` is what path node `c` receives from the updated channel states. -/
theorem msg_rows_p (x0 : (⟨S16x2048x32, .f32⟩ : BufTy).Contents (Elt Ideal)) (x1 : (⟨S16x2048x32, .f32⟩ : BufTy).Contents (Elt Ideal)) (x2 : (⟨S16x2048x2048, .f32⟩ : BufTy).Contents (Elt Ideal)) (x3 : (⟨S96x32, .f32⟩ : BufTy).Contents (Elt Ideal)) (x4 : (⟨S96x32, .f32⟩ : BufTy).Contents (Elt Ideal)) (x5 : (⟨S96, .f32⟩ : BufTy).Contents (Elt Ideal)) (x6 : (⟨S96, .f32⟩ : BufTy).Contents (Elt Ideal)) (b : Fin 16) (c : Fin 2048) (k : Fin 32) :
    val_main_v44 (F := Ideal) x0 x1 x2 x3 x4 x5 x6 (ix2 (row b c) k) = pathMsg (fun b p c => x2 (ix3 b p c)) (fun b c h => val_main_v41 (F := Ideal) x0 x1 x2 x3 x4 x5 x6 (ix3 b c h)) b c k := by
  have e : idx_main_v44 (ix2 (row b c) k) = ix3 b c k := funext fun a => by
    have hb := b.isLt; have hc := c.isLt; have hk := k.isLt
    match a with
    | ⟨0, _⟩ => exact Fin.ext (by show ((b.val * 2048 + c.val) * 32 + k.val) / 65536 = b.val; omega)
    | ⟨1, _⟩ => exact Fin.ext (by show ((b.val * 2048 + c.val) * 32 + k.val) / 32 % 2048 = c.val; omega)
    | ⟨2, _⟩ => exact Fin.ext (by show ((b.val * 2048 + c.val) * 32 + k.val) % 32 = k.val; omega)
  rw [val_main_v44_apply, e, val_main_v42_apply]
  unfold pathMsg
  refine Finset.sum_congr rfl fun q _ => ?_
  have e1 : lidx_main_v42 (ix3 b c k) q = ix3 b c q := funext fun a => match a with | ⟨0, _⟩ => rfl | ⟨1, _⟩ => rfl | ⟨2, _⟩ => rfl
  have e2 : ridx_main_v42 (ix3 b c k) q = ix3 b q k := funext fun a => match a with | ⟨0, _⟩ => rfl | ⟨1, _⟩ => rfl | ⟨2, _⟩ => rfl
  rw [e1, e2]

/-- The input's gate vector at row `2048·b + c`. -/
theorem gate_in_p (x0 : (⟨S16x2048x32, .f32⟩ : BufTy).Contents (Elt Ideal)) (x7 : (⟨S96x32, .f32⟩ : BufTy).Contents (Elt Ideal)) (x9 : (⟨S96, .f32⟩ : BufTy).Contents (Elt Ideal)) (b : Fin 16) (c : Fin 2048) (j : Fin 96) :
    val_main_v49 (F := Ideal) x0 x7 x9 (ix2 (row b c) j) = gate (fun k => x0 (ix3 b c k)) (fun j k => x7 (ix2 j k)) (fun j => x9 (ix1 j)) j := by
  have hd : val_main_v46 (F := Ideal) x0 x7 (ix2 (row b c) j) = ∑ k : Fin 32, x0 (ix3 b c k) * x7 (ix2 j k) := by
    rw [val_main_v46_apply]
    refine Finset.sum_congr rfl fun k _ => ?_
    have e1 : lidx_main_v46 (ix2 (row b c) j) k = ix2 (row b c) k := funext fun a => match a with | ⟨0, _⟩ => rfl | ⟨1, _⟩ => rfl
    have e2 : ridx_main_v46 (ix2 (row b c) j) k = ix2 k j := funext fun a => match a with | ⟨0, _⟩ => rfl | ⟨1, _⟩ => rfl
    rw [e1, e2, in_rows_p, wt_in_p]
  rw [val_main_v49_apply, hd, bias_in_p]
  rfl

/-- The message's gate vector at row `2048·b + c`. -/
theorem gate_hid_p (x0 : (⟨S16x2048x32, .f32⟩ : BufTy).Contents (Elt Ideal)) (x1 : (⟨S16x2048x32, .f32⟩ : BufTy).Contents (Elt Ideal)) (x2 : (⟨S16x2048x2048, .f32⟩ : BufTy).Contents (Elt Ideal)) (x3 : (⟨S96x32, .f32⟩ : BufTy).Contents (Elt Ideal)) (x4 : (⟨S96x32, .f32⟩ : BufTy).Contents (Elt Ideal)) (x5 : (⟨S96, .f32⟩ : BufTy).Contents (Elt Ideal)) (x6 : (⟨S96, .f32⟩ : BufTy).Contents (Elt Ideal)) (x8 : (⟨S96x32, .f32⟩ : BufTy).Contents (Elt Ideal)) (x10 : (⟨S96, .f32⟩ : BufTy).Contents (Elt Ideal)) (b : Fin 16) (c : Fin 2048) (j : Fin 96) :
    val_main_v54 (F := Ideal) x0 x1 x2 x3 x4 x5 x6 x8 x10 (ix2 (row b c) j) = gate (pathMsg (fun b p c => x2 (ix3 b p c)) (fun b c h => val_main_v41 (F := Ideal) x0 x1 x2 x3 x4 x5 x6 (ix3 b c h)) b c) (fun j k => x8 (ix2 j k)) (fun j => x10 (ix1 j)) j := by
  have hd : val_main_v51 (F := Ideal) x0 x1 x2 x3 x4 x5 x6 x8 (ix2 (row b c) j) = ∑ k : Fin 32, pathMsg (fun b p c => x2 (ix3 b p c)) (fun b c h => val_main_v41 (F := Ideal) x0 x1 x2 x3 x4 x5 x6 (ix3 b c h)) b c k * x8 (ix2 j k) := by
    rw [val_main_v51_apply]
    refine Finset.sum_congr rfl fun k _ => ?_
    have e1 : lidx_main_v51 (ix2 (row b c) j) k = ix2 (row b c) k := funext fun a => match a with | ⟨0, _⟩ => rfl | ⟨1, _⟩ => rfl
    have e2 : ridx_main_v51 (ix2 (row b c) j) k = ix2 k j := funext fun a => match a with | ⟨0, _⟩ => rfl | ⟨1, _⟩ => rfl
    rw [e1, e2, msg_rows_p, wt_hid_p]
  rw [val_main_v54_apply, hd, bias_hid_p]
  rfl

/-- The cell at row `2048·b + c`, output feature `o`. -/
theorem cell_rows_p (x0 : (⟨S16x2048x32, .f32⟩ : BufTy).Contents (Elt Ideal)) (x1 : (⟨S16x2048x32, .f32⟩ : BufTy).Contents (Elt Ideal)) (x2 : (⟨S16x2048x2048, .f32⟩ : BufTy).Contents (Elt Ideal)) (x3 : (⟨S96x32, .f32⟩ : BufTy).Contents (Elt Ideal)) (x4 : (⟨S96x32, .f32⟩ : BufTy).Contents (Elt Ideal)) (x5 : (⟨S96, .f32⟩ : BufTy).Contents (Elt Ideal)) (x6 : (⟨S96, .f32⟩ : BufTy).Contents (Elt Ideal)) (x7 : (⟨S96x32, .f32⟩ : BufTy).Contents (Elt Ideal)) (x8 : (⟨S96x32, .f32⟩ : BufTy).Contents (Elt Ideal)) (x9 : (⟨S96, .f32⟩ : BufTy).Contents (Elt Ideal)) (x10 : (⟨S96, .f32⟩ : BufTy).Contents (Elt Ideal)) (b : Fin 16) (c : Fin 2048) (o : Fin 32) :
    val_main_v82 (F := Ideal) x0 x1 x2 x3 x4 x5 x6 x7 x8 x9 x10 (ix2 (row b c) o)
      = cell (fun k => x0 (ix3 b c k)) (pathMsg (fun b p c => x2 (ix3 b p c)) (fun b c h => val_main_v41 (F := Ideal) x0 x1 x2 x3 x4 x5 x6 (ix3 b c h)) b c) (fun j k => x7 (ix2 j k)) (fun j k => x8 (ix2 j k))
          (fun j => x9 (ix1 j)) (fun j => x10 (ix1 j)) o := by
  have i13 : idx_main_v55 (ix2 (row b c) o) = ix2 (row b c) (lo o) :=
    funext fun a => match a with | ⟨0, _⟩ => rfl | ⟨1, _⟩ => rfl
  have i14 : idx_main_v56 (ix2 (row b c) o) = ix2 (row b c) (mid o) :=
    funext fun a => match a with | ⟨0, _⟩ => rfl | ⟨1, _⟩ => Fin.ext (Nat.add_comm 32 o.val)
  have i15 : idx_main_v57 (ix2 (row b c) o) = ix2 (row b c) (hi o) :=
    funext fun a => match a with | ⟨0, _⟩ => rfl | ⟨1, _⟩ => Fin.ext (Nat.add_comm 64 o.val)
  have i16 : idx_main_v58 (ix2 (row b c) o) = ix2 (row b c) (lo o) :=
    funext fun a => match a with | ⟨0, _⟩ => rfl | ⟨1, _⟩ => rfl
  have i17 : idx_main_v59 (ix2 (row b c) o) = ix2 (row b c) (mid o) :=
    funext fun a => match a with | ⟨0, _⟩ => rfl | ⟨1, _⟩ => Fin.ext (Nat.add_comm 32 o.val)
  have i18 : idx_main_v60 (ix2 (row b c) o) = ix2 (row b c) (hi o) :=
    funext fun a => match a with | ⟨0, _⟩ => rfl | ⟨1, _⟩ => Fin.ext (Nat.add_comm 64 o.val)
  simp only [val_main_v82_apply, val_main_v80_apply, val_main_v81_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_cst_4_apply, val_main_cst_5_apply, val_main_cst_6_apply, val_main_cst_7_apply, val_main_cst_8_apply]
  rw [i13, i14, i15, i16, i17, i18]
  simp only [gate_in_p, gate_hid_p, msg_rows_p]
  exact cell_pt _ _ _ _ _ _ _

/-- The reference's updated path states are the specification's. -/
theorem ref_newPath (x0 : (⟨S16x2048x32, .f32⟩ : BufTy).Contents (Elt Ideal)) (x1 : (⟨S16x2048x32, .f32⟩ : BufTy).Contents (Elt Ideal)) (x2 : (⟨S16x2048x2048, .f32⟩ : BufTy).Contents (Elt Ideal)) (x3 : (⟨S96x32, .f32⟩ : BufTy).Contents (Elt Ideal)) (x4 : (⟨S96x32, .f32⟩ : BufTy).Contents (Elt Ideal)) (x5 : (⟨S96, .f32⟩ : BufTy).Contents (Elt Ideal)) (x6 : (⟨S96, .f32⟩ : BufTy).Contents (Elt Ideal)) (x7 : (⟨S96x32, .f32⟩ : BufTy).Contents (Elt Ideal)) (x8 : (⟨S96x32, .f32⟩ : BufTy).Contents (Elt Ideal)) (x9 : (⟨S96, .f32⟩ : BufTy).Contents (Elt Ideal)) (x10 : (⟨S96, .f32⟩ : BufTy).Contents (Elt Ideal)) (b : Fin 16) (c : Fin 2048) (o : Fin 32) :
    val_main_v83 (F := Ideal) x0 x1 x2 x3 x4 x5 x6 x7 x8 x9 x10 (ix3 b c o) = newPath (fun b p h => x0 (ix3 b p h)) (fun b c h => val_main_v41 (F := Ideal) x0 x1 x2 x3 x4 x5 x6 (ix3 b c h)) (fun b p c => x2 (ix3 b p c)) (fun j k => x7 (ix2 j k)) (fun j k => x8 (ix2 j k)) (fun j => x9 (ix1 j)) (fun j => x10 (ix1 j)) b c o := by
  have e : idx_main_v83 (ix3 b c o) = ix2 (row b c) o := funext fun a => by
    have hb := b.isLt; have hc := c.isLt; have ho := o.isLt
    match a with
    | ⟨0, _⟩ => exact Fin.ext (by show ((b.val * 2048 + c.val) * 32 + o.val) / 32 = b.val * 2048 + c.val; omega)
    | ⟨1, _⟩ => exact Fin.ext (by show ((b.val * 2048 + c.val) * 32 + o.val) % 32 = o.val; omega)
  rw [val_main_v83_apply, e, cell_rows_p]
  rfl

end Cert.ReferenceIdeal.RefSide

end
-- ==== Proof.Bridge.lean ====
/-
  The two sides meet: the specification's arrays, fed with the kernel program's argument buffers and the
  transposed weights and reshaped biases its host operations prepare, are the reference program's two
  results on the same argument arrays.
-/
import proofs.«126749_j44126493999752_2_alg».proof.Proof.Arrays
import proofs.«126749_j44126493999752_2_alg».proof.Proof.RefSide
import proofs.«126749_j44126493999752_2_alg».proof.Proof.Layout

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Layout Cert.GruSpec

variable (m : (ℓ : Loc nD τ sig) → Buf (Elt Ideal) ℓ) (c : Dev nD)

/-- The updated channel states: the specification's array over the kernel's buffers is the reference's first result. -/
theorem bridge_chan :
    chanArr (m ((c : Thread nD τ).loc main_arg2)) (m ((c : Thread nD τ).loc main_arg0)) (m ((c : Thread nD τ).loc main_arg1)) (Gen.V1 m c main_v0) (Gen.V1 m c main_v1) (Gen.V1 m c main_v2) (Gen.V1 m c main_v3)
      = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, d, o, rfl⟩ : ∃ (b : Fin 16) (d : Fin 2048) (o : Fin 32), i = ix3 b d o := ⟨i 0, i 1, i 2, eq_ix3 i⟩
  rw [chanArr_apply, Cert.ReferenceIdeal.RefSide.ref_newChan]
  have h0 : (fun (j : Fin 96) (k : Fin 32) => Gen.V1 m c main_v0 (ix2 k j)) = fun j k => m ((c : Thread nD τ).loc main_arg3) (ix2 j k) :=
    funext fun j => funext fun k => V1_main_v0 m c k j
  have h1 : (fun (j : Fin 96) (k : Fin 32) => Gen.V1 m c main_v1 (ix2 k j)) = fun j k => m ((c : Thread nD τ).loc main_arg4) (ix2 j k) :=
    funext fun j => funext fun k => V1_main_v1 m c k j
  have h2 : (fun (j : Fin 96) => Gen.V1 m c main_v2 (ix2 (0 : Fin 1) j)) = fun j => m ((c : Thread nD τ).loc main_arg5) (ix1 j) :=
    funext fun j => V1_main_v2 m c j
  have h3 : (fun (j : Fin 96) => Gen.V1 m c main_v3 (ix2 (0 : Fin 1) j)) = fun j => m ((c : Thread nD τ).loc main_arg6) (ix1 j) :=
    funext fun j => V1_main_v3 m c j
  rw [h0, h1, h2, h3]
  rfl

/-- The updated path states: the specification's array over the kernel's buffers and the updated channel states
    is the reference's second result. -/
theorem bridge_path :
    pathArr (m ((c : Thread nD τ).loc main_arg2))
        (chanArr (m ((c : Thread nD τ).loc main_arg2)) (m ((c : Thread nD τ).loc main_arg0)) (m ((c : Thread nD τ).loc main_arg1)) (Gen.V1 m c main_v0) (Gen.V1 m c main_v1) (Gen.V1 m c main_v2) (Gen.V1 m c main_v3))
        (m ((c : Thread nD τ).loc main_arg0)) (Gen.V1 m c main_v4) (Gen.V1 m c main_v5) (Gen.V1 m c main_v6) (Gen.V1 m c main_v7)
      = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [bridge_chan m c]
  funext i
  obtain ⟨b, p, o, rfl⟩ : ∃ (b : Fin 16) (p : Fin 2048) (o : Fin 32), i = ix3 b p o := ⟨i 0, i 1, i 2, eq_ix3 i⟩
  rw [pathArr_apply, Cert.ReferenceIdeal.RefSide.ref_newPath]
  have h0 : (fun (j : Fin 96) (k : Fin 32) => Gen.V1 m c main_v4 (ix2 k j)) = fun j k => m ((c : Thread nD τ).loc main_arg7) (ix2 j k) :=
    funext fun j => funext fun k => V1_main_v4 m c k j
  have h1 : (fun (j : Fin 96) (k : Fin 32) => Gen.V1 m c main_v5 (ix2 k j)) = fun j k => m ((c : Thread nD τ).loc main_arg8) (ix2 j k) :=
    funext fun j => funext fun k => V1_main_v5 m c k j
  have h2 : (fun (j : Fin 96) => Gen.V1 m c main_v6 (ix2 (0 : Fin 1) j)) = fun j => m ((c : Thread nD τ).loc main_arg9) (ix1 j) :=
    funext fun j => V1_main_v6 m c j
  have h3 : (fun (j : Fin 96) => Gen.V1 m c main_v7 (ix2 (0 : Fin 1) j)) = fun j => m ((c : Thread nD τ).loc main_arg10) (ix1 j) :=
    funext fun j => V1_main_v7 m c j
  rw [h0, h1, h2, h3]
  rfl

end Cert.KernelIdeal.Bridge

end
-- ==== Proof.Claims.lean ====
/-
  The assembly: the kernel program's two result arrays, as its run leaves them, are the reference program's
  two results on the same argument arrays; hence the certificate's claims at the ideal instance.
-/
import proofs.«126749_j44126493999752_2_alg».proof.Defs
import proofs.«126749_j44126493999752_2_alg».proof.Proof.Run
import proofs.«126749_j44126493999752_2_alg».proof.Proof.Value0
import proofs.«126749_j44126493999752_2_alg».proof.Proof.Value1
import proofs.«126749_j44126493999752_2_alg».proof.Proof.Bridge
import proofs.«126749_j44126493999752_2_alg».proof.Proof.Gen.ReferenceIdeal.Read
import proofs.«126749_j44126493999752_2_alg».proof.Proof.Gen.Pre_finite_inputs

noncomputable section

namespace Cert.KernelIdeal.Hand

open Cert.KernelIdeal Cert.KernelIdeal.Gen
open Idealize.ShloMosaic Idealize.ShloMosaic.TcCoe
open Idealize.SL Idealize.SL.Sem

/-- The first region's result array is the specification's channel array of the launch memory's arguments and the
    host operations' transposed weights and reshaped biases. -/
theorem chan_val (m : (ℓ : Loc nD τ sig) → Buf (Elt Ideal) ℓ) (c : Dev nD) :
    (dat0 (F := Ideal) (E1 m) c).arrAt 7 cfg0.N = Cert.GruSpec.chanArr (m ((c.tc : Thread nD τ).loc main_arg2)) (m ((c.tc : Thread nD τ).loc main_arg0)) (m ((c.tc : Thread nD τ).loc main_arg1)) (Gen.V1 m c main_v0) (Gen.V1 m c main_v1) (Gen.V1 m c main_v2) (Gen.V1 m c main_v3) := by
  have e0 : E1 m c main_arg0 = m ((c.tc : Thread nD τ).loc main_arg0) := W1_main_arg0 m c
  have e1 : E1 m c main_arg1 = m ((c.tc : Thread nD τ).loc main_arg1) := W1_main_arg1 m c
  have e2 : E1 m c main_arg2 = m ((c.tc : Thread nD τ).loc main_arg2) := W1_main_arg2 m c
  have h := final0 (E1 m) c
  rw [e0, e1, e2] at h
  exact h

/-- The first region's result array is the reference's updated channel states. -/
theorem kv8 (m : (ℓ : Loc nD τ sig) → Buf (Elt Ideal) ℓ) (c : Dev nD) :
    (dat0 (F := Ideal) (E1 m) c).arrAt 7 cfg0.N = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (chan_val m c).trans (Bridge.bridge_chan m c)

/-- The second region's result array is the reference's updated path states. -/
theorem kv9 (m : (ℓ : Loc nD τ sig) → Buf (Elt Ideal) ℓ) (c : Dev nD) :
    (dat1 (F := Ideal) (E2 m) c).arrAt 7 cfg1.N = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e0 : E2 m c main_arg0 = m ((c.tc : Thread nD τ).loc main_arg0) := W2_main_arg0 m c
  have e2 : E2 m c main_arg2 = m ((c.tc : Thread nD τ).loc main_arg2) := W2_main_arg2 m c
  have e4 : E2 m c main_v4 = Gen.V1 m c main_v4 := W2_main_v4 m c
  have e5 : E2 m c main_v5 = Gen.V1 m c main_v5 := W2_main_v5 m c
  have e6 : E2 m c main_v6 = Gen.V1 m c main_v6 := W2_main_v6 m c
  have e7 : E2 m c main_v7 = Gen.V1 m c main_v7 := W2_main_v7 m c
  have e8 : E2 m c main_v8 = Cert.GruSpec.chanArr (m ((c.tc : Thread nD τ).loc main_arg2)) (m ((c.tc : Thread nD τ).loc main_arg0)) (m ((c.tc : Thread nD τ).loc main_arg1)) (Gen.V1 m c main_v0) (Gen.V1 m c main_v1) (Gen.V1 m c main_v2) (Gen.V1 m c main_v3) :=
    (W2_main_v8 m c).trans (chan_val m c)
  have h := final1 (E2 m) c
  rw [e0, e2, e4, e5, e6, e7, e8] at h
  exact h.trans (Bridge.bridge_path m c)

/-- The kernel program's run with its two results as the reference's stages of the launch memory's arguments. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v8) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (kv9 m c), (h c).2.1.trans (kv8 m c), (h c).2.2⟩) (run_values m ρ)

/-- At the ideal instance the two programs, from memories that agree on the arguments, end with equal results:
    both results are the reference's stages of the argument arrays. -/
theorem algebraic : Cert.algebraic_KernelIdeal_ReferenceIdeal := by
  intro m ρ m' ρ' _ hagree
  refine ⟨fun c => Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)),
    fun c => Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v83_eq m' c, h0, h1, h2, h3, h4, h5, h6, h7, h8, h9, h10]
  · obtain ⟨h0, h1, h2, h3, h4, h5, h6, h7, h8, h9, h10⟩ := hagree c
    rw [Cert.ReferenceIdeal.Read.val_main_v41_eq m' c, h0, h1, h2, h3, h4, h5, h6]

/-- The idealized kernel program runs and leaves its arguments unchanged. -/
theorem frame_ki : Cert.frame_KernelIdeal := fun m ρ _ => frame (F := Ideal) m ρ

/-- The idealized reference program runs and leaves its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

end Cert.KernelIdeal.Hand

end
-- ==== Proof.lean ====
/-
  Two rounds of message passing on a bipartite graph, each followed by a gated recurrent update: the kernel computes
  them with two tiled pipelines, the reference with whole-array operations; at the ideal instance both produce the same
  arrays.

  Every batch entry (16 of them) has 2048 path nodes and 2048 channel nodes with 32 features each and a 2048 × 2048
  adjacency matrix. A channel node receives the adjacency-weighted sum of the path states; its new state is the gated
  cell (Proof/Spec.lean) of its old state and that message. A path node then receives the adjacency-weighted sum of
  the NEW channel states and is updated by a second cell with its own weights.

  The kernel's first pipeline visits each batch entry at two grid points, adding at each the product of a
  1024-row slab of the adjacency matrix (transposed) with the matching slab of path states into an accumulator that
  it keeps between the two points, and applies the cell at the second point. The reference contracts all 2048 rows at
  once. The two sums differ only in how the 2048 terms are grouped: 0 + (rows 0–1023) + (rows 1024–2047) against one
  sum over all rows, equal by associativity and commutativity of addition on the extended reals; nothing else
  separates the two sides (rounding to bf16 before a product is the identity at the ideal instance; the host's
  expansion 1 / (1 + e^(−x)) is the logistic function). No finiteness of the inputs is used.

  The second pipeline computes, per 512-row slab of path nodes, the product of the adjacency slab with the new channel
  states of the entry and the cell, with no state kept between points.

  Frames: each program runs to the end, faults nowhere and leaves its argument arrays as launched. For the kernel
  (read at words and at the ideal instance by the same text, generic in the float instance) this is the run of its
  three items — eight host operations, the first pipeline, the second — each pipeline's body executed symbolically at
  a generic grid point (Proof/Body0, Body1), the accumulator carried from point to point by the first region's
  invariant (Proof/Data0), the buffers' contents threaded through the items (Proof/Run). The reference's frame is its
  generated run with the results dropped.

  Values: what the two regions write back is read off their proof data as whole arrays (Proof/Value0, Value1) over the
  bodies' arithmetic read at an index (Proof/PaySide), the reference's stages are the same functions
  (Proof/RefSide, over the generated read-at-an-index lemmas), and the host operations in front of the kernel only
  transpose the weights and reshape the biases (Proof/Layout, Proof/Bridge). Proof/Claims assembles the claims.
-/
import proofs.«126749_j44126493999752_2_alg».proof.Defs
import proofs.«126749_j44126493999752_2_alg».proof.Proof.Gen.Kernel
import proofs.«126749_j44126493999752_2_alg».proof.Proof.Gen.KernelIdeal
import proofs.«126749_j44126493999752_2_alg».proof.Proof.Gen.ReferenceIdeal
import proofs.«126749_j44126493999752_2_alg».proof.Proof.Gen.Pre_finite_inputs
import proofs.«126749_j44126493999752_2_alg».proof.Proof.RunK
import proofs.«126749_j44126493999752_2_alg».proof.Proof.Claims
import Idealize.ShloMosaic.Adequacy
import Idealize.ShloMosaic.Init

noncomputable section

namespace Cert.Proof

open Idealize.ShloMosaic Idealize.SL.Sem

/-- The word-level kernel's frame: the run of its three items at the bit-exact instance. -/
theorem frame_k : Cert.frame_Kernel := fun m ρ _ => Cert.Kernel.Hand.frame (F := Bits) m ρ

theorem claim : Cert.Claim := ⟨Cert.Kernel.Gen.facts, Cert.KernelIdeal.Gen.facts, Cert.ReferenceIdeal.Gen.facts, Cert.Pre_finite_inputs.Gen.facts,
  frame_k, Cert.KernelIdeal.Hand.frame_ki, Cert.KernelIdeal.Hand.frame_ri, trivial, Cert.KernelIdeal.Hand.algebraic⟩

end Cert.Proof

end
